-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S2x524288 : Shape := ⟨2, ![2, 524288]⟩
abbrev S8192x128 : Shape := ⟨2, ![8192, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x524288 : S_.BroadcastsInDim S2x524288 (![] : Fin 0 → Fin S2x524288.rank)
  reducesTo_S2x524288_S_d0_1 : S2x524288.ReducesTo [0, 1] S_

variable [Facts]

def fn_part1 {F : FTy → Type} [FloatOps F] (main_arg1 : IVec S2x524288 32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x524288 32 := broadcastInDim S2x524288 ![] bcast_S_S2x524288 main_c_8
  let main_v25 : IVec S2x524288 1 := cmpi .sge main_arg1 main_v24
  let main_c_9 : IVec S_ 32 := constantI S_ 32 8192#32
  let main_v26 : IVec S2x524288 32 := broadcastInDim S2x524288 ![] bcast_S_S2x524288 main_c_9
  let main_v27 : IVec S2x524288 1 := cmpi .slt main_arg1 main_v26
  let main_v28 : IVec S2x524288 1 := andi main_v25 main_v27
  let main_c_10 : IVec S_ 1 := constantI S_ 1 1#1
  let main_v29 : IVec S_ 1 := (fun x v => Host.reduce IntOp.andi x v reducesTo_S2x524288_S_d0_1 h_S_) main_v28 main_c_10
  let main_v30 : IVec S_ 1 := andi main_v23 main_v29
  main_v30

def fn {F : FTy → Type} [FloatOps F] (main_arg0 : IVec S8192 32) (main_arg1 : IVec S2x524288 32) (main_arg2 : FVec F S8192x128 .f32) (main_arg3 : FVec F S128x256 .f32) (main_arg4 : FVec F S256 .f32) (main_arg5 : FVec F S256x128 .f32) (main_arg6 : FVec F S128 .f32) : IVec S_ 1 :=
  let main_v0 : FVec F S8192x128 .f32 := Host.absf main_arg2
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_v13 main_v16
-- ==== Kernel.lean ====
abbrev S8192 : Shape := ⟨1, ![8192]⟩
abbrev S2x524288 : Shape := ⟨2, ![2, 524288]⟩
abbrev S8192x128 : Shape := ⟨2, ![8192, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S8192x1 : Shape := ⟨2, ![8192, 1]⟩
abbrev S1x524288 : Shape := ⟨2, ![1, 524288]⟩
abbrev S524288 : Shape := ⟨1, ![524288]⟩
abbrev S524288x1 : Shape := ⟨2, ![524288, 1]⟩
abbrev S532480 : Shape := ⟨1, ![532480]⟩
abbrev S8192x8192 : Shape := ⟨2, ![8192, 8192]⟩
abbrev S532480x1 : Shape := ⟨2, ![532480, 1]⟩
abbrev S532480x2 : Shape := ⟨2, ![532480, 2]⟩
abbrev S8192x256 : Shape := ⟨2, ![8192, 256]⟩
abbrev S1024x128 : Shape := ⟨2, ![1024, 128]⟩
abbrev S1024x256 : Shape := ⟨2, ![1024, 256]⟩
abbrev S1x256 : Shape := ⟨2, ![1, 256]⟩
abbrev S512x8192 : Shape := ⟨2, ![512, 8192]⟩
abbrev S512x256 : Shape := ⟨2, ![512, 256]⟩
abbrev S1x128 : Shape := ⟨2, ![1, 128]⟩
abbrev S512x128 : Shape := ⟨2, ![512, 128]⟩
abbrev S2048x128 : Shape := ⟨2, ![2048, 128]⟩
abbrev S1024x2048 : Shape := ⟨2, ![1024, 2048]⟩

abbrev nBuf : Space → Nat
  | .hbm => 82
  | .vmem => 28
  | .smem => 0
  | _ => 0

abbrev bufTy : (tb : Table) → Fin (tcTables nBuf tb) → BufTy
  | .hbm, ⟨0, _⟩ => ⟨S8192, .i32⟩
  | .hbm, ⟨1, _⟩ => ⟨S2x524288, .i32⟩
  | .hbm, ⟨2, _⟩ => ⟨S8192x128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x128, .f32⟩
  | .hbm, ⟨16, _⟩ => ⟨S1x524288, .i32⟩
  | .hbm, ⟨17, _⟩ => ⟨S524288, .i32⟩
  | .hbm, ⟨18, _⟩ => ⟨S1x524288, .i32⟩
  | .hbm, ⟨19, _⟩ => ⟨S524288, .i32⟩
  | .hbm, ⟨20, _⟩ => ⟨S_, .f32⟩
  | .hbm, ⟨21, _⟩ => ⟨S524288, .f32⟩
  | .hbm, ⟨22, _⟩ => ⟨S_, .f32⟩
  | .hbm, ⟨23, _⟩ => ⟨S8192, .f32⟩
  | .hbm, ⟨24, _⟩ => ⟨S524288x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288, .f32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288, .f32⟩
  | .hbm, ⟨48, _⟩ => ⟨S524288, .f32⟩
  | .hbm, ⟨49, _⟩ => ⟨S8192, .i32⟩
  | .hbm, ⟨50, _⟩ => ⟨S8192, .f32⟩
  | .hbm, ⟨51, _⟩ => ⟨S532480, .i32⟩
  | .hbm, ⟨52, _⟩ => ⟨S532480, .i32⟩
  | .hbm, ⟨53, _⟩ => ⟨S532480, .f32⟩
  | .hbm, ⟨54, _⟩ => ⟨S_, .f32⟩
  | .hbm, ⟨55, _⟩ => ⟨S8192x8192, .f32⟩
  | .hbm, ⟨56, _⟩ => ⟨S_, .i32⟩
  | .hbm, ⟨57, _⟩ => ⟨S532480, .i32⟩
  | .hbm, ⟨58, _⟩ => ⟨S532480, .i1⟩
  | .hbm, ⟨59, _⟩ => ⟨S_, .i32⟩
  | .hbm, ⟨60, _⟩ => ⟨S532480, .i32⟩
  | .hbm, ⟨61, _⟩ => ⟨S532480, .i32⟩
  | .hbm, ⟨62, _⟩ => ⟨S532480, .i32⟩
  | .hbm, ⟨63, _⟩ => ⟨S_, .i32⟩
  | .hbm, ⟨64, _⟩ => ⟨S532480, .i32⟩
  | .hbm, ⟨65, _⟩ => ⟨S532480, .i1⟩
  | .hbm, ⟨66, _⟩ => ⟨S_, .i32⟩
  | .hbm, ⟨67, _⟩ => ⟨S532480, .i32⟩
  | .hbm, ⟨68, _⟩ => ⟨S532480, .i32⟩
  | .hbm, ⟨69, _⟩ => ⟨S532480, .i32⟩
  | .hbm, ⟨70, _⟩ => ⟨S532480x1, .i32⟩
  | .hbm, ⟨71, _⟩ => ⟨S532480x1, .i32⟩
  | .hbm, ⟨72, _⟩ => ⟨S532480x2, .i32⟩
  | .hbm, ⟨73, _⟩ => ⟨S8192x8192, .f32⟩
  | .hbm, ⟨74, _⟩ => ⟨S8192x8192, .bf16⟩
  | .hbm, ⟨75, _⟩ => ⟨S8192x256, .bf16⟩
  | .hbm, ⟨76, _⟩ => ⟨S1x256, .f32⟩
  | .hbm, ⟨77, _⟩ => ⟨S8192x256, .f32⟩
  | .hbm, ⟨78, _⟩ => ⟨S8192x128, .bf16⟩
  | .hbm, ⟨79, _⟩ => ⟨S1x128, .f32⟩
  | .hbm, ⟨80, _⟩ => ⟨S8192x128, .bf16⟩
  | .hbm, ⟨81, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1024x256, .bf16⟩
  | .local _ .vmem, ⟨4, _⟩ => ⟨S1024x256, .bf16⟩
  | .local _ .vmem, ⟨5, _⟩ => ⟨S512x8192, .bf16⟩
  | .local _ .vmem, ⟨6, _⟩ => ⟨S512x8192, .bf16⟩
  | .local _ .vmem, ⟨7, _⟩ => ⟨S8192x256, .bf16⟩
  | .local _ .vmem, ⟨8, _⟩ => ⟨S1x256, .f32⟩
  | .local _ .vmem, ⟨9, _⟩ => ⟨S512x256, .f32⟩
  | .local _ .vmem, ⟨10, _⟩ => ⟨S512x256, .f32⟩
  | .local _ .vmem, ⟨11, _⟩ => ⟨S1024x256, .f32⟩
  | .local _ .vmem, ⟨12, _⟩ => ⟨S1024x256, .f32⟩
  | .local _ .vmem, ⟨13, _⟩ => ⟨S256x128, .f32⟩
  | .local _ .vmem, ⟨14, _⟩ => ⟨S1024x128, .bf16⟩
  | .local _ .vmem, ⟨15, _⟩ => ⟨S1024x128, .bf16⟩
  | .local _ .vmem, ⟨16, _⟩ => ⟨S512x8192, .bf16⟩
  | .local _ .vmem, ⟨17, _⟩ => ⟨S512x8192, .bf16⟩
  | .local _ .vmem, ⟨18, _⟩ => ⟨S8192x128, .bf16⟩
  | .local _ .vmem, ⟨19, _⟩ => ⟨S1x128, .f32⟩
  | .local _ .vmem, ⟨20, _⟩ => ⟨S512x128, .bf16⟩
  | .local _ .vmem, ⟨21, _⟩ => ⟨S512x128, .bf16⟩
  | .local _ .vmem, ⟨22, _⟩ => ⟨S1024x128, .bf16⟩
  | .local _ .vmem, ⟨23, _⟩ => ⟨S1024x128, .bf16⟩
  | .local _ .vmem, ⟨24, _⟩ => ⟨S2048x128, .bf16⟩
  | .local _ .vmem, ⟨25, _⟩ => ⟨S2048x128, .bf16⟩
  | .local _ .vmem, ⟨26, _⟩ => ⟨S1024x2048, .f32⟩
  | .local _ .vmem, ⟨27, _⟩ => ⟨S1024x2048, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288_S8192_S532480_d0 : Shape.Concatenates [S524288, S8192] S532480 0
  bcast_S_S8192x8192 : S_.BroadcastsInDim S8192x8192 (![] : Fin 0 → Fin S8192x8192.rank)
  bcast_S_S532480 : S_.BroadcastsInDim S532480 (![] : Fin 0 → Fin S532480.rank)
  bcast_S532480_S532480x1_0 : S532480.BroadcastsInDim S532480x1 (![0] : Fin 1 → Fin S532480x1.rank)
  concatenates_S532480x1_S532480x1_S532480x2_d1 : Shape.Concatenates [S532480x1, S532480x1] S532480x2 1
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  gather_S8192x128_S8192x1_S8192x128_1_0_n_n_0_1_1128_wf : GatherDims.WF S8192x128 S8192x1 S8192x128 [1] [0] [] [0] [] 1 ![1, 128]
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  scatter_S8192x8192_S532480x2_S532480_n_01_01_1_wf : ScatterDims.WF S8192x8192 S532480x2 S532480 [] [0, 1] [0, 1] 1
  dot_S1024x128_S128x256_S1024x256_1_0_0_1_n_n_wf : DotDims.WF S1024x128 S128x256 S1024x256 [1] [0] [0] [1] [] []
  dot_S512x8192_S8192x256_S512x256_1_0_0_1_n_n_wf : DotDims.WF S512x8192 S8192x256 S512x256 [1] [0] [0] [1] [] []
  dot_S1024x256_S256x128_S1024x128_1_0_0_1_n_n_wf : DotDims.WF S1024x256 S256x128 S1024x128 [1] [0] [0] [1] [] []
  dot_S512x8192_S8192x128_S512x128_1_0_0_1_n_n_wf : DotDims.WF S512x8192 S8192x128 S512x128 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .f32 = 32 ∨ (Rect.block (s := S8192x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .bf16 = 32 ∨ (Rect.block (s := S8192x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .bf16 = 32 ∨ (Rect.block (s := S8192x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .bf16 = 32 ∨ (Rect.block (s := S8192x128) S8192x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S8192x128.size a
  hwx3_3 : ∀ i : grid3.Coords, EltTy.bits .bf16 = 32 ∨ (Rect.block (s := S8192x128) S512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .bf16 = 32 ∨ (Rect.block (s := S8192x128) S1024x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S8192x128.size a
  hwx4_1 : ∀ i : grid4.Coords, EltTy.bits .bf16 = 32 ∨ (Rect.block (s := S8192x128) S2048x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S8192x8192.size a
  hwx4_2 : ∀ i : grid4.Coords, EltTy.bits .f32 = 32 ∨ (Rect.block (s := S8192x8192) S1024x2048.size (cc4_transform_2 i) (hinb4_2 i)).WholeWords (EltTy.packing .f32)

variable [Facts₀]

def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def scatter_S8192x8192_S532480x2_S532480_n_01_01_1 : ScatterDims S8192x8192 S532480x2 S532480 where
  updateWindowDims := []
  insertedWindowDims := [0, 1]
  scatterDimsToOperandDims := [0, 1]
  indexVectorDim := 1
  wf := scatter_S8192x8192_S532480x2_S532480_n_01_01_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1024x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192 : Shape := ⟨1, ![8192]⟩
abbrev S2x524288 : Shape := ⟨2, ![2, 524288]⟩
abbrev S8192x128 : Shape := ⟨2, ![8192, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S8192x1 : Shape := ⟨2, ![8192, 1]⟩
abbrev S1x524288 : Shape := ⟨2, ![1, 524288]⟩
abbrev S524288 : Shape := ⟨1, ![524288]⟩
abbrev S8192x256 : Shape := ⟨2, ![8192, 256]⟩
abbrev S524288x1 : Shape := ⟨2, ![524288, 1]⟩
abbrev S524288x256 : Shape := ⟨2, ![524288, 256]⟩
abbrev S1x256 : Shape := ⟨2, ![1, 256]⟩
abbrev S524288x128 : Shape := ⟨2, ![524288, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 145
  | .vmem => 0
  | .smem => 0
  | _ => 0

abbrev hbmTy0_0 (i : Nat) : BufTy := match i % 128 with
  | 0 => ⟨S8192, .i32⟩
  | 1 => ⟨S2x524288, .i32⟩
  | 2 => ⟨S8192x128, .f32⟩
  | 3 => ⟨S128x256, .f32⟩
  | 4 => ⟨S256, .f32⟩
  | 5 => ⟨S256x128, .f32⟩
  | 6 => ⟨S128, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x128, .f32⟩
  | 16 => ⟨S1x524288, .i32⟩
  | 17 => ⟨S524288, .i32⟩
  | 18 => ⟨S1x524288, .i32⟩
  | 19 => ⟨S524288, .i32⟩
  | 20 => ⟨S8192x256, .f32⟩
  | 21 => ⟨S_, .f32⟩
  | 22 => ⟨S524288, .f32⟩
  | 23 => ⟨S_, .f32⟩
  | 24 => ⟨S8192, .f32⟩
  | 25 => ⟨S524288x1, .i32⟩
  | 26 => ⟨S8192, .f32⟩
  | 27 => ⟨S_, .f32⟩
  | 28 => ⟨S8192, .f32⟩
  | 29 => ⟨S8192, .f32⟩
  | 30 => ⟨S8192, .f32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288, .f32⟩
  | 40 => ⟨S_, .i32⟩
  | 41 => ⟨S524288, .i32⟩
  | 42 => ⟨S524288, .i1⟩
  | 43 => ⟨S_, .i32⟩
  | 44 => ⟨S524288, .i32⟩
  | 45 => ⟨S524288, .i32⟩
  | 46 => ⟨S524288, .i32⟩
  | 47 => ⟨S524288x1, .i32⟩
  | 48 => ⟨S524288, .f32⟩
  | 49 => ⟨S524288, .f32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S524288x256, .f32⟩
  | 59 => ⟨S524288x1, .f32⟩
  | 60 => ⟨S524288x256, .f32⟩
  | 61 => ⟨S524288x256, .f32⟩
  | 62 => ⟨S_, .f32⟩
  | 63 => ⟨S8192x256, .f32⟩
  | 64 => ⟨S524288x1, .i32⟩
  | 65 => ⟨S8192x256, .f32⟩
  | 66 => ⟨S8192, .f32⟩
  | 67 => ⟨S8192x1, .f32⟩
  | 68 => ⟨S8192x256, .f32⟩
  | 69 => ⟨S8192x256, .f32⟩
  | 70 => ⟨S8192x256, .f32⟩
  | 71 => ⟨S1x256, .f32⟩
  | 72 => ⟨S8192x256, .f32⟩
  | 73 => ⟨S8192x256, .f32⟩
  | 74 => ⟨S_, .f32⟩
  | 75 => ⟨S8192x256, .f32⟩
  | 76 => ⟨S8192x256, .f32⟩
  | 77 => ⟨S1x524288, .i32⟩
  | 78 => ⟨S524288, .i32⟩
  | 79 => ⟨S1x524288, .i32⟩
  | 80 => ⟨S524288, .i32⟩
  | 81 => ⟨S8192x128, .f32⟩
  | 82 => ⟨S_, .f32⟩
  | 83 => ⟨S524288, .f32⟩
  | 84 => ⟨S_, .f32⟩
  | 85 => ⟨S8192, .f32⟩
  | 86 => ⟨S524288x1, .i32⟩
  | 87 => ⟨S8192, .f32⟩
  | 88 => ⟨S_, .f32⟩
  | 89 => ⟨S8192, .f32⟩
  | 90 => ⟨S8192, .f32⟩
  | 91 => ⟨S8192, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288, .f32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288, .f32⟩
  | 110 => ⟨S524288, .f32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S524288x1, .i32⟩
  | 119 => ⟨S524288x128, .f32⟩
  | 120 => ⟨S524288x1, .f32⟩
  | 121 => ⟨S524288x128, .f32⟩
  | 122 => ⟨S524288x128, .f32⟩
  | 123 => ⟨S_, .f32⟩
  | 124 => ⟨S8192x128, .f32⟩
  | 125 => ⟨S524288x1, .i32⟩
  | 126 => ⟨S8192x128, .f32⟩
  | 127 => ⟨S8192, .f32⟩
  | _ => ⟨S8192, .i32⟩

abbrev hbmTy0_1 (i : Nat) : BufTy := match i % 128 with
  | 0 => ⟨S8192x1, .f32⟩
  | 1 => ⟨S8192x128, .f32⟩
  | 2 => ⟨S8192x128, .f32⟩
  | 3 => ⟨S8192x128, .f32⟩
  | 4 => ⟨S1x128, .f32⟩
  | 5 => ⟨S8192x128, .f32⟩
  | 6 => ⟨S8192x128, .f32⟩
  | 7 => ⟨S128x8192, .f32⟩
  | 8 => ⟨S8192x8192, .f32⟩
  | 9 => ⟨S8192x8192, .f32⟩
  | 10 => ⟨S8192x8192, .f32⟩
  | 11 => ⟨S_, .f32⟩
  | 12 => ⟨S8192x8192, .f32⟩
  | 13 => ⟨S8192x8192, .f32⟩
  | 14 => ⟨S_, .f32⟩
  | 15 => ⟨S8192x8192, .f32⟩
  | 16 => ⟨S8192x8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_cst : Ref sig .tc := ⟨.hbm, 74, rfl⟩
abbrev main_call0_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_17 : Ref sig .tc := ⟨.hbm, 111, rfl⟩
abbrev main_v83 : Ref sig .tc := ⟨.hbm, 112, rfl⟩
abbrev main_v84 : Ref sig .tc := ⟨.hbm, 113, rfl⟩
abbrev main_c_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_19 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_20 : Ref sig .tc := ⟨.hbm, 139, rfl⟩
abbrev main_v108 : Ref sig .tc := ⟨.hbm, 140, rfl⟩
abbrev main_v109 : Ref sig .tc := ⟨.hbm, 141, rfl⟩
abbrev main_cst_21 : Ref sig .tc := ⟨.hbm, 142, rfl⟩
abbrev main_v110 : Ref sig .tc := ⟨.hbm, 143, rfl⟩
abbrev main_v111 : Ref sig .tc := ⟨.hbm, 144, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S524288x1_S524288x128_0_1 : S524288x1.BroadcastsInDim S524288x128 (![0, 1] : Fin 2 → Fin S524288x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  gather_S8192x128_S8192x1_S8192x128_1_0_n_n_0_1_1128_wf : GatherDims.WF S8192x128 S8192x1 S8192x128 [1] [0] [] [0] [] 1 ![1, 128]
  dot_S8192x128_S128x256_S8192x256_1_0_0_1_n_n_wf : DotDims.WF S8192x128 S128x256 S8192x256 [1] [0] [0] [1] [] []
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  gather_S8192x256_S524288x1_S524288x256_1_0_n_n_0_1_1256_wf : GatherDims.WF S8192x256 S524288x1 S524288x256 [1] [0] [] [0] [] 1 ![1, 256]
  scatter_S8192x256_S524288x1_S524288x256_1_0_0_1_wf : ScatterDims.WF S8192x256 S524288x1 S524288x256 [1] [0] [0] 1
  dot_S8192x256_S256x128_S8192x128_1_0_0_1_n_n_wf : DotDims.WF S8192x256 S256x128 S8192x128 [1] [0] [0] [1] [] []
  gather_S8192x128_S524288x1_S524288x128_1_0_n_n_0_1_1128_wf : GatherDims.WF S8192x128 S524288x1 S524288x128 [1] [0] [] [0] [] 1 ![1, 128]
  scatter_S8192x128_S524288x1_S524288x128_1_0_0_1_wf : ScatterDims.WF S8192x128 S524288x1 S524288x128 [1] [0] [0] 1
  dot_S8192x128_S128x8192_S8192x8192_1_0_0_1_n_n_wf : DotDims.WF S8192x128 S128x8192 S8192x8192 [1] [0] [0] [1] [] []

variable [Facts₀]

def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def gather_S8192x256_S524288x1_S524288x256_1_0_n_n_0_1_1256 : GatherDims S8192x256 S524288x1 S524288x256 where
  offsetDims := [1]
  collapsedSliceDims := [0]
  operandBatchingDims := []
  startIndicesBatchingDims := []
  startIndexMap := [0]
  indexVectorDim := 1
  sliceSizes := ![1, 256]
  wf := gather_S8192x256_S524288x1_S524288x256_1_0_n_n_0_1_1256_wf
def scatter_S8192x256_S524288x1_S524288x256_1_0_0_1 : ScatterDims S8192x256 S524288x1 S524288x256 where
  updateWindowDims := [1]
  insertedWindowDims := [0]
  scatterDimsToOperandDims := [0]
  indexVectorDim := 1
  wf := scatter_S8192x256_S524288x1_S524288x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S524288x1_S524288x128_1_0_n_n_0_1_1128 : GatherDims S8192x128 S524288x1 S524288x128 where
  offsetDims := [1]
  collapsedSliceDims := [0]
  operandBatchingDims := []
  startIndicesBatchingDims := []
  startIndexMap := [0]
  indexVectorDim := 1
  sliceSizes := ![1, 128]
  wf := gather_S8192x128_S524288x1_S524288x128_1_0_n_n_0_1_1128_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody0.lean ====
import proofs.«166453_j25847113187564_2_alg».proof.Proof.Gen.Kernel.Launch
import proofs.«166453_j25847113187564_2_alg».proof.Proof.Gen.Kernel.Skeleton
import proofs.«166453_j25847113187564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of the program's entry function: the body half of its frame

The region runs the kernel function `cc0__linear_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whenever the body runs, the window's current staging buffer holds the window's block
    at that point.  If the pipeline fetched there this is what the fetch wrote; if it did not, the block index
    has not moved since the previous point and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whenever the body runs, the window's current staging buffer holds the window's block
    at that point.  If the pipeline fetched there this is what the fetch wrote; if it did not, the block index
    has not moved since the previous point and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole of a staging buffer -/

abbrev r0_0 : Rect S1024x256 := Rect.unit (s := S1024x256) ![0, 0] S1024x256.size inb_S1024x256_S1024x256_0_0
abbrev l0_0 : Rect S1024x128 := Rect.unit (s := S1024x128) ![0, 0] S1024x128.size inb_S1024x128_S1024x128_0_0
abbrev l0_1 : Rect S128x256 := Rect.unit (s := S128x256) ![0, 0] S128x256.size inb_S128x256_S128x256_0_0

/-! ## What the body leaves in the output window's buffer -/

/-- Window 2's staging buffer after the body, as a function of the input windows' blocks: the one store's
    payload laid over the whole buffer. -/
def out0_2 (x0 : Vec F S1024x128 .f32) (x1 : Vec F S128x256 .f32) : Vec F S1024x256 .bf16 :=
  View.canon [⟨r0_0, k0_pay1 (View.ld x0 l0_0) (View.ld x1 l0_1)⟩]

/-- The store's rectangle is the whole buffer, so it covers every index. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The kernel function on whole staging buffers — the inputs' at read contents `x`, the output's at any
    contents — runs without fault to a continuation that holds the inputs' buffers unchanged and the output's at
    `out0_2` of the inputs.  The function first loads each input, then loads the output buffer (a value it
    never uses), then stores the payload over the whole output buffer. -/
theorem sound_kernel0 (c : Dev nD) (E : Set ℕ) (i : grid0.Coords) (a0 : Memref sig .tc .vmem S1024x128 .f32) (ha0 : a0.IsWhole) (a1 : Memref sig .tc .vmem S128x256 .f32) (ha1 : a1.IsWhole) (a2 : Memref sig .tc .vmem S1024x256 .bf16) (ha2 : a2.IsWhole)
    (x0 : Vec F S1024x128 .f32) (x1 : Vec F S128x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-! ## The pipeline's proof data -/

/-- The proof data of pipeline 0 on core `c`: the windows' arrays as the region finds them; after the body at
    point `t`, each input's buffer at its block and the output's at `out0_2` of the input blocks; the
    invariant is the one of a body that touches nothing but its staging buffers; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KBody1.lean ====
import proofs.«166453_j25847113187564_2_alg».proof.Proof.Gen.Kernel.Launch
import proofs.«166453_j25847113187564_2_alg».proof.Proof.Gen.Kernel.Skeleton
import proofs.«166453_j25847113187564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of the program's entry function: the body half of its frame

The region runs the kernel function `cc1__gcn_agg_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body runs, the window's current staging buffer holds the window's block
    at that point.  If the pipeline fetched there this is what the fetch wrote; if it did not, the block index
    has not moved since the previous point and the body left the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whenever the body runs, the window's current staging buffer holds the window's block
    at that point.  If the pipeline fetched there this is what the fetch wrote; if it did not, the block index
    has not moved since the previous point and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whenever the body runs, the window's current staging buffer holds the window's block
    at that point.  If the pipeline fetched there this is what the fetch wrote; if it did not, the block index
    has not moved since the previous point and the body left the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole of a staging buffer -/

abbrev r1_0 : Rect S512x256 := Rect.unit (s := S512x256) ![0, 0] S512x256.size inb_S512x256_S512x256_0_0
abbrev l1_0 : Rect S512x8192 := Rect.unit (s := S512x8192) ![0, 0] S512x8192.size inb_S512x8192_S512x8192_0_0
abbrev l1_1 : Rect S8192x256 := Rect.unit (s := S8192x256) ![0, 0] S8192x256.size inb_S8192x256_S8192x256_0_0
abbrev l1_2 : Rect S1x256 := Rect.unit (s := S1x256) ![0, 0] S1x256.size inb_S1x256_S1x256_0_0

/-! ## What the body leaves in the output window's buffer -/

/-- Window 3's staging buffer after the body, as a function of the input windows' blocks: the one store's
    payload laid over the whole buffer. -/
def out1_3 (x0 : Vec F S512x8192 .bf16) (x1 : Vec F S8192x256 .bf16) (x2 : Vec F S1x256 .f32) : Vec F S512x256 .f32 :=
  View.canon [⟨r1_0, k1_pay1 (View.ld x0 l1_0) (View.ld x1 l1_1) (View.ld x2 l1_2)⟩]

/-- The store's rectangle is the whole buffer, so it covers every index. -/
theorem cover1_3 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-! ## The body's triple -/

set_option maxHeartbeats 1000000 in
/-- The kernel function on whole staging buffers — the inputs' at read contents `x`, the output's at any
    contents — runs without fault to a continuation that holds the inputs' buffers unchanged and the output's at
    `out1_3` of the inputs.  The function first loads each input, then loads the output buffer (a value it
    never uses), then stores the payload over the whole output buffer. -/
theorem sound_kernel1 (c : Dev nD) (E : Set ℕ) (i : grid1.Coords) (a0 : Memref sig .tc .vmem S512x8192 .bf16) (ha0 : a0.IsWhole) (a1 : Memref sig .tc .vmem S8192x256 .bf16) (ha1 : a1.IsWhole) (a2 : Memref sig .tc .vmem S1x256 .f32) (ha2 : a2.IsWhole) (a3 : Memref sig .tc .vmem S512x256 .f32) (ha3 : a3.IsWhole)
    (x0 : Vec F S512x8192 .bf16) (x1 : Vec F S8192x256 .bf16) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__gcn_agg_kernel i a0 ha0 a1 ha1 a2 ha2 a3 ha3) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%dO, %fO, -, HO⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1_3 _)

/-! ## The pipeline's proof data -/

/-- The proof data of pipeline 1 on core `c`: the windows' arrays as the region finds them; after the body at
    point `t`, each input's buffer at its block and the output's at `out1_3` of the input blocks; the
    invariant is the one of a body that touches nothing but its staging buffers; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KBody2.lean ====
import proofs.«166453_j25847113187564_2_alg».proof.Proof.Gen.Kernel.Launch
import proofs.«166453_j25847113187564_2_alg».proof.Proof.Gen.Kernel.Skeleton
import proofs.«166453_j25847113187564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of the program's entry function: the body half of its frame

The region runs the kernel function `cc2__linear_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body runs, the window's current staging buffer holds the window's block
    at that point.  If the pipeline fetched there this is what the fetch wrote; if it did not, the block index
    has not moved since the previous point and the body left the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whenever the body runs, the window's current staging buffer holds the window's block
    at that point.  If the pipeline fetched there this is what the fetch wrote; if it did not, the block index
    has not moved since the previous point and the body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole of a staging buffer -/

abbrev r2_0 : Rect S1024x128 := Rect.unit (s := S1024x128) ![0, 0] S1024x128.size inb_S1024x128_S1024x128_0_0
abbrev l2_0 : Rect S1024x256 := Rect.unit (s := S1024x256) ![0, 0] S1024x256.size inb_S1024x256_S1024x256_0_0
abbrev l2_1 : Rect S256x128 := Rect.unit (s := S256x128) ![0, 0] S256x128.size inb_S256x128_S256x128_0_0

/-! ## What the body leaves in the output window's buffer -/

/-- Window 2's staging buffer after the body, as a function of the input windows' blocks: the one store's
    payload laid over the whole buffer. -/
def out2_2 (x0 : Vec F S1024x256 .f32) (x1 : Vec F S256x128 .f32) : Vec F S1024x128 .bf16 :=
  View.canon [⟨r2_0, k2_pay1 (View.ld x0 l2_0) (View.ld x1 l2_1)⟩]

/-- The store's rectangle is the whole buffer, so it covers every index. -/
theorem cover2_2 (p0 : Vec F S1024x128 .bf16) (y : S1024x128.Idx) :
    ∃ pc ∈ ([⟨r2_0, p0⟩] : List (View.Piece (Elt F) S1024x128 .bf16)), y ∈ pc.1.set :=
  View.cover_of_tiled [⟨r2_0, p0⟩] S1024x128.size (by rfl) y

/-! ## The body's triple -/

set_option maxHeartbeats 1000000 in
/-- The kernel function on whole staging buffers — the inputs' at read contents `x`, the output's at any
    contents — runs without fault to a continuation that holds the inputs' buffers unchanged and the output's at
    `out2_2` of the inputs.  The function first loads each input, then loads the output buffer (a value it
    never uses), then stores the payload over the whole output buffer. -/
theorem sound_kernel2 (c : Dev nD) (E : Set ℕ) (i : grid2.Coords) (a0 : Memref sig .tc .vmem S1024x256 .f32) (ha0 : a0.IsWhole) (a1 : Memref sig .tc .vmem S256x128 .f32) (ha1 : a1.IsWhole) (a2 : Memref sig .tc .vmem S1024x128 .bf16) (ha2 : a2.IsWhole)
    (x0 : Vec F S1024x256 .f32) (x1 : Vec F S256x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2_2 _)

/-! ## The pipeline's proof data -/

/-- The proof data of pipeline 2 on core `c`: the windows' arrays as the region finds them; after the body at
    point `t`, each input's buffer at its block and the output's at `out2_2` of the input blocks; the
    invariant is the one of a body that touches nothing but its staging buffers; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KBody3.lean ====
import proofs.«166453_j25847113187564_2_alg».proof.Proof.Gen.Kernel.Launch
import proofs.«166453_j25847113187564_2_alg».proof.Proof.Gen.Kernel.Skeleton
import proofs.«166453_j25847113187564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 of the program's entry function: the body half of its frame

The region runs the kernel function `cc3__gcn_agg_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body runs, the window's current staging buffer holds the window's block
    at that point.  If the pipeline fetched there this is what the fetch wrote; if it did not, the block index
    has not moved since the previous point and the body left the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whenever the body runs, the window's current staging buffer holds the window's block
    at that point.  If the pipeline fetched there this is what the fetch wrote; if it did not, the block index
    has not moved since the previous point and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whenever the body runs, the window's current staging buffer holds the window's block
    at that point.  If the pipeline fetched there this is what the fetch wrote; if it did not, the block index
    has not moved since the previous point and the body left the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole of a staging buffer -/

abbrev r3_0 : Rect S512x128 := Rect.unit (s := S512x128) ![0, 0] S512x128.size inb_S512x128_S512x128_0_0
abbrev l3_0 : Rect S512x8192 := Rect.unit (s := S512x8192) ![0, 0] S512x8192.size inb_S512x8192_S512x8192_0_0
abbrev l3_1 : Rect S8192x128 := Rect.unit (s := S8192x128) ![0, 0] S8192x128.size inb_S8192x128_S8192x128_0_0
abbrev l3_2 : Rect S1x128 := Rect.unit (s := S1x128) ![0, 0] S1x128.size inb_S1x128_S1x128_0_0

/-! ## What the body leaves in the output window's buffer -/

/-- Window 3's staging buffer after the body, as a function of the input windows' blocks: the one store's
    payload laid over the whole buffer. -/
def out3_3 (x0 : Vec F S512x8192 .bf16) (x1 : Vec F S8192x128 .bf16) (x2 : Vec F S1x128 .f32) : Vec F S512x128 .bf16 :=
  View.canon [⟨r3_0, k3_pay1 (View.ld x0 l3_0) (View.ld x1 l3_1) (View.ld x2 l3_2)⟩]

/-- The store's rectangle is the whole buffer, so it covers every index. -/
theorem cover3_3 (p0 : Vec F S512x128 .bf16) (y : S512x128.Idx) :
    ∃ pc ∈ ([⟨r3_0, p0⟩] : List (View.Piece (Elt F) S512x128 .bf16)), y ∈ pc.1.set :=
  View.cover_of_tiled [⟨r3_0, p0⟩] S512x128.size (by rfl) y

/-! ## The body's triple -/

set_option maxHeartbeats 1000000 in
/-- The kernel function on whole staging buffers — the inputs' at read contents `x`, the output's at any
    contents — runs without fault to a continuation that holds the inputs' buffers unchanged and the output's at
    `out3_3` of the inputs.  The function first loads each input, then loads the output buffer (a value it
    never uses), then stores the payload over the whole output buffer. -/
theorem sound_kernel3 (c : Dev nD) (E : Set ℕ) (i : grid3.Coords) (a0 : Memref sig .tc .vmem S512x8192 .bf16) (ha0 : a0.IsWhole) (a1 : Memref sig .tc .vmem S8192x128 .bf16) (ha1 : a1.IsWhole) (a2 : Memref sig .tc .vmem S1x128 .f32) (ha2 : a2.IsWhole) (a3 : Memref sig .tc .vmem S512x128 .bf16) (ha3 : a3.IsWhole)
    (x0 : Vec F S512x8192 .bf16) (x1 : Vec F S8192x128 .bf16) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out3_3 x0 x1 x2)) -∗ K ⟨⟩))
      ⊢ wp frame (wpE (defs₀ (F := F)) Variants.none c none) E (cc3__gcn_agg_kernel i a0 ha0 a1 ha1 a2 ha2 a3 ha3) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%dO, %fO, -, HO⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover3_3 _)

/-! ## The pipeline's proof data -/

/-- The proof data of pipeline 3 on core `c`: the windows' arrays as the region finds them; after the body at
    point `t`, each input's buffer at its block and the output's at `out3_3` of the input blocks; the
    invariant is the one of a body that touches nothing but its staging buffers; nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the kernel's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KBody4.lean ====
import proofs.«166453_j25847113187564_2_alg».proof.Proof.Gen.Kernel.Launch
import proofs.«166453_j25847113187564_2_alg».proof.Proof.Gen.Kernel.Skeleton
import proofs.«166453_j25847113187564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4 of the program's entry function: the body half of its frame

The region runs the kernel function `cc4__decode_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whenever the body runs, the window's current staging buffer holds the window's block
    at that point.  If the pipeline fetched there this is what the fetch wrote; if it did not, the block index
    has not moved since the previous point and the body left the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: whenever the body runs, the window's current staging buffer holds the window's block
    at that point.  If the pipeline fetched there this is what the fetch wrote; if it did not, the block index
    has not moved since the previous point and the body left the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole of a staging buffer -/

abbrev r4_0 : Rect S1024x2048 := Rect.unit (s := S1024x2048) ![0, 0] S1024x2048.size inb_S1024x2048_S1024x2048_0_0
abbrev l4_0 : Rect S1024x128 := Rect.unit (s := S1024x128) ![0, 0] S1024x128.size inb_S1024x128_S1024x128_0_0
abbrev l4_1 : Rect S2048x128 := Rect.unit (s := S2048x128) ![0, 0] S2048x128.size inb_S2048x128_S2048x128_0_0

/-! ## What the body leaves in the output window's buffer -/

/-- Window 2's staging buffer after the body, as a function of the input windows' blocks: the one store's
    payload laid over the whole buffer. -/
def out4_2 (x0 : Vec F S1024x128 .bf16) (x1 : Vec F S2048x128 .bf16) : Vec F S1024x2048 .f32 :=
  View.canon [⟨r4_0, k4_pay1 (View.ld x0 l4_0) (View.ld x1 l4_1)⟩]

/-- The store's rectangle is the whole buffer, so it covers every index. -/
theorem cover4_2 (p0 : Vec F S1024x2048 .f32) (y : S1024x2048.Idx) :
    ∃ pc ∈ ([⟨r4_0, p0⟩] : List (View.Piece (Elt F) S1024x2048 .f32)), y ∈ pc.1.set :=
  View.cover_of_tiled [⟨r4_0, p0⟩] S1024x2048.size (by rfl) y

/-! ## The body's triple -/

set_option maxHeartbeats 1000000 in
/-- The kernel function on whole staging buffers — the inputs' at read contents `x`, the output's at any
    contents — runs without fault to a continuation that holds the inputs' buffers unchanged and the output's at
    `out4_2` of the inputs.  The function first loads each input, then loads the output buffer (a value it
    never uses), then stores the payload over the whole output buffer. -/
theorem sound_kernel4 (c : Dev nD) (E : Set ℕ) (i : grid4.Coords) (a0 : Memref sig .tc .vmem S1024x128 .bf16) (ha0 : a0.IsWhole) (a1 : Memref sig .tc .vmem S2048x128 .bf16) (ha1 : a1.IsWhole) (a2 : Memref sig .tc .vmem S1024x2048 .f32) (ha2 : a2.IsWhole)
    (x0 : Vec F S1024x128 .bf16) (x1 : Vec F S2048x128 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out4_2 x0 x1)) -∗ K ⟨⟩))
      ⊢ wp frame (wpE (defs₀ (F := F)) Variants.none c none) E (cc4__decode_kernel i a0 ha0 a1 ha1 a2 ha2) K := by
  simp only [cc4__decode_kernel_eq_skeleton]; unfold cc4__decode_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover4_2 _)

/-! ## The pipeline's proof data -/

/-- The proof data of pipeline 4 on core `c`: the windows' arrays as the region finds them; after the body at
    point `t`, each input's buffer at its block and the output's at `out4_2` of the input blocks; the
    invariant is the one of a body that touches nothing but its staging buffers; nothing is owed; the
    shares at which the windows' arrays are held are a parameter, because two windows here view one array. -/
def dat4 (q4 : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

/-- The proof data's arrays are the region-entry contents. -/
theorem A_eq4 (q4 : Fin cfg4.W → PosShare TreeShare) (c : Dev nD) (w : Fin cfg4.W) : (dat4 V q4 c).A w = V c (Pipeline.arrRef spec4 w) := by
  dsimp only [dat4]

/-- What the body leaves, window by window. -/
theorem after4_0 (q4 : Fin cfg4.W → PosShare TreeShare) (c : Dev nD) (t : Fin cfg4.N) : (dat4 V q4 c).after 0 t = iblk4 V c 0 t := by dsimp only [dat4]
theorem after4_1 (q4 : Fin cfg4.W → PosShare TreeShare) (c : Dev nD) (t : Fin cfg4.N) : (dat4 V q4 c).after 1 t = iblk4 V c 1 t := by dsimp only [dat4]
theorem after4_2 (q4 : Fin cfg4.W → PosShare TreeShare) (c : Dev nD) (t : Fin cfg4.N) : (dat4 V q4 c).after 2 t = out4_2 (iblk4 V c 0 t) (iblk4 V c 1 t) := by dsimp only [dat4]

/-- Each input's current staging buffer holds its block at every point. -/
theorem before4_0 (q4 : Fin cfg4.W → PosShare TreeShare) (c : Dev nD) (t : Fin cfg4.N) (d) : (dat4 V q4 c).before 0 t d = iblk4 V c 0 t :=
  before4_0_of V (dat4 V q4 c) (A_eq4 V q4 c 0) (after4_0 V q4 c) t d
theorem before4_1 (q4 : Fin cfg4.W → PosShare TreeShare) (c : Dev nD) (t : Fin cfg4.N) (d) : (dat4 V q4 c).before 1 t d = iblk4 V c 1 t :=
  before4_1_of V (dat4 V q4 c) (A_eq4 V q4 c 1) (after4_1 V q4 c) t d

/-! ## The body obligation, at a generic point -/

/-- What the body is called with at point `t`, -/
def bodyPre4 (q4 : Fin cfg4.W → PosShare TreeShare) (c : Dev nD) (t : Fin cfg4.N) : sProp 𝕄 :=
  iprop((dat4 V q4 c).Φ t.castSucc ∗ (dat4 V q4 c).owesAt () t.castSucc
    ∗ (∃ d, owns (c : Thread nD τ) (st4_0 t) fullShare ((dat4 V q4 c).before 0 t d))
    ∗ (∃ d, owns (c : Thread nD τ) (st4_1 t) fullShare ((dat4 V q4 c).before 1 t d))
    ∗ (∃ d, owns (c : Thread nD τ) (st4_2 t) fullShare ((dat4 V q4 c).before 2 t d)))

/-- and what it returns. -/
def bodyPost4 (q4 : Fin cfg4.W → PosShare TreeShare) (c : Dev nD) (t : Fin cfg4.N) : sProp 𝕄 :=
  iprop((dat4 V q4 c).Φ t.succ ∗ (dat4 V q4 c).owesAt () t.succ
    ∗ owns (c : Thread nD τ) (st4_0 t) fullShare ((dat4 V q4 c).after 0 t)
    ∗ owns (c : Thread nD τ) (st4_1 t) fullShare ((dat4 V q4 c).after 1 t)
    ∗ owns (c : Thread nD τ) (st4_2 t) fullShare ((dat4 V q4 c).after 2 t))

/-- The body at any point: the inputs' buffers hold their blocks, so the kernel's triple applies; the invariant
    and what the core owes pass through unread. -/
theorem sound_body4 (q4 : Fin cfg4.W → PosShare TreeShare) (c : Dev nD) (t : Fin cfg4.N) :
    bodyPre4 V q4 c t ⊢ wp frame (wpE (defs₀ (F := F)) Variants.none c none) Set.univ (bodyAt4 t) (fun _ => bodyPost4 V q4 c t) := by
  unfold bodyPre4 bodyPost4 bodyAt4
  simp only [before4_0, before4_1]
  rw [show (dat4 V q4 c).Φ t.succ = (dat4 V q4 c).Φ t.castSucc from rfl,
    show (dat4 V q4 c).owesAt () t.succ = (dat4 V q4 c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (q4 : Fin cfg4.W → PosShare TreeShare) (c : Dev nD) : BodyObligation (dat4 (F := F) V q4 c) (defs₀ (F := F)) Variants.none () Set.univ := fun t => by
  rw [bigSep_W4, bigSep_W4]
  exact sound_body4 V q4 c t

end Region

end Cert.Kernel.Hand

end
-- ==== Proof.KShare4.lean ====
import proofs.«166453_j25847113187564_2_alg».proof.Proof.Gen.Kernel.Launch
import Idealize.ShloMosaic.Lib.Pipeline.RegionsLoop
import Idealize.ShloMosaic.Lib.Pipeline.FrameSuffix

/-! The decode call reads one array through two input windows. What the launch hands a call — each buffer behind its
    windows whole at the full share — is turned into the call's three windowed arrays by halving the shared buffer's
    share, and back. -/

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The decode call reads ONE array through two windows: the left half of the full share goes to the first, the right
    half to the second; the output's array is held whole. -/
def q4 : Fin cfg4.W → PosShare TreeShare
  | ⟨0, _⟩ => fullShare.left
  | ⟨1, _⟩ => fullShare.right
  | _ => fullShare

/-- The two buffers behind the decode call's three windows. -/
theorem image_arr4 : Finset.univ.image (Pipeline.arrRef spec4) = {main_v59, main_v60} := by decide

/-- The two buffers behind the decode call's windows, each whole at the full share at `V`, are the call's three
    windowed arrays at the same contents: the shared buffer's share halved between its two windows. -/
theorem arrays4_iff (c : Dev nD) (dat : Dat τ (Elt F) Unit ℕ (UR sig nD τ) ℕ cfg4 c) (hq : dat.q = q4)
    (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (Pipeline.arrBufs spec4 c V : sProp 𝕄) ⊣⊢ dat.arrays G := by
  unfold Pipeline.arrBufs Dat.arrays
  rw [image_arr4, bigSep_W4]
  rw [show ({main_v59, main_v60} : Finset (Ref sig .tc)) = insert main_v59 {main_v60} from rfl,
    BI.bigSep_insert (by decide), BI.bigSep_singleton]
  have s0 : dat.share 0 = fullShare.left := by unfold Dat.share; rw [hq]; rfl
  have s1 : dat.share 1 = fullShare.right := by unfold Dat.share; rw [hq]; rfl
  have s2 : dat.share 2 = fullShare := by unfold Dat.share; rfl
  rw [s0, s1, s2, hG 0, hG 1, hG 2]
  have u0 := (arr_whole4 0).set_eq_univ
  have u1 := (arr_whole4 1).set_eq_univ
  have u2 := (arr_whole4 2).set_eq_univ
  rw [show (cfg4.win 0).arr.view.set = Finset.univ from u0, show (cfg4.win 2).arr.view.set = Finset.univ from u2]
  show iprop(((c : Thread nD τ).loc main_v59 ↦{fullShare} V main_v59) ∗ ((c : Thread nD τ).loc main_v60 ↦{fullShare} V main_v60)) ⊣⊢
    iprop(((c : Thread nD τ).loc main_v59 ↦{fullShare.left} V main_v59) ∗ ((c : Thread nD τ).loc main_v59 ↦{fullShare.right} V main_v59)
      ∗ ((c : Thread nD τ).loc main_v60 ↦{fullShare} V main_v60))
  constructor
  · exact (sep_mono (pointsTo_share (PosShare.mem_left_op_right fullShare)).1 .rfl).trans sep_assoc.1
  · exact sep_assoc.2.trans (sep_mono (pointsTo_share (PosShare.mem_left_op_right fullShare)).2 .rfl)

end Cert.Kernel.Hand

end
-- ==== Proof.KRunA.lean ====
import proofs.«166453_j25847113187564_2_alg».proof.Proof.KBody0
import proofs.«166453_j25847113187564_2_alg».proof.Proof.KBody1
import proofs.«166453_j25847113187564_2_alg».proof.Proof.KBody2
import proofs.«166453_j25847113187564_2_alg».proof.Proof.KBody3
import proofs.«166453_j25847113187564_2_alg».proof.Proof.KBody4
import proofs.«166453_j25847113187564_2_alg».proof.Proof.KShare4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The contents of the core's buffers at each boundary between a stretch of host operations and a kernel call, folded
    from the launch memory: a stretch applies its operations; a call leaves its arrays at what its write-backs fold to
    and every other buffer as it found it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first sixty host operations. -/
abbrev W1 : Dev nD → Valuation τ sig (Elt F) := fun c => StableHlo.after main_part0_ops0 (W0 m ρ c)
/-- After the next eight: the first linear call's entry. -/
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b

/-- At call 0's exit: its arrays at what its write-backs fold to, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the reshape of the first bias: the first aggregation call's entry. -/
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b

/-- At call 1's exit: its arrays at what its write-backs fold to, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At call 2's exit: its arrays at what its write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the reshape of the second bias: the second aggregation call's entry. -/
abbrev W7 : Dev nD → Valuation τ sig (Elt F) := fun c => StableHlo.after main_part1_ops2 (W6 m ρ c)
abbrev V7 : (c : Dev nD) → (b : Ref sig .tc) → Buf (Elt F) ((c : Thread nD τ).loc b) := fun c b => W7 m ρ c b

/-- At call 3's exit: its arrays at what its write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- The decode call's output window alone, as a one-window family: its array is the only buffer the call changes. -/
abbrev out4 : Fin 1 → Pipeline.WinSpec sig grid4.rank := fun _ => spec4 2
/-- At the decode call's exit: the result array at what the write-backs fold to, every other buffer as entered
    (its two input windows read one array, which no write-back touches). -/
def W9 (c : Dev nD) : Valuation τ sig (Elt F) :=
  Pipeline.withArrays out4 c (W8 m ρ c) fun _ => (dat4 (V8 m ρ) q4 c).arrAt 2 cfg4.N
theorem W9_out (c : Dev nD) :
    W9 m ρ c (Proc.devRef .tc main_v60) = (dat4 (V8 m ρ) q4 c).arrAt 2 cfg4.N := by
  unfold W9; exact Pipeline.withArrays_arr out4 (fun a b _ => Subsingleton.elim a b) c _ _ 0
theorem W9_of_ne (c : Dev nD) (b : Ref sig .tc) (hb : main_v60 ≠ b) :
    W9 m ρ c (Proc.devRef .tc b) = W8 m ρ c (Proc.devRef .tc b) := by
  unfold W9; exact Pipeline.withArrays_of_ne out4 c _ _ b fun _ => hb
abbrev V9 : (c : Dev nD) → (b : Ref sig .tc) → Buf (Elt F) ((c : Thread nD τ).loc b) := fun c b => W9 m ρ c b

end Cert.Kernel.Hand

end
-- ==== Proof.KRunB.lean ====
import proofs.«166453_j25847113187564_2_alg».proof.Proof.KRunA

/-! Each kernel call as a segment of the run: entered from every unscoped buffer at the boundary's contents, its
    arrays split out and put back at the exit contents; the decode call's shared input array halved between its two
    windows and joined again. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 5) → (pcfgs (F := F) p).Adm := fun p => (cfgs p).toPCfg_adm
/-- Every call's proof data, each at its entry contents. -/
def pdats : (p : Fin 5) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V5 m ρ) c
  | ⟨3, _⟩ => fun c => dat3 (V7 m ρ) c
  | ⟨4, _⟩ => fun c => dat4 (V8 m ρ) q4 c
abbrev 𝒱₀ : Variants := Variants.none
abbrev L : GSem nD τ sig → Finset Unit := fun _ => ∅
abbrev lv : GSem nD τ sig → Unit → ℕ := fun _ _ => 0
/-- Beside the buffers: the core's generator register at some state, and that it owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_ops0_fresh : (main_part0_ops0 : List (HloOp τ sig (Elt F))).Forall fun op => op.fresh = ∅ := by
  simp only [List.Forall]; repeat' constructor
theorem part1_ops0_fresh : (main_part1_ops0 : List (HloOp τ sig (Elt F))).Forall fun op => op.fresh = ∅ := by
  simp only [List.Forall]; repeat' constructor
theorem part1_ops1_fresh : (main_part1_ops1 : List (HloOp τ sig (Elt F))).Forall fun op => op.fresh = ∅ := by
  simp only [List.Forall]; repeat' constructor
theorem part1_ops2_fresh : (main_part1_ops2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0: entered from every unscoped buffer at `W2`, left at `W3`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `W4`, left at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the decode call's two buffers the exit contents are the entry contents. -/
theorem rest4_eq (c : Dev nD) :
    (Pipeline.unscopedRest (Ix := Unit) (Name := ℕ) (U := UR sig nD τ) (Lvl := ℕ) spec4 c (V8 m ρ c) : sProp 𝕄)
      = Pipeline.unscopedRest spec4 c (V9 m ρ c) := by
  unfold Pipeline.unscopedRest
  refine BI.bigSep_congr fun b hb => ?_
  rw [show V9 m ρ c b = V8 m ρ c b from W9_of_ne m ρ c b fun e =>
    (Finset.mem_sdiff.mp hb).2 (Finset.mem_image.mpr ⟨2, Finset.mem_univ _, e⟩)]

/-- What the decode call's arrays hold at its exit, read off the exit contents. -/
theorem hG4 (c : Dev nD) (w : Fin cfg4.W) :
    (dat4 (V8 m ρ) q4 c).arrAt w cfg4.N = V9 m ρ c (Pipeline.arrRef spec4 w) := by
  match w with
  | ⟨0, _⟩ => exact (((dat4 (V8 m ρ) q4 c).arrAt_in 0 rfl _).trans (A_eq4 (V8 m ρ) q4 c 0)).trans (W9_of_ne m ρ c _ (by decide)).symm
  | ⟨1, _⟩ => exact (((dat4 (V8 m ρ) q4 c).arrAt_in 1 rfl _).trans (A_eq4 (V8 m ρ) q4 c 1)).trans (W9_of_ne m ρ c _ (by decide)).symm
  | ⟨2, _⟩ => exact (W9_out m ρ c).symm

set_option backward.isDefEq.respectTransparency.types false in
/-- The decode call: entered from every unscoped buffer at `W8`, left at `W9`. Its two input windows read ONE array:
    the buffer's full share is halved between them at the entry and put together again at the exit. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V8 m ρ) q4 c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit : (StableHlo.held (c : Thread nD τ) (Pipeline.ucRefs τ sig) (W8 m ρ c) : sProp 𝕄)
        ⊢ iprop(Pipeline.arrBufs spec4 c (V8 m ρ c) ∗ Pipeline.unscopedRest spec4 c (V8 m ρ c)) := by
      have h := Pipeline.unscopedBufs_split₀ (cfgs) 4 (fun w => by revert w; decide) c (V8 m ρ c) (Ix := Unit) (Name := ℕ) (U := UR sig nD τ) (Lvl := ℕ) (Val := Elt F) (τ := τ)
      rw [Pipeline.unscopedBufs_held] at h
      exact Entails.of_eq h
    iintro ⟨⟨Hub, Hp, HO⟩, -, -⟩
    ihave H := hsplit $$ Hub
    icases H with ⟨Ha, Hrest⟩
    imodintro
    isplitl [Ha]
    · iapply (arrays4_iff c (pdats m ρ 4 c) rfl (V8 m ρ c) ((pdats m ρ 4 c).arrAt · 0) (fun w => A_eq4 (V8 m ρ) q4 c w)).1
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop(Pipeline.arrBufs spec4 c (V9 m ρ c) ∗ Pipeline.unscopedRest spec4 c (V9 m ρ c))
        ⊢ (StableHlo.held (c : Thread nD τ) (Pipeline.ucRefs τ sig) (W9 m ρ c) : sProp 𝕄) := by
      have h := Pipeline.unscopedBufs_split₀ (cfgs) 4 (fun w => by revert w; decide) c (V9 m ρ c) (Ix := Unit) (Name := ℕ) (U := UR sig nD τ) (Lvl := ℕ) (Val := Elt F) (τ := τ)
      rw [Pipeline.unscopedBufs_held] at h
      exact Entails.of_eq h.symm
    have hrest : (Pipeline.unscopedRest (Ix := Unit) (Name := ℕ) (U := UR sig nD τ) (Lvl := ℕ) spec4 c (V8 m ρ c) : sProp 𝕄)
        ⊢ Pipeline.unscopedRest spec4 c (V9 m ρ c) := Entails.of_eq (rest4_eq m ρ c)
    iintro ⟨Ha, HO, HY, Hrest⟩
    imodintro
    isplitl [Ha Hrest HY]
    · isplitl [Ha Hrest]
      · iapply hjoin
        isplitl [Ha]
        · iapply (arrays4_iff c (pdats m ρ 4 c) rfl (V9 m ρ c) ((pdats m ρ 4 c).arrAt · cfg4.N) (hG4 m ρ c)).2
          iexact Ha
        iapply hrest; iexact Hrest
      iexact HY
    unfold Pipeline.Dat.owesAt Pipeline.owesWithin
    icases HO with ⟨%W, -, HO⟩; iexists W; iexact HO

end Cert.Kernel.Hand

end
-- ==== Proof.KRunD.lean ====
import proofs.«166453_j25847113187564_2_alg».proof.Proof.KRunA

/-! What each boundary's contents hold at the buffers the proof reads: an argument array is written by no host operation
    and no call, so it holds its launch contents at every boundary; a call's result array holds what the call's
    write-backs fold to until the next call reads it; the dense adjacency, written before the first call, is still
    there when each aggregation call reads it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays at every boundary -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_forall_not_mem (b := Proc.devRef .tc main_arg0) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (W9_of_ne m ρ c main_arg0 (by decide)).trans (W8_main_arg0 m ρ c)

theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_forall_not_mem (b := Proc.devRef .tc main_arg1) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (W9_of_ne m ρ c main_arg1 (by decide)).trans (W8_main_arg1 m ρ c)

theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_forall_not_mem (b := Proc.devRef .tc main_arg2) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (W9_of_ne m ρ c main_arg2 (by decide)).trans (W8_main_arg2 m ρ c)

theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg3 m ρ c)
theorem W3_main_arg3 (c : Dev nD) : W3 m ρ c (Proc.devRef .tc main_arg3) = m ((c : Thread nD τ).loc main_arg3) :=
  ((W3_arr m ρ c 1).trans (((dat0 (V2 m ρ) c).arrAt_in 1 rfl _).trans (A_eq0 (V2 m ρ) c 1))).trans (W2_main_arg3 m ρ c)
theorem W4_main_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_forall_not_mem (b := Proc.devRef .tc main_arg3) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (W9_of_ne m ρ c main_arg3 (by decide)).trans (W8_main_arg3 m ρ c)

theorem W1_main_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg4 (c : Dev nD) : W2 m ρ c (Proc.devRef .tc main_arg4) = m ((c : Thread nD τ).loc main_arg4) :=
  (StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (StableHlo.after_of_forall_not_mem (b := Proc.devRef .tc main_arg4) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_forall_not_mem (b := Proc.devRef .tc main_arg4) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (W9_of_ne m ρ c main_arg4 (by decide)).trans (W8_main_arg4 m ρ c)

theorem W1_main_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (StableHlo.after_of_forall_not_mem (b := Proc.devRef .tc main_arg5) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  ((W6_arr m ρ c 1).trans (((dat2 (V5 m ρ) c).arrAt_in 1 rfl _).trans (A_eq2 (V5 m ρ) c 1))).trans (W5_main_arg5 m ρ c)
theorem W7_main_arg5 (c : Dev nD) : W7 m ρ c (Proc.devRef .tc main_arg5) = m ((c : Thread nD τ).loc main_arg5) :=
  (StableHlo.after_of_forall_not_mem (b := Proc.devRef .tc main_arg5) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (W9_of_ne m ρ c main_arg5 (by decide)).trans (W8_main_arg5 m ρ c)

theorem W1_main_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg6 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W4_main_arg6 (c : Dev nD) : W4 m ρ c (Proc.devRef .tc main_arg6) = m ((c : Thread nD τ).loc main_arg6) :=
  (StableHlo.after_of_forall_not_mem (b := Proc.devRef .tc main_arg6) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_forall_not_mem (b := Proc.devRef .tc main_arg6) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (W9_of_ne m ρ c main_arg6 (by decide)).trans (W8_main_arg6 m ρ c)

/-! ## What the calls read -/

/-- The first aggregation call finds the adjacency as the host wrote it before the first call. -/
theorem V4_main_v53 (c : Dev nD) : V4 m ρ c main_v53 = V2 m ρ c main_v53 :=
  (StableHlo.after_of_forall_not_mem (b := Proc.devRef .tc main_v53) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_of_ne m ρ c main_v53 (by decide))
/-- … the first linear call's result … -/
theorem V4_main_v54 (c : Dev nD) : V4 m ρ c main_v54 = (dat0 (V2 m ρ) c).arrAt 2 cfg0.N :=
  (StableHlo.after_of_forall_not_mem (b := Proc.devRef .tc main_v54) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arr m ρ c 2)
/-- … and the first bias as a row. -/
theorem V4_main_v55 (c : Dev nD) :
    V4 m ρ c main_v55 = fun i => shapeCast S1x256 (m ((c : Thread nD τ).loc main_arg4)) shapeCasts_S256_S1x256 i := by
  show StableHlo.after main_part1_ops1 (W3 m ρ c) (Proc.devRef .tc main_v55) = _
  after_results
  rw [W3_main_arg4]
  rfl
/-- The second linear call finds the first aggregation's result, -/
theorem V5_main_v56 (c : Dev nD) : V5 m ρ c main_v56 = (dat1 (V4 m ρ) c).arrAt 3 cfg1.N := W5_arr m ρ c 3
/-- The second aggregation call finds the adjacency still as the host wrote it, -/
theorem V7_main_v53 (c : Dev nD) : V7 m ρ c main_v53 = V2 m ρ c main_v53 :=
  calc V7 m ρ c main_v53
    _ = W6 m ρ c (Proc.devRef .tc main_v53) := StableHlo.after_of_forall_not_mem (b := Proc.devRef .tc main_v53) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v53) := W6_of_ne m ρ c main_v53 (by decide)
    _ = V4 m ρ c main_v53 := (W5_arr m ρ c 0).trans (((dat1 (V4 m ρ) c).arrAt_in 0 rfl _).trans (A_eq1 (V4 m ρ) c 0))
    _ = V2 m ρ c main_v53 := V4_main_v53 m ρ c
/-- … the second linear call's result … -/
theorem V7_main_v57 (c : Dev nD) : V7 m ρ c main_v57 = (dat2 (V5 m ρ) c).arrAt 2 cfg2.N :=
  (StableHlo.after_of_forall_not_mem (b := Proc.devRef .tc main_v57) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_arr m ρ c 2)
/-- … and the second bias as a row. -/
theorem V7_main_v58 (c : Dev nD) :
    V7 m ρ c main_v58 = fun i => shapeCast S1x128 (m ((c : Thread nD τ).loc main_arg6)) shapeCasts_S128_S1x128 i := by
  show StableHlo.after main_part1_ops2 (W6 m ρ c) (Proc.devRef .tc main_v58) = _
  after_results
  rw [W6_main_arg6]
  rfl
/-- The decode call finds the second aggregation's result. -/
theorem V8_main_v59 (c : Dev nD) : V8 m ρ c main_v59 = (dat3 (V7 m ρ) c).arrAt 3 cfg3.N := W8_arr m ρ c 3

end Cert.Kernel.Hand

end
-- ==== Proof.KRunC.lean ====
import proofs.«166453_j25847113187564_2_alg».proof.Proof.KRunB
import proofs.«166453_j25847113187564_2_alg».proof.Proof.KRunD

/-! The argument arrays are written by no host operation and no call; @main is the run of its nine segments; hence
    the run theorem: every weakly fair execution terminates with the result array at the last boundary's contents and
    the arguments as launched. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m ρ) () defs₀ 𝒱₀ L lv) :=
  [ .host (hseg main_part0_ops0 main_part0_ops0_sub part0_ops0_fresh (W0 m ρ)),
    .host (hseg main_part1_ops0 main_part1_ops0_sub part1_ops0_fresh (W1 m ρ)),
    .region (reg0 m ρ),
    .host (hseg main_part1_ops1 main_part1_ops1_sub part1_ops1_fresh (W3 m ρ)),
    .region (reg1 m ρ),
    .region (reg2 m ρ),
    .host (hseg main_part1_ops2 main_part1_ops2_sub part1_ops2_fresh (W6 m ρ)),
    .region (reg3 m ρ),
    .region (reg4 m ρ) ]
/-- @main is the run of the segments. -/
theorem main_run (c : Dev nD) : main (F := F) c = Pipeline.Seg.run (segs m ρ) := by
  rw [main_chain_windows c, Pipeline.Seg.run_eq_chain]; rfl

set_option backward.isDefEq.respectTransparency.types false in
/-- THE RUN: from any memory with zero counters every weakly fair execution of @main terminates, nothing faulting; the
    final memory holds the result array at the last boundary's contents and every argument array as launched. -/
theorem run_main : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.Kernel.Hand

end
-- ==== Proof.KIBody0.lean ====
import proofs.«166453_j25847113187564_2_alg».proof.Proof.Gen.KernelIdeal.Launch
import proofs.«166453_j25847113187564_2_alg».proof.Proof.Gen.KernelIdeal.Skeleton
import proofs.«166453_j25847113187564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of the program's entry function: the body half of its frame

The region runs the kernel function `cc0__linear_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whenever the body runs, the window's current staging buffer holds the window's block
    at that point.  If the pipeline fetched there this is what the fetch wrote; if it did not, the block index
    has not moved since the previous point and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whenever the body runs, the window's current staging buffer holds the window's block
    at that point.  If the pipeline fetched there this is what the fetch wrote; if it did not, the block index
    has not moved since the previous point and the body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole of a staging buffer -/

abbrev r0_0 : Rect S1024x256 := Rect.unit (s := S1024x256) ![0, 0] S1024x256.size inb_S1024x256_S1024x256_0_0
abbrev l0_0 : Rect S1024x128 := Rect.unit (s := S1024x128) ![0, 0] S1024x128.size inb_S1024x128_S1024x128_0_0
abbrev l0_1 : Rect S128x256 := Rect.unit (s := S128x256) ![0, 0] S128x256.size inb_S128x256_S128x256_0_0

/-! ## What the body leaves in the output window's buffer -/

/-- Window 2's staging buffer after the body, as a function of the input windows' blocks: the one store's
    payload laid over the whole buffer. -/
def out0_2 (x0 : Vec F S1024x128 .f32) (x1 : Vec F S128x256 .f32) : Vec F S1024x256 .bf16 :=
  View.canon [⟨r0_0, k0_pay1 (View.ld x0 l0_0) (View.ld x1 l0_1)⟩]

/-- The store's rectangle is the whole buffer, so it covers every index. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The kernel function on whole staging buffers — the inputs' at read contents `x`, the output's at any
    contents — runs without fault to a continuation that holds the inputs' buffers unchanged and the output's at
    `out0_2` of the inputs.  The function first loads each input, then loads the output buffer (a value it
    never uses), then stores the payload over the whole output buffer. -/
theorem sound_kernel0 (c : Dev nD) (E : Set ℕ) (i : grid0.Coords) (a0 : Memref sig .tc .vmem S1024x128 .f32) (ha0 : a0.IsWhole) (a1 : Memref sig .tc .vmem S128x256 .f32) (ha1 : a1.IsWhole) (a2 : Memref sig .tc .vmem S1024x256 .bf16) (ha2 : a2.IsWhole)
    (x0 : Vec F S1024x128 .f32) (x1 : Vec F S128x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-! ## The pipeline's proof data -/

/-- The proof data of pipeline 0 on core `c`: the windows' arrays as the region finds them; after the body at
    point `t`, each input's buffer at its block and the output's at `out0_2` of the input blocks; the
    invariant is the one of a body that touches nothing but its staging buffers; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIBody1.lean ====
import proofs.«166453_j25847113187564_2_alg».proof.Proof.Gen.KernelIdeal.Launch
import proofs.«166453_j25847113187564_2_alg».proof.Proof.Gen.KernelIdeal.Skeleton
import proofs.«166453_j25847113187564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of the program's entry function: the body half of its frame

The region runs the kernel function `cc1__gcn_agg_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body runs, the window's current staging buffer holds the window's block
    at that point.  If the pipeline fetched there this is what the fetch wrote; if it did not, the block index
    has not moved since the previous point and the body left the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whenever the body runs, the window's current staging buffer holds the window's block
    at that point.  If the pipeline fetched there this is what the fetch wrote; if it did not, the block index
    has not moved since the previous point and the body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whenever the body runs, the window's current staging buffer holds the window's block
    at that point.  If the pipeline fetched there this is what the fetch wrote; if it did not, the block index
    has not moved since the previous point and the body left the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole of a staging buffer -/

abbrev r1_0 : Rect S512x256 := Rect.unit (s := S512x256) ![0, 0] S512x256.size inb_S512x256_S512x256_0_0
abbrev l1_0 : Rect S512x8192 := Rect.unit (s := S512x8192) ![0, 0] S512x8192.size inb_S512x8192_S512x8192_0_0
abbrev l1_1 : Rect S8192x256 := Rect.unit (s := S8192x256) ![0, 0] S8192x256.size inb_S8192x256_S8192x256_0_0
abbrev l1_2 : Rect S1x256 := Rect.unit (s := S1x256) ![0, 0] S1x256.size inb_S1x256_S1x256_0_0

/-! ## What the body leaves in the output window's buffer -/

/-- Window 3's staging buffer after the body, as a function of the input windows' blocks: the one store's
    payload laid over the whole buffer. -/
def out1_3 (x0 : Vec F S512x8192 .bf16) (x1 : Vec F S8192x256 .bf16) (x2 : Vec F S1x256 .f32) : Vec F S512x256 .f32 :=
  View.canon [⟨r1_0, k1_pay1 (View.ld x0 l1_0) (View.ld x1 l1_1) (View.ld x2 l1_2)⟩]

/-- The store's rectangle is the whole buffer, so it covers every index. -/
theorem cover1_3 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-! ## The body's triple -/

set_option maxHeartbeats 1000000 in
/-- The kernel function on whole staging buffers — the inputs' at read contents `x`, the output's at any
    contents — runs without fault to a continuation that holds the inputs' buffers unchanged and the output's at
    `out1_3` of the inputs.  The function first loads each input, then loads the output buffer (a value it
    never uses), then stores the payload over the whole output buffer. -/
theorem sound_kernel1 (c : Dev nD) (E : Set ℕ) (i : grid1.Coords) (a0 : Memref sig .tc .vmem S512x8192 .bf16) (ha0 : a0.IsWhole) (a1 : Memref sig .tc .vmem S8192x256 .bf16) (ha1 : a1.IsWhole) (a2 : Memref sig .tc .vmem S1x256 .f32) (ha2 : a2.IsWhole) (a3 : Memref sig .tc .vmem S512x256 .f32) (ha3 : a3.IsWhole)
    (x0 : Vec F S512x8192 .bf16) (x1 : Vec F S8192x256 .bf16) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__gcn_agg_kernel i a0 ha0 a1 ha1 a2 ha2 a3 ha3) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%dO, %fO, -, HO⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover1_3 _)

/-! ## The pipeline's proof data -/

/-- The proof data of pipeline 1 on core `c`: the windows' arrays as the region finds them; after the body at
    point `t`, each input's buffer at its block and the output's at `out1_3` of the input blocks; the
    invariant is the one of a body that touches nothing but its staging buffers; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIBody2.lean ====
import proofs.«166453_j25847113187564_2_alg».proof.Proof.Gen.KernelIdeal.Launch
import proofs.«166453_j25847113187564_2_alg».proof.Proof.Gen.KernelIdeal.Skeleton
import proofs.«166453_j25847113187564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of the program's entry function: the body half of its frame

The region runs the kernel function `cc2__linear_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body runs, the window's current staging buffer holds the window's block
    at that point.  If the pipeline fetched there this is what the fetch wrote; if it did not, the block index
    has not moved since the previous point and the body left the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whenever the body runs, the window's current staging buffer holds the window's block
    at that point.  If the pipeline fetched there this is what the fetch wrote; if it did not, the block index
    has not moved since the previous point and the body left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole of a staging buffer -/

abbrev r2_0 : Rect S1024x128 := Rect.unit (s := S1024x128) ![0, 0] S1024x128.size inb_S1024x128_S1024x128_0_0
abbrev l2_0 : Rect S1024x256 := Rect.unit (s := S1024x256) ![0, 0] S1024x256.size inb_S1024x256_S1024x256_0_0
abbrev l2_1 : Rect S256x128 := Rect.unit (s := S256x128) ![0, 0] S256x128.size inb_S256x128_S256x128_0_0

/-! ## What the body leaves in the output window's buffer -/

/-- Window 2's staging buffer after the body, as a function of the input windows' blocks: the one store's
    payload laid over the whole buffer. -/
def out2_2 (x0 : Vec F S1024x256 .f32) (x1 : Vec F S256x128 .f32) : Vec F S1024x128 .bf16 :=
  View.canon [⟨r2_0, k2_pay1 (View.ld x0 l2_0) (View.ld x1 l2_1)⟩]

/-- The store's rectangle is the whole buffer, so it covers every index. -/
theorem cover2_2 (p0 : Vec F S1024x128 .bf16) (y : S1024x128.Idx) :
    ∃ pc ∈ ([⟨r2_0, p0⟩] : List (View.Piece (Elt F) S1024x128 .bf16)), y ∈ pc.1.set :=
  View.cover_of_tiled [⟨r2_0, p0⟩] S1024x128.size (by rfl) y

/-! ## The body's triple -/

set_option maxHeartbeats 1000000 in
/-- The kernel function on whole staging buffers — the inputs' at read contents `x`, the output's at any
    contents — runs without fault to a continuation that holds the inputs' buffers unchanged and the output's at
    `out2_2` of the inputs.  The function first loads each input, then loads the output buffer (a value it
    never uses), then stores the payload over the whole output buffer. -/
theorem sound_kernel2 (c : Dev nD) (E : Set ℕ) (i : grid2.Coords) (a0 : Memref sig .tc .vmem S1024x256 .f32) (ha0 : a0.IsWhole) (a1 : Memref sig .tc .vmem S256x128 .f32) (ha1 : a1.IsWhole) (a2 : Memref sig .tc .vmem S1024x128 .bf16) (ha2 : a2.IsWhole)
    (x0 : Vec F S1024x256 .f32) (x1 : Vec F S256x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__linear_kernel i a0 ha0 a1 ha1 a2 ha2) K := by
  simp only [cc2__linear_kernel_eq_skeleton]; unfold cc2__linear_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2_2 _)

/-! ## The pipeline's proof data -/

/-- The proof data of pipeline 2 on core `c`: the windows' arrays as the region finds them; after the body at
    point `t`, each input's buffer at its block and the output's at `out2_2` of the input blocks; the
    invariant is the one of a body that touches nothing but its staging buffers; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KIBody3.lean ====
import proofs.«166453_j25847113187564_2_alg».proof.Proof.Gen.KernelIdeal.Launch
import proofs.«166453_j25847113187564_2_alg».proof.Proof.Gen.KernelIdeal.Skeleton
import proofs.«166453_j25847113187564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 of the program's entry function: the body half of its frame

The region runs the kernel function `cc3__gcn_agg_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body runs, the window's current staging buffer holds the window's block
    at that point.  If the pipeline fetched there this is what the fetch wrote; if it did not, the block index
    has not moved since the previous point and the body left the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whenever the body runs, the window's current staging buffer holds the window's block
    at that point.  If the pipeline fetched there this is what the fetch wrote; if it did not, the block index
    has not moved since the previous point and the body left the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whenever the body runs, the window's current staging buffer holds the window's block
    at that point.  If the pipeline fetched there this is what the fetch wrote; if it did not, the block index
    has not moved since the previous point and the body left the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole of a staging buffer -/

abbrev r3_0 : Rect S512x128 := Rect.unit (s := S512x128) ![0, 0] S512x128.size inb_S512x128_S512x128_0_0
abbrev l3_0 : Rect S512x8192 := Rect.unit (s := S512x8192) ![0, 0] S512x8192.size inb_S512x8192_S512x8192_0_0
abbrev l3_1 : Rect S8192x128 := Rect.unit (s := S8192x128) ![0, 0] S8192x128.size inb_S8192x128_S8192x128_0_0
abbrev l3_2 : Rect S1x128 := Rect.unit (s := S1x128) ![0, 0] S1x128.size inb_S1x128_S1x128_0_0

/-! ## What the body leaves in the output window's buffer -/

/-- Window 3's staging buffer after the body, as a function of the input windows' blocks: the one store's
    payload laid over the whole buffer. -/
def out3_3 (x0 : Vec F S512x8192 .bf16) (x1 : Vec F S8192x128 .bf16) (x2 : Vec F S1x128 .f32) : Vec F S512x128 .bf16 :=
  View.canon [⟨r3_0, k3_pay1 (View.ld x0 l3_0) (View.ld x1 l3_1) (View.ld x2 l3_2)⟩]

/-- The store's rectangle is the whole buffer, so it covers every index. -/
theorem cover3_3 (p0 : Vec F S512x128 .bf16) (y : S512x128.Idx) :
    ∃ pc ∈ ([⟨r3_0, p0⟩] : List (View.Piece (Elt F) S512x128 .bf16)), y ∈ pc.1.set :=
  View.cover_of_tiled [⟨r3_0, p0⟩] S512x128.size (by rfl) y

/-! ## The body's triple -/

set_option maxHeartbeats 1000000 in
/-- The kernel function on whole staging buffers — the inputs' at read contents `x`, the output's at any
    contents — runs without fault to a continuation that holds the inputs' buffers unchanged and the output's at
    `out3_3` of the inputs.  The function first loads each input, then loads the output buffer (a value it
    never uses), then stores the payload over the whole output buffer. -/
theorem sound_kernel3 (c : Dev nD) (E : Set ℕ) (i : grid3.Coords) (a0 : Memref sig .tc .vmem S512x8192 .bf16) (ha0 : a0.IsWhole) (a1 : Memref sig .tc .vmem S8192x128 .bf16) (ha1 : a1.IsWhole) (a2 : Memref sig .tc .vmem S1x128 .f32) (ha2 : a2.IsWhole) (a3 : Memref sig .tc .vmem S512x128 .bf16) (ha3 : a3.IsWhole)
    (x0 : Vec F S512x8192 .bf16) (x1 : Vec F S8192x128 .bf16) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out3_3 x0 x1 x2)) -∗ K ⟨⟩))
      ⊢ wp frame (wpE (defs₀ (F := F)) Variants.none c none) E (cc3__gcn_agg_kernel i a0 ha0 a1 ha1 a2 ha2 a3 ha3) K := by
  simp only [cc3__gcn_agg_kernel_eq_skeleton]; unfold cc3__gcn_agg_kernel_skel
  unfold owns
  iintro ⟨⟨%f0, %hf0, H0⟩, ⟨%f1, %hf1, H1⟩, ⟨%f2, %hf2, H2⟩, ⟨%dO, %fO, -, HO⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover3_3 _)

/-! ## The pipeline's proof data -/

/-- The proof data of pipeline 3 on core `c`: the windows' arrays as the region finds them; after the body at
    point `t`, each input's buffer at its block and the output's at `out3_3` of the input blocks; the
    invariant is the one of a body that touches nothing but its staging buffers; nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the kernel's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KIBody4.lean ====
import proofs.«166453_j25847113187564_2_alg».proof.Proof.Gen.KernelIdeal.Launch
import proofs.«166453_j25847113187564_2_alg».proof.Proof.Gen.KernelIdeal.Skeleton
import proofs.«166453_j25847113187564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4 of the program's entry function: the body half of its frame

The region runs the kernel function `cc4__decode_kernel` once per grid point on the windows' staging buffers.
Everything here is stated at a parameter `V`, the buffer contents of the core when the region is entered,
and at any float interpretation `F`.  For each window we name the block of its array that belongs to a grid
point; we show that an input window's staging buffer holds that block whenever the body runs; we name what
the body's single whole-buffer store leaves in the output window's staging buffer as a function of the input
blocks; and we prove the body's separation-logic triple, from which the pipeline's body obligation follows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at grid point `t`, read from the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whenever the body runs, the window's current staging buffer holds the window's block
    at that point.  If the pipeline fetched there this is what the fetch wrote; if it did not, the block index
    has not moved since the previous point and the body left the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: whenever the body runs, the window's current staging buffer holds the window's block
    at that point.  If the pipeline fetched there this is what the fetch wrote; if it did not, the block index
    has not moved since the previous point and the body left the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole of a staging buffer -/

abbrev r4_0 : Rect S1024x2048 := Rect.unit (s := S1024x2048) ![0, 0] S1024x2048.size inb_S1024x2048_S1024x2048_0_0
abbrev l4_0 : Rect S1024x128 := Rect.unit (s := S1024x128) ![0, 0] S1024x128.size inb_S1024x128_S1024x128_0_0
abbrev l4_1 : Rect S2048x128 := Rect.unit (s := S2048x128) ![0, 0] S2048x128.size inb_S2048x128_S2048x128_0_0

/-! ## What the body leaves in the output window's buffer -/

/-- Window 2's staging buffer after the body, as a function of the input windows' blocks: the one store's
    payload laid over the whole buffer. -/
def out4_2 (x0 : Vec F S1024x128 .bf16) (x1 : Vec F S2048x128 .bf16) : Vec F S1024x2048 .f32 :=
  View.canon [⟨r4_0, k4_pay1 (View.ld x0 l4_0) (View.ld x1 l4_1)⟩]

/-- The store's rectangle is the whole buffer, so it covers every index. -/
theorem cover4_2 (p0 : Vec F S1024x2048 .f32) (y : S1024x2048.Idx) :
    ∃ pc ∈ ([⟨r4_0, p0⟩] : List (View.Piece (Elt F) S1024x2048 .f32)), y ∈ pc.1.set :=
  View.cover_of_tiled [⟨r4_0, p0⟩] S1024x2048.size (by rfl) y

/-! ## The body's triple -/

set_option maxHeartbeats 1000000 in
/-- The kernel function on whole staging buffers — the inputs' at read contents `x`, the output's at any
    contents — runs without fault to a continuation that holds the inputs' buffers unchanged and the output's at
    `out4_2` of the inputs.  The function first loads each input, then loads the output buffer (a value it
    never uses), then stores the payload over the whole output buffer. -/
theorem sound_kernel4 (c : Dev nD) (E : Set ℕ) (i : grid4.Coords) (a0 : Memref sig .tc .vmem S1024x128 .bf16) (ha0 : a0.IsWhole) (a1 : Memref sig .tc .vmem S2048x128 .bf16) (ha1 : a1.IsWhole) (a2 : Memref sig .tc .vmem S1024x2048 .f32) (ha2 : a2.IsWhole)
    (x0 : Vec F S1024x128 .bf16) (x1 : Vec F S2048x128 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out4_2 x0 x1)) -∗ K ⟨⟩))
      ⊢ wp frame (wpE (defs₀ (F := F)) Variants.none c none) E (cc4__decode_kernel i a0 ha0 a1 ha1 a2 ha2) K := by
  simp only [cc4__decode_kernel_eq_skeleton]; unfold cc4__decode_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover4_2 _)

/-! ## The pipeline's proof data -/

/-- The proof data of pipeline 4 on core `c`: the windows' arrays as the region finds them; after the body at
    point `t`, each input's buffer at its block and the output's at `out4_2` of the input blocks; the
    invariant is the one of a body that touches nothing but its staging buffers; nothing is owed; the
    shares at which the windows' arrays are held are a parameter, because two windows here view one array. -/
def dat4 (q4 : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q4
  owed _ := 0

/-- The proof data's arrays are the region-entry contents. -/
theorem A_eq4 (q4 : Fin cfg4.W → PosShare TreeShare) (c : Dev nD) (w : Fin cfg4.W) : (dat4 V q4 c).A w = V c (Pipeline.arrRef spec4 w) := by
  dsimp only [dat4]

/-- What the body leaves, window by window. -/
theorem after4_0 (q4 : Fin cfg4.W → PosShare TreeShare) (c : Dev nD) (t : Fin cfg4.N) : (dat4 V q4 c).after 0 t = iblk4 V c 0 t := by dsimp only [dat4]
theorem after4_1 (q4 : Fin cfg4.W → PosShare TreeShare) (c : Dev nD) (t : Fin cfg4.N) : (dat4 V q4 c).after 1 t = iblk4 V c 1 t := by dsimp only [dat4]
theorem after4_2 (q4 : Fin cfg4.W → PosShare TreeShare) (c : Dev nD) (t : Fin cfg4.N) : (dat4 V q4 c).after 2 t = out4_2 (iblk4 V c 0 t) (iblk4 V c 1 t) := by dsimp only [dat4]

/-- Each input's current staging buffer holds its block at every point. -/
theorem before4_0 (q4 : Fin cfg4.W → PosShare TreeShare) (c : Dev nD) (t : Fin cfg4.N) (d) : (dat4 V q4 c).before 0 t d = iblk4 V c 0 t :=
  before4_0_of V (dat4 V q4 c) (A_eq4 V q4 c 0) (after4_0 V q4 c) t d
theorem before4_1 (q4 : Fin cfg4.W → PosShare TreeShare) (c : Dev nD) (t : Fin cfg4.N) (d) : (dat4 V q4 c).before 1 t d = iblk4 V c 1 t :=
  before4_1_of V (dat4 V q4 c) (A_eq4 V q4 c 1) (after4_1 V q4 c) t d

/-! ## The body obligation, at a generic point -/

/-- What the body is called with at point `t`, -/
def bodyPre4 (q4 : Fin cfg4.W → PosShare TreeShare) (c : Dev nD) (t : Fin cfg4.N) : sProp 𝕄 :=
  iprop((dat4 V q4 c).Φ t.castSucc ∗ (dat4 V q4 c).owesAt () t.castSucc
    ∗ (∃ d, owns (c : Thread nD τ) (st4_0 t) fullShare ((dat4 V q4 c).before 0 t d))
    ∗ (∃ d, owns (c : Thread nD τ) (st4_1 t) fullShare ((dat4 V q4 c).before 1 t d))
    ∗ (∃ d, owns (c : Thread nD τ) (st4_2 t) fullShare ((dat4 V q4 c).before 2 t d)))

/-- and what it returns. -/
def bodyPost4 (q4 : Fin cfg4.W → PosShare TreeShare) (c : Dev nD) (t : Fin cfg4.N) : sProp 𝕄 :=
  iprop((dat4 V q4 c).Φ t.succ ∗ (dat4 V q4 c).owesAt () t.succ
    ∗ owns (c : Thread nD τ) (st4_0 t) fullShare ((dat4 V q4 c).after 0 t)
    ∗ owns (c : Thread nD τ) (st4_1 t) fullShare ((dat4 V q4 c).after 1 t)
    ∗ owns (c : Thread nD τ) (st4_2 t) fullShare ((dat4 V q4 c).after 2 t))

/-- The body at any point: the inputs' buffers hold their blocks, so the kernel's triple applies; the invariant
    and what the core owes pass through unread. -/
theorem sound_body4 (q4 : Fin cfg4.W → PosShare TreeShare) (c : Dev nD) (t : Fin cfg4.N) :
    bodyPre4 V q4 c t ⊢ wp frame (wpE (defs₀ (F := F)) Variants.none c none) Set.univ (bodyAt4 t) (fun _ => bodyPost4 V q4 c t) := by
  unfold bodyPre4 bodyPost4 bodyAt4
  simp only [before4_0, before4_1]
  rw [show (dat4 V q4 c).Φ t.succ = (dat4 V q4 c).Φ t.castSucc from rfl,
    show (dat4 V q4 c).owesAt () t.succ = (dat4 V q4 c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (q4 : Fin cfg4.W → PosShare TreeShare) (c : Dev nD) : BodyObligation (dat4 (F := F) V q4 c) (defs₀ (F := F)) Variants.none () Set.univ := fun t => by
  rw [bigSep_W4, bigSep_W4]
  exact sound_body4 V q4 c t

end Region

end Cert.KernelIdeal.Hand

end
-- ==== Proof.KIShare4.lean ====
import proofs.«166453_j25847113187564_2_alg».proof.Proof.Gen.KernelIdeal.Launch
import Idealize.ShloMosaic.Lib.Pipeline.RegionsLoop
import Idealize.ShloMosaic.Lib.Pipeline.FrameSuffix

/-! The decode call reads one array through two input windows. What the launch hands a call — each buffer behind its
    windows whole at the full share — is turned into the call's three windowed arrays by halving the shared buffer's
    share, and back. -/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The decode call reads ONE array through two windows: the left half of the full share goes to the first, the right
    half to the second; the output's array is held whole. -/
def q4 : Fin cfg4.W → PosShare TreeShare
  | ⟨0, _⟩ => fullShare.left
  | ⟨1, _⟩ => fullShare.right
  | _ => fullShare

/-- The two buffers behind the decode call's three windows. -/
theorem image_arr4 : Finset.univ.image (Pipeline.arrRef spec4) = {main_v59, main_v60} := by decide

/-- The two buffers behind the decode call's windows, each whole at the full share at `V`, are the call's three
    windowed arrays at the same contents: the shared buffer's share halved between its two windows. -/
theorem arrays4_iff (c : Dev nD) (dat : Dat τ (Elt F) Unit ℕ (UR sig nD τ) ℕ cfg4 c) (hq : dat.q = q4)
    (V : (b : Ref sig .tc) → Buf (Elt F) ((c : Thread nD τ).loc b))
    (G : (w : Fin cfg4.W) → Buf (Elt F) ((cfg4.win w).arr.view.loc (c : Thread nD τ)))
    (hG : ∀ w, G w = V (Pipeline.arrRef spec4 w)) :
    (Pipeline.arrBufs spec4 c V : sProp 𝕄) ⊣⊢ dat.arrays G := by
  unfold Pipeline.arrBufs Dat.arrays
  rw [image_arr4, bigSep_W4]
  rw [show ({main_v59, main_v60} : Finset (Ref sig .tc)) = insert main_v59 {main_v60} from rfl,
    BI.bigSep_insert (by decide), BI.bigSep_singleton]
  have s0 : dat.share 0 = fullShare.left := by unfold Dat.share; rw [hq]; rfl
  have s1 : dat.share 1 = fullShare.right := by unfold Dat.share; rw [hq]; rfl
  have s2 : dat.share 2 = fullShare := by unfold Dat.share; rfl
  rw [s0, s1, s2, hG 0, hG 1, hG 2]
  have u0 := (arr_whole4 0).set_eq_univ
  have u1 := (arr_whole4 1).set_eq_univ
  have u2 := (arr_whole4 2).set_eq_univ
  rw [show (cfg4.win 0).arr.view.set = Finset.univ from u0, show (cfg4.win 2).arr.view.set = Finset.univ from u2]
  show iprop(((c : Thread nD τ).loc main_v59 ↦{fullShare} V main_v59) ∗ ((c : Thread nD τ).loc main_v60 ↦{fullShare} V main_v60)) ⊣⊢
    iprop(((c : Thread nD τ).loc main_v59 ↦{fullShare.left} V main_v59) ∗ ((c : Thread nD τ).loc main_v59 ↦{fullShare.right} V main_v59)
      ∗ ((c : Thread nD τ).loc main_v60 ↦{fullShare} V main_v60))
  constructor
  · exact (sep_mono (pointsTo_share (PosShare.mem_left_op_right fullShare)).1 .rfl).trans sep_assoc.1
  · exact sep_assoc.2.trans (sep_mono (pointsTo_share (PosShare.mem_left_op_right fullShare)).2 .rfl)

end Cert.KernelIdeal.Hand

end
-- ==== Proof.KIRunA.lean ====
import proofs.«166453_j25847113187564_2_alg».proof.Proof.KIBody0
import proofs.«166453_j25847113187564_2_alg».proof.Proof.KIBody1
import proofs.«166453_j25847113187564_2_alg».proof.Proof.KIBody2
import proofs.«166453_j25847113187564_2_alg».proof.Proof.KIBody3
import proofs.«166453_j25847113187564_2_alg».proof.Proof.KIBody4
import proofs.«166453_j25847113187564_2_alg».proof.Proof.KIShare4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The contents of the core's buffers at each boundary between a stretch of host operations and a kernel call, folded
    from the launch memory: a stretch applies its operations; a call leaves its arrays at what its write-backs fold to
    and every other buffer as it found it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first sixty host operations. -/
abbrev W1 : Dev nD → Valuation τ sig (Elt F) := fun c => StableHlo.after main_part0_ops0 (W0 m ρ c)
/-- After the next eight: the first linear call's entry. -/
abbrev W2 : Dev nD → Valuation τ sig (Elt F) := fun c => StableHlo.after main_part1_ops0 (W1 m ρ c)
abbrev V2 : (c : Dev nD) → (b : Ref sig .tc) → Buf (Elt F) ((c : Thread nD τ).loc b) := fun c b => W2 m ρ c b

/-- At call 0's exit: its arrays at what its write-backs fold to, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the reshape of the first bias: the first aggregation call's entry. -/
abbrev W4 : Dev nD → Valuation τ sig (Elt F) := fun c => StableHlo.after main_part1_ops1 (W3 m ρ c)
abbrev V4 : (c : Dev nD) → (b : Ref sig .tc) → Buf (Elt F) ((c : Thread nD τ).loc b) := fun c b => W4 m ρ c b

/-- At call 1's exit: its arrays at what its write-backs fold to, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At call 2's exit: its arrays at what its write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the reshape of the second bias: the second aggregation call's entry. -/
abbrev W7 : Dev nD → Valuation τ sig (Elt F) := fun c => StableHlo.after main_part1_ops2 (W6 m ρ c)
abbrev V7 : (c : Dev nD) → (b : Ref sig .tc) → Buf (Elt F) ((c : Thread nD τ).loc b) := fun c b => W7 m ρ c b

/-- At call 3's exit: its arrays at what its write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- The decode call's output window alone, as a one-window family: its array is the only buffer the call changes. -/
abbrev out4 : Fin 1 → Pipeline.WinSpec sig grid4.rank := fun _ => spec4 2
/-- At the decode call's exit: the result array at what the write-backs fold to, every other buffer as entered
    (its two input windows read one array, which no write-back touches). -/
def W9 (c : Dev nD) : Valuation τ sig (Elt F) :=
  Pipeline.withArrays out4 c (W8 m ρ c) fun _ => (dat4 (V8 m ρ) q4 c).arrAt 2 cfg4.N
theorem W9_out (c : Dev nD) :
    W9 m ρ c (Proc.devRef .tc main_v60) = (dat4 (V8 m ρ) q4 c).arrAt 2 cfg4.N := by
  unfold W9; exact Pipeline.withArrays_arr out4 (fun a b _ => Subsingleton.elim a b) c _ _ 0
theorem W9_of_ne (c : Dev nD) (b : Ref sig .tc) (hb : main_v60 ≠ b) :
    W9 m ρ c (Proc.devRef .tc b) = W8 m ρ c (Proc.devRef .tc b) := by
  unfold W9; exact Pipeline.withArrays_of_ne out4 c _ _ b fun _ => hb
abbrev V9 : (c : Dev nD) → (b : Ref sig .tc) → Buf (Elt F) ((c : Thread nD τ).loc b) := fun c b => W9 m ρ c b

end Cert.KernelIdeal.Hand

end
-- ==== Proof.KIRunB.lean ====
import proofs.«166453_j25847113187564_2_alg».proof.Proof.KIRunA

/-! Each kernel call as a segment of the run: entered from every unscoped buffer at the boundary's contents, its
    arrays split out and put back at the exit contents; the decode call's shared input array halved between its two
    windows and joined again. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 5) → (pcfgs (F := F) p).Adm := fun p => (cfgs p).toPCfg_adm
/-- Every call's proof data, each at its entry contents. -/
def pdats : (p : Fin 5) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V5 m ρ) c
  | ⟨3, _⟩ => fun c => dat3 (V7 m ρ) c
  | ⟨4, _⟩ => fun c => dat4 (V8 m ρ) q4 c
abbrev 𝒱₀ : Variants := Variants.none
abbrev L : GSem nD τ sig → Finset Unit := fun _ => ∅
abbrev lv : GSem nD τ sig → Unit → ℕ := fun _ _ => 0
/-- Beside the buffers: the core's generator register at some state, and that it owes nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_ops0_fresh : (main_part0_ops0 : List (HloOp τ sig (Elt F))).Forall fun op => op.fresh = ∅ := by
  simp only [List.Forall]; repeat' constructor
theorem part1_ops0_fresh : (main_part1_ops0 : List (HloOp τ sig (Elt F))).Forall fun op => op.fresh = ∅ := by
  simp only [List.Forall]; repeat' constructor
theorem part1_ops1_fresh : (main_part1_ops1 : List (HloOp τ sig (Elt F))).Forall fun op => op.fresh = ∅ := by
  simp only [List.Forall]; repeat' constructor
theorem part1_ops2_fresh : (main_part1_ops2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0: entered from every unscoped buffer at `W2`, left at `W3`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `W4`, left at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the decode call's two buffers the exit contents are the entry contents. -/
theorem rest4_eq (c : Dev nD) :
    (Pipeline.unscopedRest (Ix := Unit) (Name := ℕ) (U := UR sig nD τ) (Lvl := ℕ) spec4 c (V8 m ρ c) : sProp 𝕄)
      = Pipeline.unscopedRest spec4 c (V9 m ρ c) := by
  unfold Pipeline.unscopedRest
  refine BI.bigSep_congr fun b hb => ?_
  rw [show V9 m ρ c b = V8 m ρ c b from W9_of_ne m ρ c b fun e =>
    (Finset.mem_sdiff.mp hb).2 (Finset.mem_image.mpr ⟨2, Finset.mem_univ _, e⟩)]

/-- What the decode call's arrays hold at its exit, read off the exit contents. -/
theorem hG4 (c : Dev nD) (w : Fin cfg4.W) :
    (dat4 (V8 m ρ) q4 c).arrAt w cfg4.N = V9 m ρ c (Pipeline.arrRef spec4 w) := by
  match w with
  | ⟨0, _⟩ => exact (((dat4 (V8 m ρ) q4 c).arrAt_in 0 rfl _).trans (A_eq4 (V8 m ρ) q4 c 0)).trans (W9_of_ne m ρ c _ (by decide)).symm
  | ⟨1, _⟩ => exact (((dat4 (V8 m ρ) q4 c).arrAt_in 1 rfl _).trans (A_eq4 (V8 m ρ) q4 c 1)).trans (W9_of_ne m ρ c _ (by decide)).symm
  | ⟨2, _⟩ => exact (W9_out m ρ c).symm

set_option backward.isDefEq.respectTransparency.types false in
/-- The decode call: entered from every unscoped buffer at `W8`, left at `W9`. Its two input windows read ONE array:
    the buffer's full share is halved between them at the entry and put together again at the exit. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V8 m ρ) q4 c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit : (StableHlo.held (c : Thread nD τ) (Pipeline.ucRefs τ sig) (W8 m ρ c) : sProp 𝕄)
        ⊢ iprop(Pipeline.arrBufs spec4 c (V8 m ρ c) ∗ Pipeline.unscopedRest spec4 c (V8 m ρ c)) := by
      have h := Pipeline.unscopedBufs_split₀ (cfgs) 4 (fun w => by revert w; decide) c (V8 m ρ c) (Ix := Unit) (Name := ℕ) (U := UR sig nD τ) (Lvl := ℕ) (Val := Elt F) (τ := τ)
      rw [Pipeline.unscopedBufs_held] at h
      exact Entails.of_eq h
    iintro ⟨⟨Hub, Hp, HO⟩, -, -⟩
    ihave H := hsplit $$ Hub
    icases H with ⟨Ha, Hrest⟩
    imodintro
    isplitl [Ha]
    · iapply (arrays4_iff c (pdats m ρ 4 c) rfl (V8 m ρ c) ((pdats m ρ 4 c).arrAt · 0) (fun w => A_eq4 (V8 m ρ) q4 c w)).1
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop(Pipeline.arrBufs spec4 c (V9 m ρ c) ∗ Pipeline.unscopedRest spec4 c (V9 m ρ c))
        ⊢ (StableHlo.held (c : Thread nD τ) (Pipeline.ucRefs τ sig) (W9 m ρ c) : sProp 𝕄) := by
      have h := Pipeline.unscopedBufs_split₀ (cfgs) 4 (fun w => by revert w; decide) c (V9 m ρ c) (Ix := Unit) (Name := ℕ) (U := UR sig nD τ) (Lvl := ℕ) (Val := Elt F) (τ := τ)
      rw [Pipeline.unscopedBufs_held] at h
      exact Entails.of_eq h.symm
    have hrest : (Pipeline.unscopedRest (Ix := Unit) (Name := ℕ) (U := UR sig nD τ) (Lvl := ℕ) spec4 c (V8 m ρ c) : sProp 𝕄)
        ⊢ Pipeline.unscopedRest spec4 c (V9 m ρ c) := Entails.of_eq (rest4_eq m ρ c)
    iintro ⟨Ha, HO, HY, Hrest⟩
    imodintro
    isplitl [Ha Hrest HY]
    · isplitl [Ha Hrest]
      · iapply hjoin
        isplitl [Ha]
        · iapply (arrays4_iff c (pdats m ρ 4 c) rfl (V9 m ρ c) ((pdats m ρ 4 c).arrAt · cfg4.N) (hG4 m ρ c)).2
          iexact Ha
        iapply hrest; iexact Hrest
      iexact HY
    unfold Pipeline.Dat.owesAt Pipeline.owesWithin
    icases HO with ⟨%W, -, HO⟩; iexists W; iexact HO

end Cert.KernelIdeal.Hand

end
-- ==== Proof.KIRunD.lean ====
import proofs.«166453_j25847113187564_2_alg».proof.Proof.KIRunA

/-! What each boundary's contents hold at the buffers the proof reads: an argument array is written by no host operation
    and no call, so it holds its launch contents at every boundary; a call's result array holds what the call's
    write-backs fold to until the next call reads it; the dense adjacency, written before the first call, is still
    there when each aggregation call reads it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays at every boundary -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (StableHlo.after_of_forall_not_mem (b := Proc.devRef .tc main_arg0) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (W9_of_ne m ρ c main_arg0 (by decide)).trans (W8_main_arg0 m ρ c)

theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (StableHlo.after_of_forall_not_mem (b := Proc.devRef .tc main_arg1) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (W9_of_ne m ρ c main_arg1 (by decide)).trans (W8_main_arg1 m ρ c)

theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg2 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W4_main_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (StableHlo.after_of_forall_not_mem (b := Proc.devRef .tc main_arg2) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (W9_of_ne m ρ c main_arg2 (by decide)).trans (W8_main_arg2 m ρ c)

theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg3 m ρ c)
theorem W3_main_arg3 (c : Dev nD) : W3 m ρ c (Proc.devRef .tc main_arg3) = m ((c : Thread nD τ).loc main_arg3) :=
  ((W3_arr m ρ c 1).trans (((dat0 (V2 m ρ) c).arrAt_in 1 rfl _).trans (A_eq0 (V2 m ρ) c 1))).trans (W2_main_arg3 m ρ c)
theorem W4_main_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (StableHlo.after_of_forall_not_mem (b := Proc.devRef .tc main_arg3) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (W9_of_ne m ρ c main_arg3 (by decide)).trans (W8_main_arg3 m ρ c)

theorem W1_main_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg4 (c : Dev nD) : W2 m ρ c (Proc.devRef .tc main_arg4) = m ((c : Thread nD τ).loc main_arg4) :=
  (StableHlo.after_of_forall_not_mem (b := Proc.devRef .tc main_arg4) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (StableHlo.after_of_forall_not_mem (b := Proc.devRef .tc main_arg4) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (StableHlo.after_of_forall_not_mem (b := Proc.devRef .tc main_arg4) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (W9_of_ne m ρ c main_arg4 (by decide)).trans (W8_main_arg4 m ρ c)

theorem W1_main_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (StableHlo.after_of_forall_not_mem (b := Proc.devRef .tc main_arg5) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  ((W6_arr m ρ c 1).trans (((dat2 (V5 m ρ) c).arrAt_in 1 rfl _).trans (A_eq2 (V5 m ρ) c 1))).trans (W5_main_arg5 m ρ c)
theorem W7_main_arg5 (c : Dev nD) : W7 m ρ c (Proc.devRef .tc main_arg5) = m ((c : Thread nD τ).loc main_arg5) :=
  (StableHlo.after_of_forall_not_mem (b := Proc.devRef .tc main_arg5) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (W9_of_ne m ρ c main_arg5 (by decide)).trans (W8_main_arg5 m ρ c)

theorem W1_main_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
          simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W2_main_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
          simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg6 m ρ c)
theorem W3_main_arg6 (c : Dev nD) : W3 m ρ c (Proc.devRef .tc main_arg6) = m ((c : Thread nD τ).loc main_arg6) :=
  (W3_of_ne m ρ c main_arg6 (by decide)).trans (W2_main_arg6 m ρ c)
theorem W4_main_arg6 (c : Dev nD) : W4 m ρ c (Proc.devRef .tc main_arg6) = m ((c : Thread nD τ).loc main_arg6) :=
  (StableHlo.after_of_forall_not_mem (b := Proc.devRef .tc main_arg6) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (StableHlo.after_of_forall_not_mem (b := Proc.devRef .tc main_arg6) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (W9_of_ne m ρ c main_arg6 (by decide)).trans (W8_main_arg6 m ρ c)

/-! ## What the calls read -/

/-- The first aggregation call finds the adjacency as the host wrote it before the first call. -/
theorem V4_main_v53 (c : Dev nD) : V4 m ρ c main_v53 = V2 m ρ c main_v53 :=
  (StableHlo.after_of_forall_not_mem (b := Proc.devRef .tc main_v53) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_of_ne m ρ c main_v53 (by decide))
/-- … the first linear call's result … -/
theorem V4_main_v54 (c : Dev nD) : V4 m ρ c main_v54 = (dat0 (V2 m ρ) c).arrAt 2 cfg0.N :=
  (StableHlo.after_of_forall_not_mem (b := Proc.devRef .tc main_v54) _ _ (List.forall_iff_forall_mem.mp (by
          simp only [main_part1_ops1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W3_arr m ρ c 2)
/-- … and the first bias as a row. -/
theorem V4_main_v55 (c : Dev nD) :
    V4 m ρ c main_v55 = fun i => shapeCast S1x256 (m ((c : Thread nD τ).loc main_arg4)) shapeCasts_S256_S1x256 i := by
  show StableHlo.after main_part1_ops1 (W3 m ρ c) (Proc.devRef .tc main_v55) = _
  after_results
  rw [W3_main_arg4]
  rfl
/-- The second linear call finds the first aggregation's result, -/
theorem V5_main_v56 (c : Dev nD) : V5 m ρ c main_v56 = (dat1 (V4 m ρ) c).arrAt 3 cfg1.N := W5_arr m ρ c 3
/-- The second aggregation call finds the adjacency still as the host wrote it, -/
theorem V7_main_v53 (c : Dev nD) : V7 m ρ c main_v53 = V2 m ρ c main_v53 :=
  calc V7 m ρ c main_v53
    _ = W6 m ρ c (Proc.devRef .tc main_v53) := StableHlo.after_of_forall_not_mem (b := Proc.devRef .tc main_v53) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v53) := W6_of_ne m ρ c main_v53 (by decide)
    _ = V4 m ρ c main_v53 := (W5_arr m ρ c 0).trans (((dat1 (V4 m ρ) c).arrAt_in 0 rfl _).trans (A_eq1 (V4 m ρ) c 0))
    _ = V2 m ρ c main_v53 := V4_main_v53 m ρ c
/-- … the second linear call's result … -/
theorem V7_main_v57 (c : Dev nD) : V7 m ρ c main_v57 = (dat2 (V5 m ρ) c).arrAt 2 cfg2.N :=
  (StableHlo.after_of_forall_not_mem (b := Proc.devRef .tc main_v57) _ _ (List.forall_iff_forall_mem.mp (by
          simp only [main_part1_ops2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_arr m ρ c 2)
/-- … and the second bias as a row. -/
theorem V7_main_v58 (c : Dev nD) :
    V7 m ρ c main_v58 = fun i => shapeCast S1x128 (m ((c : Thread nD τ).loc main_arg6)) shapeCasts_S128_S1x128 i := by
  show StableHlo.after main_part1_ops2 (W6 m ρ c) (Proc.devRef .tc main_v58) = _
  after_results
  rw [W6_main_arg6]
  rfl
/-- The decode call finds the second aggregation's result. -/
theorem V8_main_v59 (c : Dev nD) : V8 m ρ c main_v59 = (dat3 (V7 m ρ) c).arrAt 3 cfg3.N := W8_arr m ρ c 3

end Cert.KernelIdeal.Hand

end
-- ==== Proof.KIRunC.lean ====
import proofs.«166453_j25847113187564_2_alg».proof.Proof.KIRunB
import proofs.«166453_j25847113187564_2_alg».proof.Proof.KIRunD

/-! The argument arrays are written by no host operation and no call; @main is the run of its nine segments; hence
    the run theorem: every weakly fair execution terminates with the result array at the last boundary's contents and
    the arguments as launched. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m ρ) () defs₀ 𝒱₀ L lv) :=
  [ .host (hseg main_part0_ops0 main_part0_ops0_sub part0_ops0_fresh (W0 m ρ)),
    .host (hseg main_part1_ops0 main_part1_ops0_sub part1_ops0_fresh (W1 m ρ)),
    .region (reg0 m ρ),
    .host (hseg main_part1_ops1 main_part1_ops1_sub part1_ops1_fresh (W3 m ρ)),
    .region (reg1 m ρ),
    .region (reg2 m ρ),
    .host (hseg main_part1_ops2 main_part1_ops2_sub part1_ops2_fresh (W6 m ρ)),
    .region (reg3 m ρ),
    .region (reg4 m ρ) ]
/-- @main is the run of the segments. -/
theorem main_run (c : Dev nD) : main (F := F) c = Pipeline.Seg.run (segs m ρ) := by
  rw [main_chain_windows c, Pipeline.Seg.run_eq_chain]; rfl

set_option backward.isDefEq.respectTransparency.types false in
/-- THE RUN: from any memory with zero counters every weakly fair execution of @main terminates, nothing faulting; the
    final memory holds the result array at the last boundary's contents and every argument array as launched. -/
theorem run_main : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«166453_j25847113187564_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.RefSpec.lean ====
/-
  The two-layer graph convolution link predictor, as mathematics over node, edge and feature coordinates on the
  extended reals.

  There are 8192 nodes and 524288 directed edges. Edge `e` has a source word `src e` and a destination word `dst e`
  (the two rows of the edge array). A word names the node `row v`: a negative word is wrapped once by the node count,
  and the result is clamped into the node range. A message is ADDED at the node whose number the destination word
  reads as a signed integer, with no wrap and no clamp (a destination outside the node range contributes nothing).

    h0 n k        = emb (row (x n)) k                                the looked-up features
    lin H W n c   = Σ k, H n k · W k c                               a projection
    cnt n         = 0 + Σ e, [dst e reads n] 1                       the in-degree
    dinv n        = rsqrt (cnt n + 1)                                 with the self loop
    nrm e         = dinv (row (src e)) · dinv (row (dst e))           the symmetric normalisation of an edge
    layer Y b n c = ((0 + Σ e, [dst e reads n] Y (row (src e)) c · nrm e) + Y n c · (dinv n · dinv n)) + b c
    h1            = max (layer (lin h0 W1) b1) 0
    z             = layer (lin h1 W2) b2
    out i j       = 1 / (1 + exp (−(Σ c, z i c · z j c)))

  Every operation is the extended reals' own: the sum of a finite family, `Ideal.rsqrt`, `Ideal.exp`, `Ideal.div`.
-/
import Mathlib
import Idealize.ShloMosaic.Lib.ValueIdx
import Idealize.ShloMosaic.PureOps.Ideal.Laws
import proofs.«166453_j25847113187564_2_alg».proof.Proof.LibEdgeAggregate

noncomputable section

open scoped BigOperators

namespace Cert.Gcn.Ref

open Idealize.ShloMosaic Idealize.ShloMosaic.ValueIdx Cert.Lib.EdgeAggregate

/-- There is at least one node. -/
theorem nodes_pos : 0 < 8192 := by decide

/-- The node a 32-bit index word names: a negative word wrapped once by the node count 8192, then clamped into
    `[0, 8191]`. -/
def row (v : BitVec 32) : Fin 8192 := srcRow 8192 nodes_pos 8192#32 v

/-- The source word of edge `e`: row 0 of the edge array. -/
def src (ei : IVec ⟨2, ![2, 524288]⟩ 32) (e : Fin 524288) : BitVec 32 := ei (ix2 (0 : Fin 2) e)

/-- The destination word of edge `e`: row 1 of the edge array. -/
def dst (ei : IVec ⟨2, ![2, 524288]⟩ 32) (e : Fin 524288) : BitVec 32 := ei (ix2 (1 : Fin 2) e)

/-- The looked-up features: node `n` takes the table's row that its index word names. -/
def h0 (x : IVec ⟨1, ![8192]⟩ 32) (emb : (⟨2, ![8192, 128]⟩ : Shape).Idx → EReal) (n : Fin 8192) (k : Fin 128) : EReal :=
  emb (ix2 (row (x (ix1 n))) k)

/-- A projection of node features by a weight matrix. -/
def lin {K C : Nat} (H : Fin 8192 → Fin K → EReal) (W : (⟨2, ![K, C]⟩ : Shape).Idx → EReal) (n : Fin 8192) (c : Fin C) :
    EReal :=
  ∑ k : Fin K, H n k * W (ix2 k c)

/-- The in-degree of node `n`: one for every edge whose destination word reads `n`, added onto zero. -/
def cnt (ei : IVec ⟨2, ![2, 524288]⟩ 32) (n : Fin 8192) : EReal :=
  0 + ∑ e : Fin 524288, if (dst ei e).toInt = (n.val : Int) then (1 : EReal) else 0

/-- The inverse square root of the degree with the self loop counted. -/
def dinv (ei : IVec ⟨2, ![2, 524288]⟩ 32) (n : Fin 8192) : EReal := Ideal.rsqrt (cnt ei n + 1)

/-- The normalisation of edge `e`: the inverse root degrees of the nodes its two words name. -/
def nrm (ei : IVec ⟨2, ![2, 524288]⟩ 32) (e : Fin 524288) : EReal := dinv ei (row (src ei e)) * dinv ei (row (dst ei e))

/-- One graph convolution of projected features `Y` with bias `b`: the normalised messages of the edges arriving at
    `n`, added onto zero; plus the self loop's message; plus the bias. -/
def layer {C : Nat} (ei : IVec ⟨2, ![2, 524288]⟩ 32) (Y : Fin 8192 → Fin C → EReal) (b : (⟨1, ![C]⟩ : Shape).Idx → EReal)
    (n : Fin 8192) (c : Fin C) : EReal :=
  ((0 + ∑ e : Fin 524288, if (dst ei e).toInt = (n.val : Int) then Y (row (src ei e)) c * nrm ei e else 0)
      + Y n c * (dinv ei n * dinv ei n))
    + b (ix1 c)

/-- The hidden features: the first convolution, rectified. -/
def h1 (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal) (n : Fin 8192) (c : Fin 256) :
    EReal :=
  max (layer ei (lin (h0 x emb) W1) b1 n c) 0

/-- The node embeddings: the second convolution. -/
def z (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (n : Fin 8192) (c : Fin 128) :
    EReal :=
  layer ei (lin (h1 x ei emb W1 b1) W2) b2 n c

/-- The link score of the node pair `(i, j)`: the logistic function of the embeddings' inner product, spelled
    `1 / (1 + exp (−s))`. -/
def out (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (i j : Fin 8192) : EReal :=
  Ideal.div 1 (1 + Ideal.exp (-(∑ c : Fin 128, z x ei emb W1 b1 W2 b2 i c * z x ei emb W1 b1 W2 b2 j c)))

end Cert.Gcn.Ref

end
-- ==== Proof.KerHostSpec.lean ====
/-
  What the host side of the two-layer graph convolution computes before its matrix products that the reference does not
  spell: the dense normalised adjacency, as a function of the edge array over Fin coordinates and the extended reals.

  The looked-up features h0, the degree count cnt, its inverse square root dinv and the edge normalisation nrm are the
  specification's own (the same operations compute them on both sides). With them,

    adj n k = 0 + (Σ e, [wrap (dst e) reads n and wrap (src e) reads k] nrm e
                   + Σ i, [wrap (word i) reads n and wrap (word i) reads k] dinv i · dinv i)

  where wrap adds 8192 to a word that reads below zero and word i is node i's own number as a 32-bit word: an edge
  value lands at the entry its wrapped destination and wrapped source name, read signed and NOT clamped (an edge one of
  whose wrapped ends is not a node number lands nowhere), and node i's self loop at the entry its own wrapped word
  names twice.
-/
import Idealize.ShloMosaic.Lib.ValueIdx
import Idealize.ShloMosaic.Lib.Pipeline.Value
import Idealize.ShloMosaic.PureOps.Ideal.Laws
import proofs.«166453_j25847113187564_2_alg».proof.Proof.LibEdgeAggregate
import proofs.«166453_j25847113187564_2_alg».proof.Proof.RefSpec

noncomputable section

open scoped BigOperators

namespace Cert.Gcn.Ker

open Idealize.ShloMosaic Idealize.ShloMosaic.ValueIdx Cert.Lib.Rows Cert.Lib.EdgeAggregate Cert.Gcn.Ref

/-- Node i's own number as a 32-bit word. -/
def selfWord (i : Fin 8192) : BitVec 32 := BitVec.ofNat 32 i.val

/-- The dense normalised adjacency at (n, k): onto zero, nrm e for every edge e whose wrapped destination word reads n
    and whose wrapped source word reads k, then dinv i * dinv i for every node i whose own wrapped word reads n and k. -/
def adj (ei : IVec ⟨2, ![2, 524288]⟩ 32) (n k : Fin 8192) : EReal :=
  0 + ((∑ e : Fin 524288,
          if (wrapIdx 8192#32 (dst ei e)).toInt = (n.val : Int) ∧ (wrapIdx 8192#32 (src ei e)).toInt = (k.val : Int)
            then nrm ei e else 0)
        + ∑ i : Fin 8192,
          if (wrapIdx 8192#32 (selfWord i)).toInt = (n.val : Int) ∧ (wrapIdx 8192#32 (selfWord i)).toInt = (k.val : Int)
            then dinv ei i * dinv ei i else 0)

end Cert.Gcn.Ker

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.GcnAlgebraLayer.lean ====
/-
  The algebra of one graph-convolution layer, on real numbers, over abstract finite sets of edges and nodes.

  A layer can be computed in two ways. Densely: build the matrix whose (n, k) entry collects the weights w e of the
  edges e that land on node n and start at node k, plus d n on the diagonal, and multiply its row n with the column Y.
  Or edge by edge: add up Y (start of e) · w e over the edges that land on n, then add the node's own term Y n · d n.
  Both are the same number: the sum over k of the indicator "e starts at k" times Y k picks out Y at the start of e
  (distributivity and an exchange of two finite sums).
-/
import Mathlib.Algebra.BigOperators.Ring.Finset
import Mathlib.Algebra.BigOperators.Group.Finset.Sigma
import Mathlib.Algebra.BigOperators.Group.Finset.Piecewise
import Mathlib.Data.Real.Basic
import Mathlib.Tactic.Ring

open scoped BigOperators

namespace Cert.Gcn.Alg

variable {E N : Type*} [Fintype E] [Fintype N] [DecidableEq N]

/-- The edge part: the row of collected weights times the column is the edgewise sum. -/
theorem dense_edges (lands : E → Prop) [DecidablePred lands] (srow : E → N) (w : E → ℝ) (Y : N → ℝ) :
    ∑ k, (∑ e, if lands e ∧ srow e = k then w e else 0) * Y k
      = ∑ e, if lands e then Y (srow e) * w e else 0 := by
  simp only [Finset.sum_mul]
  rw [Finset.sum_comm]
  refine Finset.sum_congr rfl fun e _ => ?_
  by_cases hl : lands e
  · simp only [hl, true_and, if_true, ite_mul, zero_mul]
    rw [Finset.sum_ite_eq Finset.univ (srow e) fun k => w e * Y k]
    simp only [Finset.mem_univ, if_true]
    ring
  · simp only [hl, false_and, if_false, zero_mul, Finset.sum_const_zero]

/-- The diagonal part, the diagonal written as a sum over nodes i of "i is the row and i is the column". -/
theorem dense_diag (d : N → ℝ) (Y : N → ℝ) (n : N) :
    ∑ k, (∑ i, if i = n ∧ i = k then d i else 0) * Y k = Y n * d n := by
  have h : ∀ k, (∑ i, if i = n ∧ i = k then d i else 0) = if n = k then d n else 0 := by
    intro k
    rw [Finset.sum_eq_single n]
    · by_cases hk : n = k
      · simp [hk]
      · simp [hk]
    · intro i _ hi
      simp [hi]
    · intro hn
      exact absurd (Finset.mem_univ n) hn
  simp only [h, ite_mul, zero_mul]
  rw [Finset.sum_ite_eq Finset.univ n fun k => d n * Y k]
  simp only [Finset.mem_univ, if_true]
  ring

/-- ONE LAYER, DENSE = EDGEWISE: row n of (collected edge weights + diagonal) times Y is the sum over the edges landing
    on n of Y at the edge's start times the edge's weight, plus the node's own term. -/
theorem dense_layer (lands : E → Prop) [DecidablePred lands] (srow : E → N) (w : E → ℝ) (d : N → ℝ) (Y : N → ℝ)
    (n : N) :
    ∑ k, ((∑ e, if lands e ∧ srow e = k then w e else 0) + ∑ i, if i = n ∧ i = k then d i else 0) * Y k
      = (∑ e, if lands e then Y (srow e) * w e else 0) + Y n * d n := by
  simp only [add_mul, Finset.sum_add_distrib]
  rw [dense_edges lands srow w Y, dense_diag d Y n]

end Cert.Gcn.Alg
-- ==== Proof.GcnAlgebraReal.lean ====
/-
  Real numbers inside the extended reals: what is needed to carry an identity of real numbers over to extended reals
  that are known to be real.

  An extended real is REAL when it is the coercion of a real number. Sums, products, negations, maxima, conditionals and
  finite sums of reals are real; the inverse square root of a positive real is real; the logistic function of anything
  is real. With every quantity of a computation real, an identity that needs distributivity — false at the infinities —
  may be proved on the real numbers and read back.
-/
import Mathlib.Data.EReal.Operations
import Mathlib.Algebra.BigOperators.Ring.Finset
import Idealize.ShloMosaic.PureOps.Ideal
import proofs.«166453_j25847113187564_2_alg».proof.Proof.LibERealSum
import proofs.«166453_j25847113187564_2_alg».proof.Proof.GcnAlgebraLayer

open scoped BigOperators

namespace Cert.Gcn.Alg

open Idealize.ShloMosaic
open Cert.Lib.ERealSum (coe_sum)

/-- An extended real that is (the coercion of) a real number. -/
def IsReal (x : EReal) : Prop := ∃ r : ℝ, x = (r : EReal)

namespace IsReal

theorem coe (r : ℝ) : IsReal (r : EReal) := ⟨r, rfl⟩
theorem zero : IsReal 0 := ⟨0, EReal.coe_zero.symm⟩
theorem one : IsReal 1 := ⟨1, EReal.coe_one.symm⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem neg {x : EReal} (hx : IsReal x) : IsReal (-x) := by
  obtain ⟨a, rfl⟩ := hx
  exact ⟨-a, (EReal.coe_neg a).symm⟩

theorem max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

theorem ite {p : Prop} [Decidable p] {x y : EReal} (hx : IsReal x) (hy : IsReal y) :
    IsReal (if p then x else y) := by
  split
  · exact hx
  · exact hy

theorem sum {ι : Type*} (s : Finset ι) {f : ι → EReal} (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The inverse square root of a positive real is a real. -/
theorem rsqrt_of_pos {r : ℝ} (hr : 0 < r) : IsReal (Ideal.rsqrt (r : EReal)) :=
  ⟨(Real.sqrt r)⁻¹, by rw [Ideal.rsqrt_coe, if_neg (not_lt.mpr hr.le), if_neg hr.ne']⟩

/-- The logistic function of any extended real is a real. -/
theorem logistic (x : EReal) : IsReal (Ideal.logistic x) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

end IsReal

/-- A conditional between two coerced reals is the coerced conditional. -/
theorem coe_ite (p : Prop) [Decidable p] (a b : ℝ) :
    (if p then (a : EReal) else (b : EReal)) = ((if p then a else b : ℝ) : EReal) := by
  split <;> rfl

/-- A count — one per member of a finite set, from zero, plus one more — is a positive real. -/
theorem count_add_one_pos {ι : Type*} [Fintype ι] (p : ι → Prop) [DecidablePred p] :
    ∃ r : ℝ, 0 < r ∧ ((0 : EReal) + ∑ e : ι, if p e then (1 : EReal) else 0) + 1 = (r : EReal) := by
  refine ⟨(∑ e : ι, if p e then (1 : ℝ) else 0) + 1, ?_, ?_⟩
  · have : 0 ≤ ∑ e : ι, if p e then (1 : ℝ) else 0 :=
      Finset.sum_nonneg fun e _ => by split <;> norm_num
    linarith
  · simp only [← EReal.coe_one, ← EReal.coe_zero, coe_ite, ← coe_sum, ← EReal.coe_add]
    rw [zero_add]

section Layer

variable {E N : Type*} [Fintype E] [Fintype N] [DecidableEq N]

/-- ONE LAYER ON REAL-VALUED EXTENDED REALS, DENSE = EDGEWISE. The dense matrix entry (n, k) starts from 0 and collects
    the weights of the edges that land on n and start at k, plus the diagonal term written as a sum over the nodes i of
    "i is the row and i is the column"; the edgewise sum starts from 0 as well. -/
theorem layer_eq (lands : E → Prop) [DecidablePred lands] (srow : E → N) (w : E → EReal) (d : N → EReal)
    (Y : N → EReal) (n : N) (hw : ∀ e, IsReal (w e)) (hd : ∀ i, IsReal (d i)) (hY : ∀ k, IsReal (Y k)) :
    ∑ k, (0 + ((∑ e, if lands e ∧ srow e = k then w e else 0) + ∑ i, if i = n ∧ i = k then d i else 0)) * Y k
      = (0 + ∑ e, if lands e then Y (srow e) * w e else 0) + Y n * d n := by
  choose wr hwr using hw
  choose dr hdr using hd
  choose Yr hYr using hY
  simp only [hwr, hdr, hYr, ← EReal.coe_zero, coe_ite, ← EReal.coe_mul, ← coe_sum, ← EReal.coe_add]
  refine congrArg _ ?_
  simp only [zero_add]
  exact dense_layer lands srow wr dr Yr n

end Layer

end Cert.Gcn.Alg
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.GcnAlgebraIndex.lean ====
/-
  Index words that are node numbers.

  A 32-bit word v that reads, signed, as a number in [0, 8192) names node v: the wrap of negative words (add 8192 below
  zero) leaves it alone, and so does the clamp into [0, 8191]. A node's own number i < 8192, written as a 32-bit word,
  is such a word and reads i. So "the wrapped word reads n" is "the word reads n", "the wrapped source word reads k" is
  "the source's node is k", and "node i's wrapped word reads n and k" is "i = n and i = k".
-/
import proofs.«166453_j25847113187564_2_alg».proof.Proof.LibEdgeAggregate
import proofs.«166453_j25847113187564_2_alg».proof.Proof.LibEdgeIndex

namespace Cert.Gcn.Alg

open Idealize.ShloMosaic Cert.Lib.Rows Cert.Lib.EdgeAggregate

/-- The wrap leaves a word that reads at least zero alone. -/
theorem wrapIdx_of_nonneg (cN v : BitVec 32) (h : 0 ≤ v.toInt) : wrapIdx cN v = v :=
  Cert.Lib.EdgeIndex.select_slt_zero_of_nonneg v h _ _

/-- The node a word in [0, 8192) names is the word's own value. -/
theorem srcRow_val (hN : 0 < 8192) (v : BitVec 32) (h0 : 0 ≤ v.toInt) (h1 : v.toInt < 8192) :
    ((srcRow 8192 hN 8192#32 v).val : Int) = v.toInt := by
  unfold srcRow
  rw [wrapIdx_of_nonneg _ _ h0]
  unfold clampRow
  simp only
  omega

/-- A word in [0, 8192) reads k exactly when the node it names is k. -/
theorem toInt_eq_iff_srcRow (hN : 0 < 8192) (v : BitVec 32) (h0 : 0 ≤ v.toInt) (h1 : v.toInt < 8192) (k : Fin 8192) :
    v.toInt = (k.val : Int) ↔ srcRow 8192 hN 8192#32 v = k := by
  have hv := srcRow_val hN v h0 h1
  constructor
  · intro h
    exact Fin.ext (by omega)
  · intro h
    rw [← h]
    exact hv.symm

/-- A node's own number as a 32-bit word reads that number. -/
theorem ofNat_toInt (i : Fin 8192) : (BitVec.ofNat 32 i.val).toInt = (i.val : Int) := by
  have hi := i.isLt
  have hn : (BitVec.ofNat 32 i.val).toNat = i.val := by
    rw [BitVec.toNat_ofNat]
    omega
  rw [BitVec.toInt_eq_toNat_of_lt (by rw [hn]; omega), hn]

/-- The wrapped ends of an edge read n and k exactly when its destination word reads n and its source names k. -/
theorem edge_cond_iff (hN : 0 < 8192) (d s : BitVec 32) (hd : 0 ≤ d.toInt) (hs0 : 0 ≤ s.toInt) (hs1 : s.toInt < 8192)
    (n k : Fin 8192) :
    ((wrapIdx 8192#32 d).toInt = (n.val : Int) ∧ (wrapIdx 8192#32 s).toInt = (k.val : Int))
      ↔ (d.toInt = (n.val : Int) ∧ srcRow 8192 hN 8192#32 s = k) := by
  rw [wrapIdx_of_nonneg _ _ hd, wrapIdx_of_nonneg _ _ hs0, toInt_eq_iff_srcRow hN s hs0 hs1 k]

/-- Node i's own wrapped word reads n and k exactly when i = n and i = k. -/
theorem self_cond_iff (i n k : Fin 8192) :
    ((wrapIdx 8192#32 (BitVec.ofNat 32 i.val)).toInt = (n.val : Int)
        ∧ (wrapIdx 8192#32 (BitVec.ofNat 32 i.val)).toInt = (k.val : Int))
      ↔ (i = n ∧ i = k) := by
  have hi := ofNat_toInt i
  rw [wrapIdx_of_nonneg _ _ (by rw [hi]; omega), hi]
  constructor
  · rintro ⟨h1, h2⟩
    exact ⟨Fin.ext (by omega), Fin.ext (by omega)⟩
  · rintro ⟨rfl, rfl⟩
    exact ⟨rfl, rfl⟩

end Cert.Gcn.Alg
-- ==== Proof.GcnAlgebraNet.lean ====
/-
  The dense form of the two-layer graph convolution equals the edgewise form.

  The dense form multiplies, per layer, the normalised adjacency matrix (edge weights collected per (destination, source)
  pair, self loops on the diagonal) with the projected features; the edgewise form adds, per layer, the weighted rows of
  the edges arriving at a node and the node's own weighted row. When every edge endpoint is a node number the two index
  conventions (wrapped word read signed; wrapped and clamped row) name the same nodes, and when all inputs are real
  numbers so is every intermediate quantity: the in-degree plus one is a positive real, its inverse square root a
  real, the edge weights, the projections and both layers real. On real numbers the two forms of a layer agree by
  distributivity and an exchange of two finite sums; the rectification, the second layer and the logistic decoder are
  then the same functions applied to the same arguments.
-/
import Idealize.ShloMosaic.PureOps.Ideal
import proofs.«166453_j25847113187564_2_alg».proof.Proof.RefSpec
import proofs.«166453_j25847113187564_2_alg».proof.Proof.KerHostSpec
import proofs.«166453_j25847113187564_2_alg».proof.Proof.GcnAlgebraReal
import proofs.«166453_j25847113187564_2_alg».proof.Proof.GcnAlgebraIndex

noncomputable section

open scoped BigOperators

namespace Cert.Gcn.Alg

open Idealize.ShloMosaic Idealize.ShloMosaic.ValueIdx Cert.Lib.EdgeAggregate Cert.Gcn

/-- Every entry of the edge array, read signed, is a node number. -/
def InRange (ei : IVec ⟨2, ![2, 524288]⟩ 32) : Prop := ∀ i, 0 ≤ (ei i).toInt ∧ (ei i).toInt < 8192

/-! ## The dense form -/

/-- One dense layer: row n of the adjacency times column c of the projected features, plus the bias. -/
def dlayer {C : Nat} (ei : IVec ⟨2, ![2, 524288]⟩ 32) (Y : Fin 8192 → Fin C → EReal)
    (b : (⟨1, ![C]⟩ : Shape).Idx → EReal) (n : Fin 8192) (c : Fin C) : EReal :=
  (∑ k : Fin 8192, Ker.adj ei n k * Y k c) + b (ix1 c)

/-- The hidden features, dense: the first layer, rectified. -/
def dh1 (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal) (n : Fin 8192) (c : Fin 256) :
    EReal :=
  max (dlayer ei (Ref.lin (Ref.h0 x emb) W1) b1 n c) 0

/-- The node embeddings, dense: the second layer. -/
def dz (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (n : Fin 8192) (c : Fin 128) :
    EReal :=
  dlayer ei (Ref.lin (dh1 x ei emb W1 b1) W2) b2 n c

/-- The link score, dense: the logistic function of the embeddings' inner product. -/
def dout (x : IVec ⟨1, ![8192]⟩ 32) (ei : IVec ⟨2, ![2, 524288]⟩ 32) (emb : (⟨2, ![8192, 128]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (i j : Fin 8192) : EReal :=
  Ideal.logistic (∑ c : Fin 128, dz x ei emb W1 b1 W2 b2 i c * dz x ei emb W1 b1 W2 b2 j c)

/-! ## Everything is real -/

/-- The inverse root degree is a real number, whatever the edges: the degree plus one is a positive real. -/
theorem dinv_real (ei : IVec ⟨2, ![2, 524288]⟩ 32) (n : Fin 8192) : IsReal (Ref.dinv ei n) := by
  obtain ⟨r, hr, h⟩ := count_add_one_pos (fun e : Fin 524288 => (Ref.dst ei e).toInt = (n.val : Int))
  unfold Ref.dinv Ref.cnt
  rw [h]
  exact IsReal.rsqrt_of_pos hr

theorem nrm_real (ei : IVec ⟨2, ![2, 524288]⟩ 32) (e : Fin 524288) : IsReal (Ref.nrm ei e) :=
  (dinv_real ei _).mul (dinv_real ei _)

theorem h0_real (x : IVec ⟨1, ![8192]⟩ 32) (emb : (⟨2, ![8192, 128]⟩ : Shape).Idx → EReal)
    (hemb : ∀ i, IsReal (emb i)) (n : Fin 8192) (k : Fin 128) : IsReal (Ref.h0 x emb n k) := hemb _

theorem lin_real {K C : Nat} (H : Fin 8192 → Fin K → EReal) (W : (⟨2, ![K, C]⟩ : Shape).Idx → EReal)
    (hH : ∀ n k, IsReal (H n k)) (hW : ∀ i, IsReal (W i)) (n : Fin 8192) (c : Fin C) : IsReal (Ref.lin H W n c) :=
  IsReal.sum _ fun k _ => (hH n k).mul (hW _)

theorem layer_real {C : Nat} (ei : IVec ⟨2, ![2, 524288]⟩ 32) (Y : Fin 8192 → Fin C → EReal)
    (b : (⟨1, ![C]⟩ : Shape).Idx → EReal) (hY : ∀ n c, IsReal (Y n c)) (hb : ∀ i, IsReal (b i)) (n : Fin 8192)
    (c : Fin C) : IsReal (Ref.layer ei Y b n c) := by
  unfold Ref.layer
  exact ((IsReal.zero.add (IsReal.sum _ fun e _ => IsReal.ite ((hY _ c).mul (nrm_real ei e)) IsReal.zero)).add
    ((hY n c).mul ((dinv_real ei n).mul (dinv_real ei n)))).add (hb _)

theorem h1_real (x : IVec ⟨1, ![8192]⟩ 32) (ei : IVec ⟨2, ![2, 524288]⟩ 32)
    (emb : (⟨2, ![8192, 128]⟩ : Shape).Idx → EReal) (W1 : (⟨2, ![128, 256]⟩ : Shape).Idx → EReal)
    (b1 : (⟨1, ![256]⟩ : Shape).Idx → EReal) (hemb : ∀ i, IsReal (emb i)) (hW1 : ∀ i, IsReal (W1 i))
    (hb1 : ∀ i, IsReal (b1 i)) (n : Fin 8192) (c : Fin 256) : IsReal (Ref.h1 x ei emb W1 b1 n c) :=
  (layer_real ei _ b1 (lin_real _ W1 (h0_real x emb hemb) hW1) hb1 n c).max IsReal.zero

/-! ## The adjacency in the reference's index convention -/

/-- With every endpoint a node number, the adjacency entry (n, k) collects the weights of the edges whose destination
    word reads n and whose source names node k, and the self loop where n = k. -/
theorem adj_eq (ei : IVec ⟨2, ![2, 524288]⟩ 32) (hE : InRange ei) (n k : Fin 8192) :
    Ker.adj ei n k
      = 0 + ((∑ e : Fin 524288,
                if (Ref.dst ei e).toInt = (n.val : Int) ∧ Ref.row (Ref.src ei e) = k then Ref.nrm ei e else 0)
            + ∑ i : Fin 8192, if i = n ∧ i = k then Ref.dinv ei i * Ref.dinv ei i else 0) := by
  unfold Ker.adj
  refine congrArg (0 + ·) (congrArg₂ (· + ·) ?_ ?_)
  · refine Finset.sum_congr rfl fun e _ => ?_
    exact if_congr (edge_cond_iff Ref.nodes_pos _ _ (hE _).1 (hE _).1 (hE _).2 n k) rfl rfl
  · refine Finset.sum_congr rfl fun i _ => ?_
    exact if_congr (self_cond_iff i n k) rfl rfl

/-! ## One layer, the hidden features, the embeddings, the score -/

/-- ONE LAYER: on real projected features the dense layer is the edgewise layer. -/
theorem dlayer_eq {C : Nat} (ei : IVec ⟨2, ![2, 524288]⟩ 32) (hE : InRange ei) (Y : Fin 8192 → Fin C → EReal)
    (hY : ∀ n c, IsReal (Y n c)) (b : (⟨1, ![C]⟩ : Shape).Idx → EReal) (n : Fin 8192) (c : Fin C) :
    dlayer ei Y b n c = Ref.layer ei Y b n c := by
  unfold dlayer Ref.layer
  refine congrArg (· + b (ix1 c)) ?_
  simp only [adj_eq ei hE]
  exact layer_eq (fun e => (Ref.dst ei e).toInt = (n.val : Int)) (fun e => Ref.row (Ref.src ei e)) (Ref.nrm ei)
    (fun i => Ref.dinv ei i * Ref.dinv ei i) (fun k => Y k c) n (nrm_real ei)
    (fun i => (dinv_real ei i).mul (dinv_real ei i)) (fun k => hY k c)

section Net

variable (x : IVec ⟨1, ![8192]⟩ 32) (ei : IVec ⟨2, ![2, 524288]⟩ 32) (emb : (⟨2, ![8192, 128]⟩ : Shape).Idx → EReal)
  (W1 : (⟨2, ![128, 256]⟩ : Shape).Idx → EReal) (b1 : (⟨1, ![256]⟩ : Shape).Idx → EReal)
  (W2 : (⟨2, ![256, 128]⟩ : Shape).Idx → EReal) (b2 : (⟨1, ![128]⟩ : Shape).Idx → EReal)

/-- The hidden features agree. -/
theorem dh1_eq (hE : InRange ei) (hemb : ∀ i, IsReal (emb i)) (hW1 : ∀ i, IsReal (W1 i)) :
    dh1 x ei emb W1 b1 = Ref.h1 x ei emb W1 b1 := by
  funext n c
  unfold dh1 Ref.h1
  rw [dlayer_eq ei hE _ (lin_real _ W1 (h0_real x emb hemb) hW1)]

/-- The node embeddings agree. -/
theorem dz_eq (hE : InRange ei) (hemb : ∀ i, IsReal (emb i)) (hW1 : ∀ i, IsReal (W1 i)) (hb1 : ∀ i, IsReal (b1 i))
    (hW2 : ∀ i, IsReal (W2 i)) : dz x ei emb W1 b1 W2 b2 = Ref.z x ei emb W1 b1 W2 b2 := by
  funext n c
  unfold dz Ref.z
  rw [dh1_eq x ei emb W1 b1 hE hemb hW1]
  exact dlayer_eq ei hE _ (lin_real _ W2 (h1_real x ei emb W1 b1 hemb hW1 hb1) hW2) b2 n c

/-- THE TWO FORMS AGREE: with every edge endpoint a node number and the table, the weights and the first bias real,
    the dense link score is the edgewise link score, at every pair of nodes. -/
theorem dout_eq (hE : InRange ei) (hemb : ∀ i, IsReal (emb i)) (hW1 : ∀ i, IsReal (W1 i)) (hb1 : ∀ i, IsReal (b1 i))
    (hW2 : ∀ i, IsReal (W2 i)) (i j : Fin 8192) :
    dout x ei emb W1 b1 W2 b2 i j = Ref.out x ei emb W1 b1 W2 b2 i j := by
  unfold dout Ref.out
  rw [dz_eq x ei emb W1 b1 W2 b2 hE hemb hW1 hb1 hW2]
  rfl

end Net

end Cert.Gcn.Alg

end
-- ==== Proof.LibLayoutRead.lean ====
/-
  Small layout steps read at coordinates: a row slice of a matrix, and the casts between a row [1, C] and a vector [C].
-/
import Idealize.ShloMosaic.Lib.ValueIdx
import Idealize.ShloMosaic.Lib.Pipeline.Value

noncomputable section

namespace Cert.Cheb.Layout

open Idealize.ShloMosaic Idealize.ShloMosaic.ValueIdx

variable {α : Type} {R C : Nat}

/-- Row `k` of an [R, C] matrix taken as the slice [1, C] reads, at (z, q), the matrix at (k, q). -/
theorem sliceRow_apply (k : Nat) (hk : k < R) (x : (⟨2, ![R, C]⟩ : Shape).Idx → α)
    (h : (⟨2, ![R, C]⟩ : Shape).Slices ![k, 0] ⟨2, ![1, C]⟩) (z : Fin 1) (q : Fin C) :
    extractStridedSlice ⟨2, ![1, C]⟩ ![k, 0] x h (ix2 z q) = x (ix2 ⟨k, hk⟩ q) := by
  refine extractStridedSlice_apply _ x h (ix2 z q) (ix2 ⟨k, hk⟩ q) fun a => ?_
  match a with
  | ⟨0, _⟩ =>
    show k = k + z.val
    have := z.isLt; omega
  | ⟨1, _⟩ =>
    show q.val = 0 + q.val
    omega

/-- A row [1, C] cast to the vector [C] reads, at q, the row at (0, q). -/
theorem castRowVec_apply (x : (⟨2, ![1, C]⟩ : Shape).Idx → α) (h : (⟨2, ![1, C]⟩ : Shape).ShapeCasts ⟨1, ![C]⟩) (q : Fin C) :
    shapeCast ⟨1, ![C]⟩ x h (ix1 q) = x (ix2 (0 : Fin 1) q) :=
  shapeCast_apply x h _ _ (by
    rw [Shape.rowMajor_val_one, Shape.rowMajor_val_two]
    show (0 : ℕ) * C + q.val = q.val
    omega)

/-- A vector [C] cast to the row [1, C] reads, at (z, q), the vector at q. -/
theorem castVecRow_apply (x : (⟨1, ![C]⟩ : Shape).Idx → α) (h : (⟨1, ![C]⟩ : Shape).ShapeCasts ⟨2, ![1, C]⟩) (z : Fin 1) (q : Fin C) :
    shapeCast ⟨2, ![1, C]⟩ x h (ix2 z q) = x (ix1 q) :=
  shapeCast_apply x h _ _ (by
    have hz : z.val = 0 := by omega
    rw [Shape.rowMajor_val_one, Shape.rowMajor_val_two]
    show q.val = z.val * C + q.val
    rw [hz]; omega)

/-- A vector [N] cast to the column [N, 1] reads, at (i, z), the vector at i. -/
theorem castVecCol_apply {N : Nat} (x : (⟨1, ![N]⟩ : Shape).Idx → α) (h : (⟨1, ![N]⟩ : Shape).ShapeCasts ⟨2, ![N, 1]⟩) (i : Fin N) (z : Fin 1) :
    shapeCast ⟨2, ![N, 1]⟩ x h (ix2 i z) = x (ix1 i) :=
  shapeCast_apply x h _ _ (by
    have hz : z.val = 0 := by omega
    rw [Shape.rowMajor_val_one, Shape.rowMajor_val_two]
    show i.val = i.val * 1 + z.val
    rw [hz]; omega)

end Cert.Cheb.Layout

end
-- ==== Proof.KIValue.lean ====
/-
  The value of the idealized kernel's result array, composed.

  The program runs five kernel calls between stretches of host operations. Each call leaves in its result array a
  function of the arrays it read: a linear call the matrix product of its two inputs; an aggregation call the product of
  the dense adjacency with the projected features, plus the bias row, (after the first one) cut off below at zero; the
  decoder the logistic function of the inner products of the rows of the embeddings. Each call finds in its input
  arrays what the previous call or the host operations left there, and the argument arrays as launched. Substituting
  one into the other from the decoder back to the launch gives the result as ONE function of the argument arrays: the
  dense form of the two-layer graph convolution link predictor.
-/
import proofs.«166453_j25847113187564_2_alg».proof.Proof.KIRunD
import proofs.«166453_j25847113187564_2_alg».proof.Proof.GcnAlgebraNet
import proofs.«166453_j25847113187564_2_alg».proof.Proof.LibLayoutRead

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The calls' results as whole-array functions of what they read -/

/-- A matrix product: entry (r, s) is row r of X times column s of W. -/
def prodAll {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- An aggregation: the product of A and H, plus the bias row. -/
def aggAll {M K N : Nat} (A : (⟨2, ![M, K]⟩ : Shape).Idx → EReal) (H : (⟨2, ![K, N]⟩ : Shape).Idx → EReal)
    (b : (⟨2, ![1, N]⟩ : Shape).Idx → EReal) : (⟨2, ![M, N]⟩ : Shape).Idx → EReal :=
  fun i => (∑ k : Fin K, A (ix2 (i 0) k) * H (ix2 k (i 1))) + b (ix2 (0 : Fin 1) (i 1))

/-- An aggregation cut off below at zero. -/
def aggReluAll {M K N : Nat} (A : (⟨2, ![M, K]⟩ : Shape).Idx → EReal) (H : (⟨2, ![K, N]⟩ : Shape).Idx → EReal)
    (b : (⟨2, ![1, N]⟩ : Shape).Idx → EReal) : (⟨2, ![M, N]⟩ : Shape).Idx → EReal :=
  fun i => max ((∑ k : Fin K, A (ix2 (i 0) k) * H (ix2 k (i 1))) + b (ix2 (0 : Fin 1) (i 1))) 0

/-- The decoder: entry (r, s) is the logistic function of row r of Z times row s of Z'. -/
def decAll {M K N : Nat} (Z : (⟨2, ![M, K]⟩ : Shape).Idx → EReal) (Z' : (⟨2, ![N, K]⟩ : Shape).Idx → EReal) :
    (⟨2, ![M, N]⟩ : Shape).Idx → EReal :=
  fun i => Ideal.logistic (∑ k : Fin K, Z (ix2 (i 0) k) * Z' (ix2 (i 1) k))

/-! ## The whole-array functions at the specification's arrays -/

/-- A product of features given by coordinates with a weight matrix is the specification's projection. -/
theorem prodAll_of {K C : Nat} (H : Fin 8192 → Fin K → EReal) (W : (⟨2, ![K, C]⟩ : Shape).Idx → EReal)
    {X : (⟨2, ![8192, K]⟩ : Shape).Idx → EReal} {W' : (⟨2, ![K, C]⟩ : Shape).Idx → EReal}
    (hX : X = fun i => H (i 0) (i 1)) (hW : W' = W) :
    prodAll X W' = fun i => Cert.Gcn.Ref.lin H W (i 0) (i 1) := by
  subst hX hW
  rfl

/-- A bias vector laid out as a row reads, in row 0 at column q, the vector at q. -/
theorem biasRow_apply {C : Nat} (b : (⟨1, ![C]⟩ : Shape).Idx → EReal)
    (h : (⟨1, ![C]⟩ : Shape).ShapeCasts ⟨2, ![1, C]⟩) (q : Fin C) :
    shapeCast ⟨2, ![1, C]⟩ b h (ix2 (0 : Fin 1) q) = b (ix1 q) :=
  Cert.Cheb.Layout.castVecRow_apply b h (0 : Fin 1) q

/-- An aggregation of the dense adjacency with projected features and a bias vector laid out as a row is the dense
    layer. -/
theorem aggAll_of {C : Nat} (ei : IVec ⟨2, ![2, 524288]⟩ 32) (Y : Fin 8192 → Fin C → EReal)
    (b : (⟨1, ![C]⟩ : Shape).Idx → EReal) (h : (⟨1, ![C]⟩ : Shape).ShapeCasts ⟨2, ![1, C]⟩)
    {A : (⟨2, ![8192, 8192]⟩ : Shape).Idx → EReal} {H : (⟨2, ![8192, C]⟩ : Shape).Idx → EReal}
    {B : (⟨2, ![1, C]⟩ : Shape).Idx → EReal}
    (hA : A = fun i => Cert.Gcn.Ker.adj ei (i 0) (i 1)) (hH : H = fun i => Y (i 0) (i 1))
    (hB : B = fun i => shapeCast ⟨2, ![1, C]⟩ b h i) :
    aggAll A H B = fun i => Cert.Gcn.Alg.dlayer ei Y b (i 0) (i 1) := by
  subst hA hH hB
  funext i
  obtain ⟨p, q, rfl⟩ : ∃ (p : Fin 8192) (q : Fin C), i = ix2 p q := ⟨i 0, i 1, eq_ix2 i⟩
  show (∑ k : Fin 8192, Cert.Gcn.Ker.adj ei p k * Y k q) + shapeCast ⟨2, ![1, C]⟩ b h (ix2 (0 : Fin 1) q)
    = (∑ k : Fin 8192, Cert.Gcn.Ker.adj ei p k * Y k q) + b (ix1 q)
  rw [biasRow_apply]

/-- The same cut off below at zero. -/
theorem aggReluAll_of {C : Nat} (ei : IVec ⟨2, ![2, 524288]⟩ 32) (Y : Fin 8192 → Fin C → EReal)
    (b : (⟨1, ![C]⟩ : Shape).Idx → EReal) (h : (⟨1, ![C]⟩ : Shape).ShapeCasts ⟨2, ![1, C]⟩)
    {A : (⟨2, ![8192, 8192]⟩ : Shape).Idx → EReal} {H : (⟨2, ![8192, C]⟩ : Shape).Idx → EReal}
    {B : (⟨2, ![1, C]⟩ : Shape).Idx → EReal}
    (hA : A = fun i => Cert.Gcn.Ker.adj ei (i 0) (i 1)) (hH : H = fun i => Y (i 0) (i 1))
    (hB : B = fun i => shapeCast ⟨2, ![1, C]⟩ b h i) :
    aggReluAll A H B = fun i => max (Cert.Gcn.Alg.dlayer ei Y b (i 0) (i 1)) 0 := by
  subst hA hH hB
  funext i
  obtain ⟨p, q, rfl⟩ : ∃ (p : Fin 8192) (q : Fin C), i = ix2 p q := ⟨i 0, i 1, eq_ix2 i⟩
  show max ((∑ k : Fin 8192, Cert.Gcn.Ker.adj ei p k * Y k q) + shapeCast ⟨2, ![1, C]⟩ b h (ix2 (0 : Fin 1) q)) 0
    = max ((∑ k : Fin 8192, Cert.Gcn.Ker.adj ei p k * Y k q) + b (ix1 q)) 0
  rw [biasRow_apply]

/-- The decoder on embeddings given by coordinates. -/
theorem decAll_of {C : Nat} (Z : Fin 8192 → Fin C → EReal)
    {Z0 Z1 : (⟨2, ![8192, C]⟩ : Shape).Idx → EReal}
    (h0 : Z0 = fun i => Z (i 0) (i 1)) (h1 : Z1 = fun i => Z (i 0) (i 1)) :
    decAll Z0 Z1 = fun i => Ideal.logistic (∑ k : Fin C, Z (i 0) k * Z (i 1) k) := by
  subst h0 h1
  rfl

/-- The contents of every buffer of every core, as a call finds them. -/
abbrev Vals : Type := (c : Dev nD) → (b : Ref sig .tc) → Buf (Elt Ideal) ((c : Thread nD τ).loc b)

variable (m : (ℓ : Loc nD τ sig) → Buf (Elt Ideal) ℓ) (ρ : Dev nD → PrngReg)

set_option maxHeartbeats 1000000 in
/-- THE KERNEL'S VALUE from the five calls' closed forms and the two host reads: the result array is the dense link
    score of the argument arrays, entry by entry. -/
theorem kernel_value_of
    (hf0 : ∀ (V : Vals) (c : Dev nD), (dat0 V c).arrAt 2 cfg0.N
      = prodAll (M := 8192) (K := 128) (N := 256) (V c (Pipeline.arrRef spec0 0)) (V c (Pipeline.arrRef spec0 1)))
    (hf1 : ∀ (V : Vals) (c : Dev nD), (dat1 V c).arrAt 3 cfg1.N
      = aggReluAll (M := 8192) (K := 8192) (N := 256) (V c (Pipeline.arrRef spec1 0)) (V c (Pipeline.arrRef spec1 1))
          (V c (Pipeline.arrRef spec1 2)))
    (hf2 : ∀ (V : Vals) (c : Dev nD), (dat2 V c).arrAt 2 cfg2.N
      = prodAll (M := 8192) (K := 256) (N := 128) (V c (Pipeline.arrRef spec2 0)) (V c (Pipeline.arrRef spec2 1)))
    (hf3 : ∀ (V : Vals) (c : Dev nD), (dat3 V c).arrAt 3 cfg3.N
      = aggAll (M := 8192) (K := 8192) (N := 128) (V c (Pipeline.arrRef spec3 0)) (V c (Pipeline.arrRef spec3 1))
          (V c (Pipeline.arrRef spec3 2)))
    (hf4 : ∀ (V : Vals) (c : Dev nD), (dat4 V q4 c).arrAt 2 cfg4.N
      = decAll (M := 8192) (K := 128) (N := 8192) (V c (Pipeline.arrRef spec4 0)) (V c (Pipeline.arrRef spec4 1)))
    (hA : ∀ c : Dev nD, V2 m ρ c main_v53
      = fun i => Cert.Gcn.Ker.adj (m ((c : Thread nD τ).loc main_arg1)) (i 0) (i 1))
    (hH0 : ∀ c : Dev nD, V2 m ρ c main_v6
      = fun i => Cert.Gcn.Ref.h0 (m ((c : Thread nD τ).loc main_arg0)) (m ((c : Thread nD τ).loc main_arg2)) (i 0) (i 1))
    (c : Dev nD) :
    W9 m ρ c (Proc.devRef .tc main_v60)
      = fun i => Cert.Gcn.Alg.dout (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (i 0) (i 1) := by
  have a3 : V2 m ρ c main_arg3 = m ((c : Thread nD τ).loc main_arg3) := W2_main_arg3 m ρ c
  have a5 : V5 m ρ c main_arg5 = m ((c : Thread nD τ).loc main_arg5) := W5_main_arg5 m ρ c
  -- the first linear call's result
  have e54 : V4 m ρ c main_v54 = fun i => Cert.Gcn.Ref.lin
      (Cert.Gcn.Ref.h0 (m ((c : Thread nD τ).loc main_arg0)) (m ((c : Thread nD τ).loc main_arg2)))
      (m ((c : Thread nD τ).loc main_arg3)) (i 0) (i 1) :=
    (V4_main_v54 m ρ c).trans ((hf0 (V2 m ρ) c).trans (prodAll_of (K := 128) (C := 256)
      (Cert.Gcn.Ref.h0 (m ((c : Thread nD τ).loc main_arg0)) (m ((c : Thread nD τ).loc main_arg2)))
      (m ((c : Thread nD τ).loc main_arg3)) (hH0 c) a3))
  -- the first aggregation call's result
  have e56 : V5 m ρ c main_v56 = fun i => Cert.Gcn.Alg.dh1
      (m ((c : Thread nD τ).loc main_arg0))
      (m ((c : Thread nD τ).loc main_arg1)) (m ((c : Thread nD τ).loc main_arg2)) (m ((c : Thread nD τ).loc main_arg3))
      (m ((c : Thread nD τ).loc main_arg4)) (i 0) (i 1) :=
    (V5_main_v56 m ρ c).trans ((hf1 (V4 m ρ) c).trans
      (aggReluAll_of (C := 256) (m ((c : Thread nD τ).loc main_arg1))
        (Cert.Gcn.Ref.lin (Cert.Gcn.Ref.h0 (m ((c : Thread nD τ).loc main_arg0)) (m ((c : Thread nD τ).loc main_arg2)))
          (m ((c : Thread nD τ).loc main_arg3)))
        (m ((c : Thread nD τ).loc main_arg4))
        shapeCasts_S256_S1x256 ((V4_main_v53 m ρ c).trans (hA c)) e54 (V4_main_v55 m ρ c)))
  -- the second linear call's result
  have e57 : V7 m ρ c main_v57 = fun i => Cert.Gcn.Ref.lin
      (Cert.Gcn.Alg.dh1 (m ((c : Thread nD τ).loc main_arg0)) (m ((c : Thread nD τ).loc main_arg1))
        (m ((c : Thread nD τ).loc main_arg2)) (m ((c : Thread nD τ).loc main_arg3)) (m ((c : Thread nD τ).loc main_arg4)))
      (m ((c : Thread nD τ).loc main_arg5)) (i 0) (i 1) :=
    (V7_main_v57 m ρ c).trans ((hf2 (V5 m ρ) c).trans (prodAll_of (K := 256) (C := 128)
      (Cert.Gcn.Alg.dh1 (m ((c : Thread nD τ).loc main_arg0)) (m ((c : Thread nD τ).loc main_arg1))
        (m ((c : Thread nD τ).loc main_arg2)) (m ((c : Thread nD τ).loc main_arg3)) (m ((c : Thread nD τ).loc main_arg4)))
      (m ((c : Thread nD τ).loc main_arg5)) e56 a5))
  -- the second aggregation call's result
  have e59 : V8 m ρ c main_v59 = fun i => Cert.Gcn.Alg.dz
      (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (i 0) (i 1) :=
    (V8_main_v59 m ρ c).trans ((hf3 (V7 m ρ) c).trans
      (aggAll_of (C := 128) (m ((c : Thread nD τ).loc main_arg1))
        (Cert.Gcn.Ref.lin (Cert.Gcn.Alg.dh1 (m ((c : Thread nD τ).loc main_arg0)) (m ((c : Thread nD τ).loc main_arg1))
          (m ((c : Thread nD τ).loc main_arg2)) (m ((c : Thread nD τ).loc main_arg3)) (m ((c : Thread nD τ).loc main_arg4)))
          (m ((c : Thread nD τ).loc main_arg5)))
        (m ((c : Thread nD τ).loc main_arg6))
        shapeCasts_S128_S1x128 ((V7_main_v53 m ρ c).trans (hA c)) e57 (V7_main_v58 m ρ c)))
  -- the decoder's result
  exact (W9_out m ρ c).trans ((hf4 (V8 m ρ) c).trans (decAll_of (C := 128)
    (Cert.Gcn.Alg.dz (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))) e59 e59))

end Cert.KernelIdeal.Hand

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibTransposedDot.lean ====
/-
  A matrix product with the right operand transposed, read at an entry, on the extended reals.

  For the dimension numbers of an `M×K` by `N×K` product (`DotDims.transposedRhs M K N`: contract the second axis of
  the left operand with the second axis of the right operand, no batch axis; the result is `M×N`) — the product
  `l · rᵀ` — the sum over the contraction index of the operands' products at output entry `(p, j)` is
  `∑ k, l (p, k) * r (j, k)`: the contraction index is its one coordinate `k`, the left operand is read at row `p`,
  column `k`, the right at row `j`, column `k`. From it: a vector-unit matrix product into the zero accumulator
  (`matmul_zero_apply`), one into any accumulator (`matmul_apply`) and the host's `dot_general`
  (`dotGeneral_apply`) at `(p, j)`. A printed program's own record of these dimension numbers is
  `DotDims.transposedRhs` of its literal sizes by `rfl` (the records differ only in the proof of well-formedness).
-/
import Idealize.ShloMosaic.Lib.ValueIdx
import Idealize.ShloMosaic.PureOps.Ideal.Laws

noncomputable section

open scoped BigOperators

namespace Cert.Lib.TransposedDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output `(p, j)` and contraction coordinate `k` is `(p, k)`. -/
theorem lhsIdx_eq (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output `(p, j)` and contraction coordinate `k` is `(j, k)`. -/
theorem rhsIdx_eq (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output `(p, j)` is the sum over the contracted coordinate. -/
theorem sum_eq (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_eq, rhsIdx_eq]

/-- A matrix product on the vector unit into the zero accumulator, at entry `(p, j)`. -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_eq l r p j

/-- A matrix product on the vector unit into any accumulator, at entry `(p, j)`: the accumulator there plus the sum. -/
theorem matmul_apply (prec : Option ContractPrecision) (l : FVec Ideal ⟨2, ![M, K]⟩ φ₁) (r : FVec Ideal ⟨2, ![N, K]⟩ φ₂)
    (acc : FVec Ideal ⟨2, ![M, N]⟩ .f32) (p : Fin M) (j : Fin N) :
    FloatOps.matmul (DotDims.transposedRhs M K N) prec l r acc (ix2 p j)
      = acc (ix2 p j) + ∑ k : Fin K, l (ix2 p k) * r (ix2 j k) := by
  rw [Ideal.matmul_apply]
  exact congrArg (acc (ix2 p j) + ·) (sum_eq l r p j)

/-- The host's `dot_general` at entry `(p, j)`, whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_eq l r p j

end Cert.Lib.TransposedDot

end
-- ==== Proof.KPay.lean ====
/-
  The five kernel bodies' stored values, read at one entry, on the extended reals.

  Each body stores ONE whole block; its value is a pure function of the blocks the body loaded. On the extended reals
  a change of float format is the identity and a matrix product into the zero accumulator is the plain sum over the
  contracted coordinate, so at entry (p, q):

    linear layers (bodies 0 and 2)   ∑ k, x (p, k) · w (k, q)
    aggregation with ReLU (body 1)   max ((∑ k, a (p, k) · h (k, q)) + b (0, q)) 0
    aggregation (body 3)             (∑ k, a (p, k) · h (k, q)) + b (0, q)
    decoder (body 4)                 logistic (∑ k, z (p, k) · z' (q, k))

  The bias is one row [1, n] spread over the rows of the block, so row p reads that row 0.
-/
import proofs.«166453_j25847113187564_2_alg».proof.Proof.Gen.KernelIdeal.Skeleton
import proofs.«166453_j25847113187564_2_alg».proof.Proof.LibPlainDot
import proofs.«166453_j25847113187564_2_alg».proof.Proof.LibTransposedDot
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal

/-- Body 0, a linear layer: the stored [1024, 256] block at (p, q) is row p of the input block times column q of the
    weight. -/
theorem k0_pay1_apply (v0 : Vec Ideal S1024x128 .f32) (v3 : Vec Ideal S128x256 .f32) (p : Fin 1024) (q : Fin 256) :
    Gen.k0_pay1 (F := Ideal) v0 v3 (ix2 p q) = ∑ k : Fin 128, v0 (ix2 p k) * v3 (ix2 k q) := by
  unfold Gen.k0_pay1
  rw [shapeCast_self]
  exact Cert.Lib.PlainDot.matmul_zero_apply (M := 1024) (K := 128) (N := 256) none _ _ p q

/-- Body 2, the second linear layer: the stored [1024, 128] block at (p, q) is row p of the input block times column q
    of the weight. -/
theorem k2_pay1_apply (v0 : Vec Ideal S1024x256 .f32) (v3 : Vec Ideal S256x128 .f32) (p : Fin 1024) (q : Fin 128) :
    Gen.k2_pay1 (F := Ideal) v0 v3 (ix2 p q) = ∑ k : Fin 256, v0 (ix2 p k) * v3 (ix2 k q) := by
  unfold Gen.k2_pay1
  rw [shapeCast_self]
  exact Cert.Lib.PlainDot.matmul_zero_apply (M := 1024) (K := 256) (N := 128) none _ _ p q

/-- Body 1, aggregation with ReLU: the stored [512, 256] block at (p, q) is row p of the adjacency block times column q
    of the features, plus the bias at column q, cut off below at 0. -/
theorem k1_pay1_apply (v0 : Vec Ideal S512x8192 .bf16) (v2 : Vec Ideal S8192x256 .bf16) (v5 : Vec Ideal S1x256 .f32)
    (p : Fin 512) (q : Fin 256) :
    Gen.k1_pay1 (F := Ideal) v0 v2 v5 (ix2 p q)
      = max ((∑ k : Fin 8192, v0 (ix2 p k) * v2 (ix2 k q)) + v5 (ix2 (0 : Fin 1) q)) 0 := by
  unfold Gen.k1_pay1
  rw [shapeCast_self, shapeCast_self, shapeCast_self]
  rw [maximumf_apply, addf_apply, broadcast_apply]
  rw [broadcastTo_1b_ab_apply (a := 512) (b := 256)]
  exact congrArg₂ max
    (congrArg (· + v5 (ix2 (0 : Fin 1) q)) (Cert.Lib.PlainDot.matmul_zero_apply (M := 512) (K := 8192) (N := 256) none v0 v2 p q))
    Ideal.ofBits_zero_f32

/-- Body 3, aggregation: the stored [512, 128] block at (p, q) is row p of the adjacency block times column q of the
    features, plus the bias at column q. -/
theorem k3_pay1_apply (v0 : Vec Ideal S512x8192 .bf16) (v2 : Vec Ideal S8192x128 .bf16) (v5 : Vec Ideal S1x128 .f32)
    (p : Fin 512) (q : Fin 128) :
    Gen.k3_pay1 (F := Ideal) v0 v2 v5 (ix2 p q)
      = (∑ k : Fin 8192, v0 (ix2 p k) * v2 (ix2 k q)) + v5 (ix2 (0 : Fin 1) q) := by
  unfold Gen.k3_pay1
  rw [shapeCast_self, shapeCast_self, shapeCast_self]
  rw [truncf_apply, addf_apply]
  rw [broadcastTo_1b_ab_apply (a := 512) (b := 128)]
  exact congrArg (· + v5 (ix2 (0 : Fin 1) q))
    (Cert.Lib.PlainDot.matmul_zero_apply (M := 512) (K := 8192) (N := 128) none v0 v2 p q)

/-- Body 4, the decoder: the stored [1024, 2048] block at (p, q) is the logistic function of row p of the first block
    times row q of the second. -/
theorem k4_pay1_apply (v0 : Vec Ideal S1024x128 .bf16) (v2 : Vec Ideal S2048x128 .bf16) (p : Fin 1024) (q : Fin 2048) :
    Gen.k4_pay1 (F := Ideal) v0 v2 (ix2 p q) = Ideal.logistic (∑ k : Fin 128, v0 (ix2 p k) * v2 (ix2 q k)) := by
  unfold Gen.k4_pay1
  rw [shapeCast_self, shapeCast_self]
  exact congrArg Ideal.logistic
    (Cert.Lib.TransposedDot.matmul_zero_apply (M := 1024) (K := 128) (N := 2048) none v0 v2 p q)

end Cert.KernelIdeal.Hand

end
-- ==== Proof.KFinal0.lean ====
/-
  Region 0, a linear layer, as one function of its two arrays.

  The region walks the 8192 rows of its input in 8 blocks of 1024 rows; at block t the body multiplies rows
  1024·t … 1024·t + 1023 of the input (all 128 columns) by the whole [128, 256] weight and writes the product back as rows
  1024·t … 1024·t + 1023 of the output. Row r of the output is therefore written once, by block r / 1024, and holds
  ∑ k, X (r, k) · W (k, q) at column q: the output array after the region is the matrix product of the two arrays as the
  region found them.
-/
import proofs.«166453_j25847113187564_2_alg».proof.Proof.KIBody0
import proofs.«166453_j25847113187564_2_alg».proof.Proof.KPay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The matrix product of an [8192, 128] array and a [128, 256] array, entry by entry. -/
def linear0 (X : S8192x128.Idx → EReal) (W : S128x256.Idx → EReal) : S8192x256.Idx → EReal :=
  fun i => ∑ k : Fin 128, X (ix2 (i 0 : Fin 8192) k) * W (ix2 k (i 1 : Fin 256))

theorem linear0_apply (X : S8192x128.Idx → EReal) (W : S128x256.Idx → EReal) (i : S8192x256.Idx) :
    linear0 X W i = ∑ k : Fin 128, X (ix2 (i 0 : Fin 8192) k) * W (ix2 k (i 1 : Fin 256)) := rfl

theorem zeroOffsets0 : (![0, 0] : Fin 2 → Nat) = fun _ => 0 := funext fun a => by fin_cases a <;> rfl

/-- The block indices over the grid: the input and the output move down one block of rows per point, the weight
    stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored block at local entry j is the product at the array entry i, once row j 0 of the input block is
    row i 0 of the input array and column j 1 of the weight block is column i 1 of the weight array. -/
theorem storedBlock0_apply (x0 : Vec Ideal S1024x128 .f32) (x1 : Vec Ideal S128x256 .f32)
    (X : S8192x128.Idx → EReal) (W : S128x256.Idx → EReal) (j : S1024x256.Idx) (i : S8192x256.Idx)
    (h0 : ∀ k : Fin 128, x0 (ix2 (j 0 : Fin 1024) k) = X (ix2 (i 0 : Fin 8192) k))
    (h1 : ∀ k : Fin 128, x1 (ix2 k (j 1 : Fin 256)) = W (ix2 k (i 1 : Fin 256))) :
    Gen.k0_pay1 (F := Ideal) x0 x1 j = linear0 X W i := by
  obtain ⟨p, q, rfl⟩ : ∃ (p : Fin 1024) (q : Fin 256), j = ix2 p q := ⟨j 0, j 1, eq_ix2 j⟩
  rw [k0_pay1_apply]
  unfold linear0
  exact Finset.sum_congr rfl fun k _ => congrArg₂ (· * ·) (h0 k) (h1 k)

/-- What point t writes back is block t of the product of the two arrays. -/
theorem flushed0_eq (c : Dev nD) (t : Fin cfg0.N) :
    (dat0 V c).flushed 2 t = ((cfg0.win 2).blk t).view.read (Elt Ideal)
      (linear0 (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets0]
  simp only [View.ld_unit_zero (S := S1024x128) zeroOffsets0, View.ld_unit_zero (S := S128x256) zeroOffsets0]
  obtain ⟨e0, e1, e2, e3, e4, e5⟩ := blockIndex0 t
  funext j
  show Gen.k0_pay1 (F := Ideal) (iblk0 V c 0 t) (iblk0 V c 1 t) j
    = linear0 (V c (Pipeline.arrRef spec0 0)) (V c (Pipeline.arrRef spec0 1)) (((cfg0.win 2).blk t).view.emb j)
  refine storedBlock0_apply (iblk0 V c 0 t) (iblk0 V c 1 t) (V c (Pipeline.arrRef spec0 0)) (V c (Pipeline.arrRef spec0 1)) j
    (((cfg0.win 2).blk t).view.emb j) (fun k => ?_) (fun k => ?_)
  · unfold iblk0
    rw [View.read_apply]
    refine congrArg (V c (Pipeline.arrRef spec0 0)) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  · unfold iblk0
    rw [View.read_apply]
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega

/-- An entry of the output array lies in point t's block iff each coordinate lies in the block's range on its axis. -/
theorem mem_block0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v54).slice (win0_2.rect t)).set ↔ _
  rw [View.set_slice_whole, Rect.mem_set_unit]
  exact Iff.rfl

/-- Every entry of the output array is written back: row r by the point r / 1024. -/
theorem covered0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  let t : Fin cfg0.N := ⟨(i 0).val / 1024, by rw [hN]; omega⟩
  obtain ⟨e0, e1, e2, e3, e4, e5⟩ := blockIndex0 t
  refine ⟨t, flush0_2 t, ?_⟩
  rw [mem_block0]
  intro a
  match a with
  | ⟨0, _⟩ =>
    show win0_2.index t (0 : Fin 2) * 1024 ≤ (i 0).val ∧ (i 0).val < win0_2.index t (0 : Fin 2) * 1024 + 1024
    rw [e4]; show (i 0).val / 1024 * 1024 ≤ (i 0).val ∧ (i 0).val < (i 0).val / 1024 * 1024 + 1024; omega
  | ⟨1, _⟩ =>
    show win0_2.index t (1 : Fin 2) * 256 ≤ (i 1).val ∧ (i 1).val < win0_2.index t (1 : Fin 2) * 256 + 256
    rw [e5]; omega

/-- The output array after the region is the product of the two arrays as the region found them. -/
theorem final0 (c : Dev nD) :
    (dat0 V c).arrAt 2 cfg0.N = linear0 (V c (Pipeline.arrRef spec0 0)) (V c (Pipeline.arrRef spec0 1)) :=
  (dat0 V c).arrAt_eq_of_cover 2 (linear0 (V c (Pipeline.arrRef spec0 0)) (V c (Pipeline.arrRef spec0 1)))
    (fun t _ => flushed0_eq V c t) covered0

end Cert.KernelIdeal.Hand

end
-- ==== Proof.KFinal1.lean ====
/-
  Region 1, an aggregation followed by the cut-off at zero, as one function of its three arrays.

  The region walks the 8192 rows of the adjacency matrix in 16 blocks of 512 rows; at block t the body multiplies rows
  512·t … 512·t + 511 of the adjacency (all 8192 columns) by the whole [8192, 256] feature array, adds the one bias row to
  every row, cuts off below at zero and writes the result back as rows 512·t … 512·t + 511 of the output. Row r of the output is
  therefore written once, by block r / 512, and holds max ((∑ k, A (r, k) · H (k, q)) + b (0, q)) 0 at column q.
-/
import proofs.«166453_j25847113187564_2_alg».proof.Proof.KIBody1
import proofs.«166453_j25847113187564_2_alg».proof.Proof.KPay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The adjacency times the features plus the bias row, cut off below at zero, entry by entry. -/
def aggRelu1 (A : S8192x8192.Idx → EReal) (H : S8192x256.Idx → EReal) (b : S1x256.Idx → EReal) : S8192x256.Idx → EReal :=
  fun i => max ((∑ k : Fin 8192, A (ix2 (i 0 : Fin 8192) k) * H (ix2 k (i 1 : Fin 256))) + b (ix2 (0 : Fin 1) (i 1 : Fin 256))) 0

theorem aggRelu1_apply (A : S8192x8192.Idx → EReal) (H : S8192x256.Idx → EReal) (b : S1x256.Idx → EReal) (i : S8192x256.Idx) :
    aggRelu1 A H b i = max ((∑ k : Fin 8192, A (ix2 (i 0 : Fin 8192) k) * H (ix2 k (i 1 : Fin 256))) + b (ix2 (0 : Fin 1) (i 1 : Fin 256))) 0 := rfl

theorem zeroOffsets1 : (![0, 0] : Fin 2 → Nat) = fun _ => 0 := funext fun a => by fin_cases a <;> rfl

/-- The block indices over the grid: the adjacency and the output move down one block of rows per point, the features
    and the bias stay. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block at any point is the whole bias array. -/
theorem biasBlock1 (c : Dev nD) (t : Fin cfg1.N) (y : S1x256.Idx) :
    iblk1 V c 2 t y = V c (Pipeline.arrRef spec1 2) y := by
  obtain ⟨e0, e1, e2, e3, e4, e5, e6, e7⟩ := blockIndex1 t
  unfold iblk1
  rw [View.read_apply]
  show V c (Pipeline.arrRef spec1 2) (((cfg1.win 2).blk t).view.emb y) = V c (Pipeline.arrRef spec1 2) y
  have h : ((cfg1.win 2).blk t).view.emb y = y := by
    funext a
    apply Fin.ext
    match a with
    | ⟨0, _⟩ => show win1_2.index t (0 : Fin 2) * 1 + 1 * (y 0).val = (y 0).val; omega
    | ⟨1, _⟩ => show win1_2.index t (1 : Fin 2) * 256 + 1 * (y 1).val = (y 1).val; omega
  rw [h]

/-- The body's stored block at local entry j is the layer's value at the array entry i, once row j 0 of the adjacency
    block is row i 0 of the adjacency, and column j 1 of the feature and bias blocks is column i 1 of those arrays (the
    bias has one row, so its row coordinate z is 0 on both sides). -/
theorem storedBlock1_apply (x0 : Vec Ideal S512x8192 .bf16) (x1 : Vec Ideal S8192x256 .bf16) (x2 : Vec Ideal S1x256 .f32)
    (A : S8192x8192.Idx → EReal) (H : S8192x256.Idx → EReal) (b : S1x256.Idx → EReal) (j : S512x256.Idx) (i : S8192x256.Idx)
    (h0 : ∀ k : Fin 8192, x0 (ix2 (j 0 : Fin 512) k) = A (ix2 (i 0 : Fin 8192) k))
    (h1 : ∀ k : Fin 8192, x1 (ix2 k (j 1 : Fin 256)) = H (ix2 k (i 1 : Fin 256)))
    (h2 : ∀ z : Fin 1, x2 (ix2 z (j 1 : Fin 256)) = b (ix2 z (i 1 : Fin 256))) :
    Gen.k1_pay1 (F := Ideal) x0 x1 x2 j = aggRelu1 A H b i := by
  obtain ⟨p, q, rfl⟩ : ∃ (p : Fin 512) (q : Fin 256), j = ix2 p q := ⟨j 0, j 1, eq_ix2 j⟩
  rw [k1_pay1_apply]
  unfold aggRelu1
  exact congrArg₂ max (congrArg₂ (· + ·) (Finset.sum_congr rfl fun k _ => congrArg₂ (· * ·) (h0 k) (h1 k)) (h2 0)) rfl

set_option maxHeartbeats 1000000 in
/-- What point t writes back is block t of the layer's value on the three arrays. -/
theorem flushed1_eq (c : Dev nD) (t : Fin cfg1.N) :
    (dat1 V c).flushed 3 t = ((cfg1.win 3).blk t).view.read (Elt Ideal)
      (aggRelu1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeroOffsets1]
  simp only [View.ld_unit_zero (S := S512x8192) zeroOffsets1, View.ld_unit_zero (S := S8192x256) zeroOffsets1,
    View.ld_unit_zero (S := S1x256) zeroOffsets1]
  obtain ⟨e0, e1, e2, e3, e4, e5, e6, e7⟩ := blockIndex1 t
  funext j
  show Gen.k1_pay1 (F := Ideal) (iblk1 V c 0 t) (iblk1 V c 1 t) (iblk1 V c 2 t) j
    = aggRelu1 (V c (Pipeline.arrRef spec1 0)) (V c (Pipeline.arrRef spec1 1)) (V c (Pipeline.arrRef spec1 2))
        (((cfg1.win 3).blk t).view.emb j)
  refine storedBlock1_apply (iblk1 V c 0 t) (iblk1 V c 1 t) (iblk1 V c 2 t) (V c (Pipeline.arrRef spec1 0))
    (V c (Pipeline.arrRef spec1 1)) (V c (Pipeline.arrRef spec1 2)) j
    (((cfg1.win 3).blk t).view.emb j) (fun k => ?_) (fun k => ?_) (fun z => ?_)
  · unfold iblk1
    rw [View.read_apply]
    refine congrArg (V c (Pipeline.arrRef spec1 0)) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 8192 + 1 * k.val = k.val; omega
  · unfold iblk1
    rw [View.read_apply]
    refine congrArg (V c (Pipeline.arrRef spec1 1)) (funext fun a => Fin.ext ?_)
    match a with
    | ⟨0, _⟩ => show win1_1.index t (0 : Fin 2) * 8192 + 1 * k.val = k.val; omega
    | ⟨1, _⟩ => show win1_1.index t (1 : Fin 2) * 256 + 1 * (j 1).val = win1_3.index t (1 : Fin 2) * 256 + 1 * (j 1).val; omega
  · refine (biasBlock1 V c t (ix2 z (j 1 : Fin 256))).trans ?_
    have hq : (j 1 : Fin 256) = ((((cfg1.win 3).blk t).view.emb j) 1 : Fin 256) := Fin.ext (by
      show (j 1).val = win1_3.index t (1 : Fin 2) * 256 + 1 * (j 1).val; omega)
    exact congrArg (fun q : Fin 256 => (V c (Pipeline.arrRef spec1 2) : S1x256.Idx → EReal) (ix2 z q)) hq

/-- An entry of the output array lies in point t's block iff each coordinate lies in the block's range on its axis. -/
theorem mem_block1 (t : Fin cfg1.N) (i : S8192x256.Idx) :
    i ∈ ((cfg1.win 3).blk t).view.set ↔ ∀ a : Fin 2, win1_3.index t a * S512x256.size a ≤ (i a).val
      ∧ (i a).val < win1_3.index t a * S512x256.size a + S512x256.size a := by
  show i ∈ ((View.whole main_v56).slice (win1_3.rect t)).set ↔ _
  rw [View.set_slice_whole, Rect.mem_set_unit]
  exact Iff.rfl

/-- Every entry of the output array is written back: row r by the point r / 512. -/
theorem covered1 (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 16 := N_1
  let t : Fin cfg1.N := ⟨(i 0).val / 512, by rw [hN]; omega⟩
  obtain ⟨e0, e1, e2, e3, e4, e5, e6, e7⟩ := blockIndex1 t
  refine ⟨t, flush1_3 t, ?_⟩
  rw [mem_block1]
  intro a
  match a with
  | ⟨0, _⟩ =>
    show win1_3.index t (0 : Fin 2) * 512 ≤ (i 0).val ∧ (i 0).val < win1_3.index t (0 : Fin 2) * 512 + 512
    rw [e6]; show (i 0).val / 512 * 512 ≤ (i 0).val ∧ (i 0).val < (i 0).val / 512 * 512 + 512; omega
  | ⟨1, _⟩ =>
    show win1_3.index t (1 : Fin 2) * 256 ≤ (i 1).val ∧ (i 1).val < win1_3.index t (1 : Fin 2) * 256 + 256
    rw [e7]; omega

/-- The output array after the region is the layer's value on the three arrays as the region found them. -/
theorem final1 (c : Dev nD) :
    (dat1 V c).arrAt 3 cfg1.N
      = aggRelu1 (V c (Pipeline.arrRef spec1 0)) (V c (Pipeline.arrRef spec1 1)) (V c (Pipeline.arrRef spec1 2)) :=
  (dat1 V c).arrAt_eq_of_cover 3
    (aggRelu1 (V c (Pipeline.arrRef spec1 0)) (V c (Pipeline.arrRef spec1 1)) (V c (Pipeline.arrRef spec1 2)))
    (fun t _ => flushed1_eq V c t) covered1

end Cert.KernelIdeal.Hand

end
-- ==== Proof.KFinal2.lean ====
import proofs.«166453_j25847113187564_2_alg».proof.Proof.KIBody2
import proofs.«166453_j25847113187564_2_alg».proof.Proof.KPay
import Idealize.ShloMosaic.Lib.Pipeline.Value

/-!
# Region 2, the second linear layer: the whole output array after the region

Each of the 8 grid points t writes back the [1024, 128] row block t of the [8192, 128] output; the block's entry
(p, q) is row p of row block t of the input times column q of the weight.  The blocks tile the output, so after the
region the output at (r, s) is row r of the input times column s of the weight.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable (V : (c : Dev nD) → (b : Ref sig .tc) → Buf (Elt Ideal) ((c : Thread nD τ).loc b))

/-- The arrays the region's input windows view, as the region finds them. -/
abbrev lin2In0 (c : Dev nD) : Vec Ideal S8192x256 .f32 := V c (Pipeline.arrRef spec2 0)
abbrev lin2In1 (c : Dev nD) : Vec Ideal S256x128 .f32 := V c (Pipeline.arrRef spec2 1)

theorem zero_offsets2_2 : (![0, 0] : Fin 2 → Nat) = fun _ => 0 := funext fun a => by fin_cases a <;> rfl

/-- The region's whole output as a function of the arrays its input windows view. -/
def lin2All (z0 : S8192x256.Idx → Elt Ideal .f32) (z1 : S256x128.Idx → Elt Ideal .f32) : S8192x128.Idx → Elt Ideal .bf16 :=
  fun i => (∑ k : Fin 256, z0 (ix2 (i 0) k) * z1 (ix2 k (i 1)))

/-- The stored block at an entry given by its two coordinates. -/
theorem lin2_block_entry (x0 : Vec Ideal S1024x256 .f32) (x1 : Vec Ideal S256x128 .f32) (j : S1024x128.Idx) :
    Gen.k2_pay1 (F := Ideal) x0 x1 j = (∑ k : Fin 256, x0 (ix2 (j 0) k) * x1 (ix2 k (j 1))) := by
  exact (congrArg (Gen.k2_pay1 (F := Ideal) x0 x1) (eq_ix2 j)).trans (k2_pay1_apply x0 x1 (j 0) (j 1))

/-- The block index maps over the 8 grid points: the first input window follows the output's row block and does
    not move along the contracted axis; every other input window stays at its one block; the output's column block
    is always the first. -/
theorem lin2_index_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every row block of the output is some grid point's. -/
theorem lin2_index_onto : ∀ (a : Fin 8), ∃ t : Fin cfg2.N, win2_2.index t = ![a.val, 0] :=
  (by decide +kernel : ∀ (a : Fin 8), ∃ t : Fin grid2.N, win2_2.index t = ![a.val, 0])

/-- What grid point `t` writes back is block `t` of the whole-array function. -/
theorem lin2_flushed (c : Dev nD) (t : Fin cfg2.N) :
    (dat2 V c).flushed 2 t
      = ((cfg2.win 2).blk t).view.read (Elt Ideal) (lin2All (lin2In0 V c) (lin2In1 V c)) := by
  show (cfg2.win 2).cut (grid2.coords t) ((dat2 V c).after 2 t) = _
  rw [after2_2]
  unfold out2_2
  rw [View.canon_unit_zero zero_offsets2_2]
  simp only [View.ld_unit_zero (S := S1024x256) zero_offsets2_2, View.ld_unit_zero (S := S256x128) zero_offsets2_2]
  obtain ⟨e0, e1, e2, e3, e4, e5⟩ := lin2_index_facts t
  funext j
  show Gen.k2_pay1 (F := Ideal) (iblk2 V c 0 t) (iblk2 V c 1 t) j
    = lin2All (lin2In0 V c) (lin2In1 V c) (((cfg2.win 2).blk t).view.emb j)
  refine (lin2_block_entry (iblk2 V c 0 t) (iblk2 V c 1 t) j).trans ?_
  unfold lin2All
  exact (Finset.sum_congr rfl fun k _ => by
    have h0 : ((cfg2.win 0).blk t).view.emb (ix2 (j 0) k) = ix2 ((((cfg2.win 2).blk t).view.emb j) 0) k := by
      funext a; apply Fin.ext
      match a with
      | ⟨0, _⟩ => show win2_0.index t (0 : Fin 2) * 1024 + 1 * (j 0).val = win2_2.index t (0 : Fin 2) * 1024 + 1 * (j 0).val; omega
      | ⟨1, _⟩ => show win2_0.index t (1 : Fin 2) * 256 + 1 * k.val = k.val; omega
    have h1 : ((cfg2.win 1).blk t).view.emb (ix2 k (j 1)) = ix2 k ((((cfg2.win 2).blk t).view.emb j) 1) := by
      funext a; apply Fin.ext
      match a with
      | ⟨0, _⟩ => show win2_1.index t (0 : Fin 2) * 256 + 1 * k.val = k.val; omega
      | ⟨1, _⟩ => show win2_1.index t (1 : Fin 2) * 128 + 1 * (j 1).val = win2_2.index t (1 : Fin 2) * 128 + 1 * (j 1).val; omega
    show lin2In0 V c (((cfg2.win 0).blk t).view.emb (ix2 (j 0) k)) * lin2In1 V c (((cfg2.win 1).blk t).view.emb (ix2 k (j 1)))
      = lin2In0 V c (ix2 ((((cfg2.win 2).blk t).view.emb j) 0) k) * lin2In1 V c (ix2 k ((((cfg2.win 2).blk t).view.emb j) 1))
    exact congrArg₂ (· * ·) (congrArg (lin2In0 V c) h0) (congrArg (lin2In1 V c) h1))

/-- An index of the output is in grid point `t`'s block iff each coordinate is in the block's range on its axis. -/
theorem lin2_mem_block (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v57).slice (win2_2.rect t)).set ↔ _
  rw [View.set_slice_whole, Rect.mem_set_unit]
  exact Iff.rfl

/-- The blocks tile the output: row r lies in the block of the grid point with row block r / 1024. -/
theorem lin2_cover (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  obtain ⟨t, ht⟩ := lin2_index_onto ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [lin2_mem_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- The output array after the region: the whole-array function of the input arrays as the region finds them. -/
theorem final2 (c : Dev nD) :
    (dat2 V c).arrAt 2 cfg2.N = lin2All (lin2In0 V c) (lin2In1 V c) :=
  (dat2 V c).arrAt_eq_of_cover 2 _ (fun t _ => lin2_flushed V c t) lin2_cover

/-- The same, entry by entry. -/
theorem final2_apply (c : Dev nD) (i : S8192x128.Idx) :
    (dat2 V c).arrAt 2 cfg2.N i
      = (∑ k : Fin 256, lin2In0 V c (ix2 (i 0) k) * lin2In1 V c (ix2 k (i 1))) := by
  rw [final2]; rfl

end Cert.KernelIdeal.Hand

end
-- ==== Proof.KFinal3.lean ====
import proofs.«166453_j25847113187564_2_alg».proof.Proof.KIBody3
import proofs.«166453_j25847113187564_2_alg».proof.Proof.KPay
import Idealize.ShloMosaic.Lib.Pipeline.Value

/-!
# Region 3, the second aggregation: the whole output array after the region

Each of the 16 grid points t writes back the [512, 128] row block t of the [8192, 128] output; the block's entry
(p, q) is row p of row block t of the adjacency times column q of the features, plus the bias at column q.  The
blocks tile the output, so after the region the output at (r, s) is row r of the adjacency times column s of the
features, plus the bias at column s.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable (V : (c : Dev nD) → (b : Ref sig .tc) → Buf (Elt Ideal) ((c : Thread nD τ).loc b))

/-- The arrays the region's input windows view, as the region finds them. -/
abbrev agg3In0 (c : Dev nD) : Vec Ideal S8192x8192 .bf16 := V c (Pipeline.arrRef spec3 0)
abbrev agg3In1 (c : Dev nD) : Vec Ideal S8192x128 .bf16 := V c (Pipeline.arrRef spec3 1)
abbrev agg3In2 (c : Dev nD) : Vec Ideal S1x128 .f32 := V c (Pipeline.arrRef spec3 2)

theorem zero_offsets2_3 : (![0, 0] : Fin 2 → Nat) = fun _ => 0 := funext fun a => by fin_cases a <;> rfl

/-- The region's whole output as a function of the arrays its input windows view. -/
def agg3All (z0 : S8192x8192.Idx → Elt Ideal .bf16) (z1 : S8192x128.Idx → Elt Ideal .bf16) (z2 : S1x128.Idx → Elt Ideal .f32) : S8192x128.Idx → Elt Ideal .bf16 :=
  fun i => (∑ k : Fin 8192, z0 (ix2 (i 0) k) * z1 (ix2 k (i 1))) + z2 (ix2 (0 : Fin 1) (i 1))

/-- The stored block at an entry given by its two coordinates. -/
theorem agg3_block_entry (x0 : Vec Ideal S512x8192 .bf16) (x1 : Vec Ideal S8192x128 .bf16) (x2 : Vec Ideal S1x128 .f32) (j : S512x128.Idx) :
    Gen.k3_pay1 (F := Ideal) x0 x1 x2 j = (∑ k : Fin 8192, x0 (ix2 (j 0) k) * x1 (ix2 k (j 1))) + x2 (ix2 (0 : Fin 1) (j 1)) := by
  exact (congrArg (Gen.k3_pay1 (F := Ideal) x0 x1 x2) (eq_ix2 j)).trans (k3_pay1_apply x0 x1 x2 (j 0) (j 1))

/-- The block index maps over the 16 grid points: the first input window follows the output's row block and does
    not move along the contracted axis; every other input window stays at its one block; the output's column block
    is always the first. -/
theorem agg3_index_facts : ∀ t : Fin cfg3.N,
    win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 15 :=
  (by decide +kernel : ∀ t : Fin grid3.N, _)

/-- Every row block of the output is some grid point's. -/
theorem agg3_index_onto : ∀ (a : Fin 16), ∃ t : Fin cfg3.N, win3_3.index t = ![a.val, 0] :=
  (by decide +kernel : ∀ (a : Fin 16), ∃ t : Fin grid3.N, win3_3.index t = ![a.val, 0])

/-- What grid point `t` writes back is block `t` of the whole-array function. -/
theorem agg3_flushed (c : Dev nD) (t : Fin cfg3.N) :
    (dat3 V c).flushed 3 t
      = ((cfg3.win 3).blk t).view.read (Elt Ideal) (agg3All (agg3In0 V c) (agg3In1 V c) (agg3In2 V c)) := by
  show (cfg3.win 3).cut (grid3.coords t) ((dat3 V c).after 3 t) = _
  rw [after3_3]
  unfold out3_3
  rw [View.canon_unit_zero zero_offsets2_3]
  simp only [View.ld_unit_zero (S := S512x8192) zero_offsets2_3, View.ld_unit_zero (S := S8192x128) zero_offsets2_3, View.ld_unit_zero (S := S1x128) zero_offsets2_3]
  obtain ⟨e0, e1, e2, e3, e4, e5, e6, e7⟩ := agg3_index_facts t
  funext j
  show Gen.k3_pay1 (F := Ideal) (iblk3 V c 0 t) (iblk3 V c 1 t) (iblk3 V c 2 t) j
    = agg3All (agg3In0 V c) (agg3In1 V c) (agg3In2 V c) (((cfg3.win 3).blk t).view.emb j)
  refine (agg3_block_entry (iblk3 V c 0 t) (iblk3 V c 1 t) (iblk3 V c 2 t) j).trans ?_
  unfold agg3All
  have h2 : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * ((0 : Fin 1) : Nat) = ((0 : Fin 1) : Nat); omega
    | ⟨1, _⟩ => show win3_2.index t (1 : Fin 2) * 128 + 1 * (j 1).val = win3_3.index t (1 : Fin 2) * 128 + 1 * (j 1).val; omega
  exact congrArg₂ (· + ·) (Finset.sum_congr rfl fun k _ => by
    have h0 : ((cfg3.win 0).blk t).view.emb (ix2 (j 0) k) = ix2 ((((cfg3.win 3).blk t).view.emb j) 0) k := by
      funext a; apply Fin.ext
      match a with
      | ⟨0, _⟩ => show win3_0.index t (0 : Fin 2) * 512 + 1 * (j 0).val = win3_3.index t (0 : Fin 2) * 512 + 1 * (j 0).val; omega
      | ⟨1, _⟩ => show win3_0.index t (1 : Fin 2) * 8192 + 1 * k.val = k.val; omega
    have h1 : ((cfg3.win 1).blk t).view.emb (ix2 k (j 1)) = ix2 k ((((cfg3.win 3).blk t).view.emb j) 1) := by
      funext a; apply Fin.ext
      match a with
      | ⟨0, _⟩ => show win3_1.index t (0 : Fin 2) * 8192 + 1 * k.val = k.val; omega
      | ⟨1, _⟩ => show win3_1.index t (1 : Fin 2) * 128 + 1 * (j 1).val = win3_3.index t (1 : Fin 2) * 128 + 1 * (j 1).val; omega
    show agg3In0 V c (((cfg3.win 0).blk t).view.emb (ix2 (j 0) k)) * agg3In1 V c (((cfg3.win 1).blk t).view.emb (ix2 k (j 1)))
      = agg3In0 V c (ix2 ((((cfg3.win 3).blk t).view.emb j) 0) k) * agg3In1 V c (ix2 k ((((cfg3.win 3).blk t).view.emb j) 1))
    exact congrArg₂ (· * ·) (congrArg (agg3In0 V c) h0) (congrArg (agg3In1 V c) h1))
    (show agg3In2 V c (((cfg3.win 2).blk t).view.emb (ix2 (0 : Fin 1) (j 1))) = agg3In2 V c (ix2 (0 : Fin 1) ((((cfg3.win 3).blk t).view.emb j) 1)) from congrArg (agg3In2 V c) h2)

/-- An index of the output is in grid point `t`'s block iff each coordinate is in the block's range on its axis. -/
theorem agg3_mem_block (t : Fin cfg3.N) (i : S8192x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v59).slice (win3_3.rect t)).set ↔ _
  rw [View.set_slice_whole, Rect.mem_set_unit]
  exact Iff.rfl

/-- The blocks tile the output: row r lies in the block of the grid point with row block r / 512. -/
theorem agg3_cover (i : S8192x128.Idx) :
    ∃ t : Fin cfg3.N, (cfg3.win 3).flush t = true ∧ i ∈ ((cfg3.win 3).blk t).view.set := by
  have hi0 : (i 0).val < 8192 := (i 0).isLt
  have hi1 : (i 1).val < 128 := (i 1).isLt
  obtain ⟨t, ht⟩ := agg3_index_onto ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [agg3_mem_block]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 128 ≤ (i 1).val ∧ (i 1).val < win3_3.index t (1 : Fin 2) * 128 + 128; omega

/-- The output array after the region: the whole-array function of the input arrays as the region finds them. -/
theorem final3 (c : Dev nD) :
    (dat3 V c).arrAt 3 cfg3.N = agg3All (agg3In0 V c) (agg3In1 V c) (agg3In2 V c) :=
  (dat3 V c).arrAt_eq_of_cover 3 _ (fun t _ => agg3_flushed V c t) agg3_cover

/-- The same, entry by entry. -/
theorem final3_apply (c : Dev nD) (i : S8192x128.Idx) :
    (dat3 V c).arrAt 3 cfg3.N i
      = (∑ k : Fin 8192, agg3In0 V c (ix2 (i 0) k) * agg3In1 V c (ix2 k (i 1))) + agg3In2 V c (ix2 (0 : Fin 1) (i 1)) := by
  rw [final3]; rfl

end Cert.KernelIdeal.Hand

end
-- ==== Proof.KFinal4.lean ====
import proofs.«166453_j25847113187564_2_alg».proof.Proof.KIBody4
import proofs.«166453_j25847113187564_2_alg».proof.Proof.KPay
import Idealize.ShloMosaic.Lib.Pipeline.Value

/-!
# Region 4, the decoder: the whole output array after the region

Every grid point (a, b) of the 8 × 4 grid writes back the [1024, 2048] block (a, b) of the [8192, 8192] output; the
block's entry (p, q) is the logistic function of row p of block a of the first window's array times row q of block b
of the second window's array.  The blocks tile the output, so after the region the output at (r, s) is the logistic
function of row r of the first array times row s of the second.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable (V : (c : Dev nD) → (b : Ref sig .tc) → Buf (Elt Ideal) ((c : Thread nD τ).loc b))
variable (q4 : Fin cfg4.W → PosShare TreeShare)

/-- The arrays the decoder's two input windows view, as the region finds them (both windows view one array). -/
abbrev decodeIn0 (c : Dev nD) : Vec Ideal S8192x128 .bf16 := V c (Pipeline.arrRef spec4 0)
abbrev decodeIn1 (c : Dev nD) : Vec Ideal S8192x128 .bf16 := V c (Pipeline.arrRef spec4 1)

theorem zero_offsets2 : (![0, 0] : Fin 2 → Nat) = fun _ => 0 := funext fun a => by fin_cases a <;> rfl

/-- The decoder's whole output as a function of the two arrays its input windows view. -/
def decodeAll (z z' : S8192x128.Idx → Elt Ideal .bf16) : S8192x8192.Idx → Elt Ideal .f32 :=
  fun i => Ideal.logistic (∑ k : Fin 128, z (ix2 (i 0) k) * z' (ix2 (i 1) k))

/-- The stored block at an entry given by its two coordinates. -/
theorem decode_block_entry (x0 : Vec Ideal S1024x128 .bf16) (x1 : Vec Ideal S2048x128 .bf16) (j : S1024x2048.Idx) :
    Gen.k4_pay1 (F := Ideal) x0 x1 j = Ideal.logistic (∑ k : Fin 128, x0 (ix2 (j 0) k) * x1 (ix2 (j 1) k)) := by
  exact (congrArg (Gen.k4_pay1 (F := Ideal) x0 x1) (eq_ix2 j)).trans (k4_pay1_apply x0 x1 (j 0) (j 1))

/-- The block index maps over the 32 grid points: the first input window follows the output's row block, the second
    input window follows the output's column block, neither moves along the contracted axis. -/
theorem decode_index_facts : ∀ t : Fin cfg4.N,
    win4_0.index t (0 : Fin 2) = win4_2.index t (0 : Fin 2) ∧ win4_0.index t (1 : Fin 2) = 0
    ∧ win4_1.index t (0 : Fin 2) = win4_2.index t (1 : Fin 2) ∧ win4_1.index t (1 : Fin 2) = 0
    ∧ win4_2.index t (0 : Fin 2) ≤ 7 ∧ win4_2.index t (1 : Fin 2) ≤ 3 :=
  (by decide +kernel : ∀ t : Fin grid4.N, _)

/-- Every block of the output is some grid point's. -/
theorem decode_index_onto : ∀ (a : Fin 8) (b : Fin 4), ∃ t : Fin cfg4.N, win4_2.index t = ![a.val, b.val] :=
  (by decide +kernel : ∀ (a : Fin 8) (b : Fin 4), ∃ t : Fin grid4.N, win4_2.index t = ![a.val, b.val])

/-- What grid point `t` writes back is block `t` of the whole-array function. -/
theorem decode_flushed (c : Dev nD) (t : Fin cfg4.N) :
    (dat4 V q4 c).flushed 2 t
      = ((cfg4.win 2).blk t).view.read (Elt Ideal) (decodeAll (decodeIn0 V c) (decodeIn1 V c)) := by
  show (cfg4.win 2).cut (grid4.coords t) ((dat4 V q4 c).after 2 t) = _
  rw [after4_2]
  unfold out4_2
  rw [View.canon_unit_zero zero_offsets2]
  simp only [View.ld_unit_zero (S := S1024x128) zero_offsets2, View.ld_unit_zero (S := S2048x128) zero_offsets2]
  obtain ⟨e0, e1, e2, e3, e4, e5⟩ := decode_index_facts t
  funext j
  show Gen.k4_pay1 (F := Ideal) (iblk4 V c 0 t) (iblk4 V c 1 t) j
    = decodeAll (decodeIn0 V c) (decodeIn1 V c) (((cfg4.win 2).blk t).view.emb j)
  refine (decode_block_entry (iblk4 V c 0 t) (iblk4 V c 1 t) j).trans ?_
  unfold decodeAll
  refine congrArg Ideal.logistic (Finset.sum_congr rfl fun k _ => ?_)
  show decodeIn0 V c (((cfg4.win 0).blk t).view.emb (ix2 (j 0) k))
      * decodeIn1 V c (((cfg4.win 1).blk t).view.emb (ix2 (j 1) k))
    = decodeIn0 V c (ix2 ((((cfg4.win 2).blk t).view.emb j) 0) k)
      * decodeIn1 V c (ix2 ((((cfg4.win 2).blk t).view.emb j) 1) k)
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 1024 + 1 * (j 0).val = win4_2.index t (0 : Fin 2) * 1024 + 1 * (j 0).val; omega
    | ⟨1, _⟩ => show win4_0.index t (1 : Fin 2) * 128 + 1 * k.val = k.val; omega
  have h1 : ((cfg4.win 1).blk t).view.emb (ix2 (j 1) k) = ix2 ((((cfg4.win 2).blk t).view.emb j) 1) k := by
    funext a; apply Fin.ext
    match a with
    | ⟨0, _⟩ => show win4_1.index t (0 : Fin 2) * 2048 + 1 * (j 1).val = win4_2.index t (1 : Fin 2) * 2048 + 1 * (j 1).val; omega
    | ⟨1, _⟩ => show win4_1.index t (1 : Fin 2) * 128 + 1 * k.val = k.val; omega
  exact congrArg₂ (· * ·) (congrArg (decodeIn0 V c) h0) (congrArg (decodeIn1 V c) h1)

/-- An index of the output is in grid point `t`'s block iff each coordinate is in the block's range on its axis. -/
theorem decode_mem_block (t : Fin cfg4.N) (i : S8192x8192.Idx) :
    i ∈ ((cfg4.win 2).blk t).view.set ↔ ∀ a : Fin 2, win4_2.index t a * S1024x2048.size a ≤ (i a).val ∧ (i a).val < win4_2.index t a * S1024x2048.size a + S1024x2048.size a := by
  show i ∈ ((View.whole main_v60).slice (win4_2.rect t)).set ↔ _
  rw [View.set_slice_whole, Rect.mem_set_unit]
  exact Iff.rfl

/-- The blocks tile the output: entry (r, s) lies in the block of the grid point with block index (r / 1024, s / 2048). -/
theorem decode_cover (i : S8192x8192.Idx) :
    ∃ t : Fin cfg4.N, (cfg4.win 2).flush t = true ∧ i ∈ ((cfg4.win 2).blk t).view.set := by
  have hi0 : (i 0).val < 8192 := (i 0).isLt
  have hi1 : (i 1).val < 8192 := (i 1).isLt
  obtain ⟨t, ht⟩ := decode_index_onto ⟨(i 0).val / 1024, by omega⟩ ⟨(i 1).val / 2048, by omega⟩
  have q0 : win4_2.index t (0 : Fin 2) = (i 0).val / 1024 := congrFun ht 0
  have q1 : win4_2.index t (1 : Fin 2) = (i 1).val / 2048 := congrFun ht 1
  refine ⟨t, flush4_2 t, ?_⟩
  rw [decode_mem_block]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 2048 ≤ (i 1).val ∧ (i 1).val < win4_2.index t (1 : Fin 2) * 2048 + 2048; omega

/-- The output array after the region: the whole-array function of the two input arrays as the region finds them. -/
theorem final4 (c : Dev nD) :
    (dat4 V q4 c).arrAt 2 cfg4.N = decodeAll (decodeIn0 V c) (decodeIn1 V c) :=
  (dat4 V q4 c).arrAt_eq_of_cover 2 _ (fun t _ => decode_flushed V q4 c t) decode_cover

/-- The same, entry by entry. -/
theorem final4_apply (c : Dev nD) (i : S8192x8192.Idx) :
    (dat4 V q4 c).arrAt 2 cfg4.N i
      = Ideal.logistic (∑ k : Fin 128, decodeIn0 V c (ix2 (i 0) k)
          * decodeIn1 V c (ix2 (i 1) k)) := by
  rw [final4]; rfl

end Cert.KernelIdeal.Hand

end
-- ==== Proof.KIValueFin.lean ====
/-
  The value of the idealized kernel's result array, with the five calls' closed forms put in.

  Each call's result array is the whole-array function proved for it (a product; an aggregation with the bias row, cut
  off below at zero after the first layer; the decoder); what remains to be supplied is what the host operations before
  the first call leave in the feature array and in the adjacency array.
-/
import proofs.«166453_j25847113187564_2_alg».proof.Proof.KIValue
import proofs.«166453_j25847113187564_2_alg».proof.Proof.KFinal0
import proofs.«166453_j25847113187564_2_alg».proof.Proof.KFinal1
import proofs.«166453_j25847113187564_2_alg».proof.Proof.KFinal2
import proofs.«166453_j25847113187564_2_alg».proof.Proof.KFinal3
import proofs.«166453_j25847113187564_2_alg».proof.Proof.KFinal4

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

set_option maxHeartbeats 1000000 in
/-- THE KERNEL'S VALUE from the two host reads alone. -/
theorem kernel_value_of_reads
    (hA : ∀ c : Dev nD, V2 m ρ c main_v53
      = fun i => Cert.Gcn.Ker.adj (m ((c : Thread nD τ).loc main_arg1)) (i 0) (i 1))
    (hH0 : ∀ c : Dev nD, V2 m ρ c main_v6
      = fun i => Cert.Gcn.Ref.h0 (m ((c : Thread nD τ).loc main_arg0)) (m ((c : Thread nD τ).loc main_arg2)) (i 0) (i 1))
    (c : Dev nD) :
    W9 m ρ c (Proc.devRef .tc main_v60)
      = fun i => Cert.Gcn.Alg.dout (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (i 0) (i 1) :=
  kernel_value_of m ρ (fun V c => final0 V c) (fun V c => final1 V c) (fun V c => final2 V c)
    (fun V c => final3 V c) (fun V c => final4 V q4 c) hA hH0 c

end Cert.KernelIdeal.Hand

end
-- ==== Proof.LibPointScatter.lean ====
/-
  An accumulating scatter of SCALARS at two-dimensional POINT indices, read at an entry, on the extended reals.

  The operand is a matrix [N, M], the scatter indices are a matrix [R, 2] whose row u is the pair (row, column) that
  update u names, and the updates are a vector [R]. Both operand axes are inserted window axes, the
  scatter-dims-to-operand-dims map is [0, 1] and the index vector lies along axis 1 of the indices: an update is ONE
  scalar with no window, its start on operand axis 0 is idx[u, 0] and on axis 1 is idx[u, 1], both read as signed
  integers and neither clamped. So update u lands on operand entry (n, k) exactly when idx[u, 0] reads n and idx[u, 1]
  reads k (`pointScatter_resultIdx_iff`), an update one of whose coordinates is outside the operand lands nowhere, and
  the scatter with an add body at (n, k) is the operand there plus the sum over ALL updates u of upd[u] where both
  coordinates match and 0 where they do not (`pointScatterAdd_apply`).
-/
import Idealize.ShloMosaic.Lib.ValueIdx
import Idealize.ShloMosaic.PureOps.Ideal

noncomputable section

open scoped BigOperators

namespace Cert.Lib.PointScatter

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of adding scalar updates [R] onto the entries of an [N, M] operand that the rows of an index
    matrix [R, 2] name. -/
abbrev pointScatterDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section
variable {N M R w : Nat} (wf : ScatterDims.WF ⟨2, ![N, M]⟩ ⟨2, ![R, 2]⟩ ⟨1, ![R]⟩ [] [0, 1] [0, 1] 1)

/-- The start of update u on the operand's row axis is idx[u, 0] read signed. -/
theorem pointScatter_start0 (idx : IVec ⟨2, ![R, 2]⟩ w) (j : (⟨1, ![R]⟩ : Shape).Idx) :
    (pointScatterDims N M R wf).start j idx 0 = (idx (ix2 (j 0) (0 : Fin 2))).toInt := by
  unfold ScatterDims.start
  rw [dif_pos (show (0 : Fin 2) ∈ (pointScatterDims N M R wf).scatterDimsToOperandDims from List.mem_cons_self)]
  have hsi : (pointScatterDims N M R wf).siIdx j ⟨List.idxOf (0 : Fin 2) (pointScatterDims N M R wf).scatterDimsToOperandDims,
      List.idxOf_lt_length_iff.2 List.mem_cons_self⟩ = ix2 (j 0) (0 : Fin 2) := by
    funext b; refine Fin.ext ?_
    match b with
    | ⟨0, _⟩ => rfl
    | ⟨1, _⟩ => rfl
  exact congrArg (fun q => (idx q).toInt) hsi

/-- The start of update u on the operand's column axis is idx[u, 1] read signed. -/
theorem pointScatter_start1 (idx : IVec ⟨2, ![R, 2]⟩ w) (j : (⟨1, ![R]⟩ : Shape).Idx) :
    (pointScatterDims N M R wf).start j idx 1 = (idx (ix2 (j 0) (1 : Fin 2))).toInt := by
  have hmem : (1 : Fin 2) ∈ (pointScatterDims N M R wf).scatterDimsToOperandDims :=
    List.mem_cons_of_mem _ List.mem_cons_self
  unfold ScatterDims.start
  rw [dif_pos hmem]
  have hsi : (pointScatterDims N M R wf).siIdx j ⟨List.idxOf (1 : Fin 2) (pointScatterDims N M R wf).scatterDimsToOperandDims,
      List.idxOf_lt_length_iff.2 hmem⟩ = ix2 (j 0) (1 : Fin 2) := by
    funext b; refine Fin.ext ?_
    match b with
    | ⟨0, _⟩ => rfl
    | ⟨1, _⟩ => rfl
  exact congrArg (fun q => (idx q).toInt) hsi

/-- Both operand axes are inserted: an update has no window coordinate on either. -/
theorem pointScatter_window (j : (⟨1, ![R]⟩ : Shape).Idx) (a : Fin 2) : (pointScatterDims N M R wf).window j a = 0 := by
  unfold ScatterDims.window
  rw [dif_neg (show ¬ a ∈ (pointScatterDims N M R wf).sKept by
    match a with
    | ⟨0, _⟩ => simp [ScatterDims.sKept, Shape.kept]
    | ⟨1, _⟩ => simp [ScatterDims.sKept, Shape.kept])]

/-- WHERE A POINT SCATTER'S UPDATE LANDS: update u lands on operand entry (n, k) exactly when idx[u, 0], read signed, is
    n and idx[u, 1], read signed, is k. -/
theorem pointScatter_resultIdx_iff (idx : IVec ⟨2, ![R, 2]⟩ w) (u : Fin R) (n : Fin N) (k : Fin M) :
    (pointScatterDims N M R wf).resultIdx? (ix1 u) idx = some (ix2 n k)
      ↔ (idx (ix2 u (0 : Fin 2))).toInt = (n.val : Int) ∧ (idx (ix2 u (1 : Fin 2))).toInt = (k.val : Int) := by
  have e0 : (pointScatterDims N M R wf).start (ix1 u) idx 0 + (((pointScatterDims N M R wf).window (ix1 u) 0 : Nat) : Int)
      = (idx (ix2 u (0 : Fin 2))).toInt := by
    rw [pointScatter_start0, pointScatter_window, Nat.cast_zero, add_zero]; rfl
  have e1 : (pointScatterDims N M R wf).start (ix1 u) idx 1 + (((pointScatterDims N M R wf).window (ix1 u) 1 : Nat) : Int)
      = (idx (ix2 u (1 : Fin 2))).toInt := by
    rw [pointScatter_start1, pointScatter_window, Nat.cast_zero, add_zero]; rfl
  have hn : n.val < N := n.isLt
  have hk : k.val < M := k.isLt
  unfold ScatterDims.resultIdx?
  constructor
  · intro h
    split at h
    · rename_i hc
      have hi := Option.some.inj h
      have c0 : ((pointScatterDims N M R wf).start (ix1 u) idx 0
          + (((pointScatterDims N M R wf).window (ix1 u) 0 : Nat) : Int)).toNat = n.val := congrArg Fin.val (congrFun hi 0)
      have c1 : ((pointScatterDims N M R wf).start (ix1 u) idx 1
          + (((pointScatterDims N M R wf).window (ix1 u) 1 : Nat) : Int)).toNat = k.val := congrArg Fin.val (congrFun hi 1)
      have b0 := (hc 0).1
      have b1 := (hc 1).1
      rw [e0] at c0 b0
      rw [e1] at c1 b1
      constructor <;> omega
    · exact absurd h (by simp)
  · rintro ⟨h0, h1⟩
    have hc : ∀ a, 0 ≤ (pointScatterDims N M R wf).start (ix1 u) idx a + (((pointScatterDims N M R wf).window (ix1 u) a : Nat) : Int) ∧
        (pointScatterDims N M R wf).start (ix1 u) idx a + (((pointScatterDims N M R wf).window (ix1 u) a : Nat) : Int)
          < (((⟨2, ![N, M]⟩ : Shape).size a : Nat) : Int) := by
      intro a
      match a with
      | ⟨0, _⟩ =>
        show 0 ≤ (pointScatterDims N M R wf).start (ix1 u) idx 0 + (((pointScatterDims N M R wf).window (ix1 u) 0 : Nat) : Int) ∧
          (pointScatterDims N M R wf).start (ix1 u) idx 0 + (((pointScatterDims N M R wf).window (ix1 u) 0 : Nat) : Int) < (N : Int)
        rw [e0]; omega
      | ⟨1, _⟩ =>
        show 0 ≤ (pointScatterDims N M R wf).start (ix1 u) idx 1 + (((pointScatterDims N M R wf).window (ix1 u) 1 : Nat) : Int) ∧
          (pointScatterDims N M R wf).start (ix1 u) idx 1 + (((pointScatterDims N M R wf).window (ix1 u) 1 : Nat) : Int) < (M : Int)
        rw [e1]; omega
    rw [dif_pos hc]
    congr 1
    funext a
    refine Fin.ext ?_
    match a with
    | ⟨0, _⟩ =>
      show ((pointScatterDims N M R wf).start (ix1 u) idx 0 + (((pointScatterDims N M R wf).window (ix1 u) 0 : Nat) : Int)).toNat = n.val
      rw [e0]; omega
    | ⟨1, _⟩ =>
      show ((pointScatterDims N M R wf).start (ix1 u) idx 1 + (((pointScatterDims N M R wf).window (ix1 u) 1 : Nat) : Int)).toNat = k.val
      rw [e1]; omega

/-- THE ACCUMULATING POINT SCATTER READ AT (n, k): the operand there plus, over ALL updates u, upd[u] where idx[u, 0] reads
    n and idx[u, 1] reads k, and 0 where they do not (an update naming a point outside the operand is dropped). -/
theorem pointScatterAdd_apply {φ : FTy} (x : FVec Ideal ⟨2, ![N, M]⟩ φ) (idx : IVec ⟨2, ![R, 2]⟩ w)
    (upd : FVec Ideal ⟨1, ![R]⟩ φ) (n : Fin N) (k : Fin M) :
    Host.scatterAdd (pointScatterDims N M R wf) x idx upd (ix2 n k)
      = x (ix2 n k) + ∑ u : Fin R,
          if (idx (ix2 u (0 : Fin 2))).toInt = (n.val : Int) ∧ (idx (ix2 u (1 : Fin 2))).toInt = (k.val : Int)
            then upd (ix1 u) else 0 := by
  show Ideal.hostScatterAdd (pointScatterDims N M R wf) x idx upd (ix2 n k) = _
  unfold Ideal.hostScatterAdd
  congr 1
  rw [Finset.sum_filter, sum_idx1]
  refine Finset.sum_congr rfl fun u _ => ?_
  exact if_congr (pointScatter_resultIdx_iff wf idx u n k) rfl rfl

end

end Cert.Lib.PointScatter

end
-- ==== Proof.LibConcatRead.lean ====
/-
  Two-piece concatenations read at coordinates, and a sum over a range split where two pieces meet.

  * two vectors [a] and [b] laid end to end as [c] (c = a + b): position e < a reads the first at e, position a + i reads the
    second at i;
  * two columns [R, 1] laid side by side as [R, 2]: entry (u, 0) reads the first column at (u, 0), entry (u, 1) the second
    at (u, 0);
  * a sum over Fin c with a + b = c is the sum over the first a positions plus the sum over the last b.
-/
import Idealize.ShloMosaic.Lib.ValueIdx
import Idealize.ShloMosaic.Lib.Pipeline.Value

noncomputable section

open scoped BigOperators

namespace Cert.Lib.ConcatRead

open Idealize.ShloMosaic Idealize.ShloMosaic.ValueIdx

variable {α : Type}

/-- Two vectors end to end, at a position inside the first: the first vector there. -/
theorem concatVec_left {a b c : Nat} (h : Shape.Concatenates [(⟨1, ![a]⟩ : Shape), ⟨1, ![b]⟩] ⟨1, ![c]⟩ 0)
    (x₁ : (⟨1, ![a]⟩ : Shape).Idx → α) (x₂ : (⟨1, ![b]⟩ : Shape).Idx → α) (e : Fin a) (he : e.val < c) :
    concatenate ⟨1, ![c]⟩ 0 [⟨⟨1, ![a]⟩, x₁⟩, ⟨⟨1, ![b]⟩, x₂⟩] h (ix1 ⟨e.val, he⟩) = x₁ (ix1 e) :=
  concatenate_pair_apply_left 0 x₁ x₂ h (ix1 ⟨e.val, he⟩) rfl (ix1 e) (fun q => by
    match q with
    | ⟨0, _⟩ => rfl)

/-- Two vectors end to end, at a position a + i past the first: the second vector at i. -/
theorem concatVec_right {a b c : Nat} (h : Shape.Concatenates [(⟨1, ![a]⟩ : Shape), ⟨1, ![b]⟩] ⟨1, ![c]⟩ 0)
    (x₁ : (⟨1, ![a]⟩ : Shape).Idx → α) (x₂ : (⟨1, ![b]⟩ : Shape).Idx → α) (i : Fin b) (hi : a + i.val < c) :
    concatenate ⟨1, ![c]⟩ 0 [⟨⟨1, ![a]⟩, x₁⟩, ⟨⟨1, ![b]⟩, x₂⟩] h (ix1 ⟨a + i.val, hi⟩) = x₂ (ix1 i) :=
  concatenate_pair_apply_right 0 x₁ x₂ h (ix1 ⟨a + i.val, hi⟩) rfl rfl (ix1 i)
    (fun q hq => by
      match q, hq with
      | ⟨0, _⟩, hq => exact absurd rfl hq)
    (by show i.val + a = a + i.val; omega)

/-- Two columns side by side, at (u, 0): the first column at (u, 0). -/
theorem concatCols_left {R : Nat} (h : Shape.Concatenates [(⟨2, ![R, 1]⟩ : Shape), ⟨2, ![R, 1]⟩] ⟨2, ![R, 2]⟩ 1)
    (x₁ x₂ : (⟨2, ![R, 1]⟩ : Shape).Idx → α) (u : Fin R) :
    concatenate ⟨2, ![R, 2]⟩ 1 [⟨⟨2, ![R, 1]⟩, x₁⟩, ⟨⟨2, ![R, 1]⟩, x₂⟩] h (ix2 u (0 : Fin 2)) = x₁ (ix2 u (0 : Fin 1)) :=
  concatenate_pair_apply_left 1 x₁ x₂ h (ix2 u (0 : Fin 2)) rfl (ix2 u (0 : Fin 1)) (fun q => by
    match q with
    | ⟨0, _⟩ => rfl
    | ⟨1, _⟩ => rfl)

/-- Two columns side by side, at (u, 1): the second column at (u, 0). -/
theorem concatCols_right {R : Nat} (h : Shape.Concatenates [(⟨2, ![R, 1]⟩ : Shape), ⟨2, ![R, 1]⟩] ⟨2, ![R, 2]⟩ 1)
    (x₁ x₂ : (⟨2, ![R, 1]⟩ : Shape).Idx → α) (u : Fin R) :
    concatenate ⟨2, ![R, 2]⟩ 1 [⟨⟨2, ![R, 1]⟩, x₁⟩, ⟨⟨2, ![R, 1]⟩, x₂⟩] h (ix2 u (1 : Fin 2)) = x₂ (ix2 u (0 : Fin 1)) :=
  concatenate_pair_apply_right 1 x₁ x₂ h (ix2 u (1 : Fin 2)) rfl rfl (ix2 u (0 : Fin 1))
    (fun q hq => by
      match q, hq with
      | ⟨0, _⟩, _ => rfl
      | ⟨1, _⟩, hq => exact absurd rfl hq)
    (by show (0 : Nat) + 1 = 1; rfl)

/-- A sum over c = a + b positions is the sum over the first a plus the sum over the last b. -/
theorem sum_fin_split {M : Type*} [AddCommMonoid M] {a b c : Nat} (h : a + b = c) (f : Fin c → M) :
    ∑ u : Fin c, f u
      = ∑ e : Fin a, f ⟨e.val, by have := e.isLt; omega⟩ + ∑ i : Fin b, f ⟨a + i.val, by have := i.isLt; omega⟩ := by
  subst h
  rw [Fin.sum_univ_add]
  rfl

end Cert.Lib.ConcatRead

end
-- ==== Proof.LibTensorRead.lean ====
/-
  The host-side tensor operations of a Chebyshev graph convolution, read at an entry on the extended reals.

  * broadcasts of a scalar, of an [E, 1] column to [E, C], of a [C] vector to a row [1, C] and of that row to [N, C];
  * the weighted aggregation: rows of `y : [N, C]` taken at the edges' (wrapped, clamped) receiver indices, multiplied
    by the edge's weight, and added onto a zero [N, C] array at the edges' sender indices: at entry (i, k) it is
    `0 + ∑ over edges e, (wt e * y (src e, k) if the sender of e is i, else 0)`;
  * the degree: the edge weights added onto a zero [N] vector at the sender indices: `0 + ∑ e, (wt e if sender e = i)`.
-/
import Idealize.ShloMosaic.Lib.ValueIdx
import Idealize.ShloMosaic.Lib.Pipeline.Value
import Idealize.ShloMosaic.PureOps.Ideal.Laws
import proofs.«166453_j25847113187564_2_alg».proof.Proof.LibEdgeAggregate
import proofs.«166453_j25847113187564_2_alg».proof.Proof.LibEdgeIndex

noncomputable section

open scoped BigOperators

namespace Cert.Cheb.Read

open Idealize.ShloMosaic Idealize.ShloMosaic.ValueIdx Cert.Lib.Rows Cert.Lib.EdgeAggregate

variable {N E C : Nat}

/-- A scalar broadcast to any shape reads the scalar everywhere. -/
theorem scalarBcast_apply {α : Type} {t : Shape} (h : (⟨0, ![]⟩ : Shape).BroadcastsInDim t ![]) (s : (⟨0, ![]⟩ : Shape).Idx → α)
    (j : t.Idx) : broadcastInDim t ![] h s j = s ix0 :=
  broadcastInDim_apply _ h s j ix0 fun a => a.elim0

/-- An [E, 1] column broadcast to [E, C] reads, at (e, k), the column at (e, 0). -/
theorem colBcast_apply {α : Type} (h : (⟨2, ![E, 1]⟩ : Shape).BroadcastsInDim ⟨2, ![E, C]⟩ ![0, 1])
    (v : (⟨2, ![E, 1]⟩ : Shape).Idx → α) (e : Fin E) (k : Fin C) :
    broadcastInDim ⟨2, ![E, C]⟩ ![0, 1] h v (ix2 e k) = v (ix2 e (0 : Fin 1)) := by
  refine broadcastInDim_apply _ h v _ (ix2 e (0 : Fin 1)) fun a => ?_
  match a with
  | ⟨0, _⟩ =>
    show e.val = if E = 1 then 0 else e.val
    split
    · have := e.isLt; omega
    · rfl
  | ⟨1, _⟩ =>
    show (0 : ℕ) = if (1 : ℕ) = 1 then 0 else k.val
    rw [if_pos rfl]

/-- A [C] vector laid as the row [1, C] reads, at (z, k), the vector at k. -/
theorem vecRow_apply {α : Type} (h : (⟨1, ![C]⟩ : Shape).BroadcastsInDim ⟨2, ![1, C]⟩ ![1])
    (v : (⟨1, ![C]⟩ : Shape).Idx → α) (z : Fin 1) (k : Fin C) :
    broadcastInDim ⟨2, ![1, C]⟩ ![1] h v (ix2 z k) = v (ix1 k) := by
  refine broadcastInDim_apply _ h v _ (ix1 k) fun a => ?_
  match a with
  | ⟨0, _⟩ =>
    show k.val = if C = 1 then 0 else k.val
    split
    · have := k.isLt; omega
    · rfl

/-- A [1, C] row broadcast to [N, C] reads, at (i, k), the row at (0, k). -/
theorem rowBcast_apply {α : Type} (h : (⟨2, ![1, C]⟩ : Shape).BroadcastsInDim ⟨2, ![N, C]⟩ ![0, 1])
    (v : (⟨2, ![1, C]⟩ : Shape).Idx → α) (i : Fin N) (k : Fin C) :
    broadcastInDim ⟨2, ![N, C]⟩ ![0, 1] h v (ix2 i k) = v (ix2 (0 : Fin 1) k) := by
  refine broadcastInDim_apply _ h v _ (ix2 (0 : Fin 1) k) fun a => ?_
  match a with
  | ⟨0, _⟩ =>
    show (0 : ℕ) = if (1 : ℕ) = 1 then 0 else i.val
    rw [if_pos rfl]
  | ⟨1, _⟩ =>
    show k.val = if C = 1 then 0 else k.val
    split
    · have := k.isLt; omega
    · rfl

/-- An [N] vector laid as the column [N, 1] by a broadcast reads, at (i, z), the vector at i. -/
theorem vecCol_apply {α : Type} (h : (⟨1, ![N]⟩ : Shape).BroadcastsInDim ⟨2, ![N, 1]⟩ ![0])
    (v : (⟨1, ![N]⟩ : Shape).Idx → α) (i : Fin N) (z : Fin 1) :
    broadcastInDim ⟨2, ![N, 1]⟩ ![0] h v (ix2 i z) = v (ix1 i) := col_apply h v i z

/-- THE WEIGHTED AGGREGATION at entry (i, k). -/
theorem wagg_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (h2 : (⟨2, ![E, 1]⟩ : Shape).BroadcastsInDim ⟨2, ![E, C]⟩ ![0, 1])
    (hz : (⟨0, ![]⟩ : Shape).BroadcastsInDim ⟨2, ![N, C]⟩ ![])
    (wt : FVec Ideal ⟨1, ![E]⟩ .f32) (y : FVec Ideal ⟨2, ![N, C]⟩ .f32) (snd rcv : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc snd)
        (mulf (broadcastInDim ⟨2, ![E, C]⟩ ![0, 1] h2 (broadcastInDim ⟨2, ![E, 1]⟩ ![0] hc wt))
          (Host.gather (rowGatherDims N E C wfG) y
            (broadcastInDim ⟨2, ![E, 1]⟩ ![0] hc
              (select (cmpi .slt rcv (broadcastInDim ⟨1, ![E]⟩ ![] h0 (constantI ⟨0, ![]⟩ 32 0#32)))
                (addi rcv (broadcastInDim ⟨1, ![E]⟩ ![] h0 (constantI ⟨0, ![]⟩ 32 cN))) rcv))))
        (ix2 i k)
      = 0 + ∑ e : Fin E, if (snd (ix1 e)).toInt = (i.val : Int)
          then wt (ix1 e) * y (ix2 (srcRow N hN cN (rcv (ix1 e))) k) else 0 := by
  rw [rowScatterAdd_apply, zeros_apply]
  congr 1
  refine Finset.sum_congr rfl fun e _ => ?_
  rw [col_apply]
  refine if_congr Iff.rfl ?_ rfl
  show (broadcastInDim ⟨2, ![E, C]⟩ ![0, 1] h2 (broadcastInDim ⟨2, ![E, 1]⟩ ![0] hc wt) (ix2 e k) : EReal)
      * Host.gather (rowGatherDims N E C wfG) y _ (ix2 e k) = _
  rw [colBcast_apply, col_apply, rowGather_apply hN, col_apply, wrap_apply]
  rfl

/-- THE DEGREE at node i: the weights of the edges whose sender is i, added onto zero. -/
theorem degree_apply (wf : ScatterDims.WF ⟨1, ![N]⟩ ⟨2, ![E, 1]⟩ ⟨1, ![E]⟩ [] [0] [0] 1)
    (hz : (⟨0, ![]⟩ : Shape).BroadcastsInDim ⟨1, ![N]⟩ ![])
    (hc : (⟨1, ![E]⟩ : Shape).BroadcastsInDim ⟨2, ![E, 1]⟩ ![0])
    (wt : FVec Ideal ⟨1, ![E]⟩ .f32) (snd : IVec ⟨1, ![E]⟩ 32) (i : Fin N) :
    Host.scatterAdd (Cert.Lib.EdgeIndex.scatterElts N E wf)
        (broadcastInDim ⟨1, ![N]⟩ ![] hz (constant (F := Ideal) ⟨0, ![]⟩ .f32 0x00000000#32))
        (broadcastInDim ⟨2, ![E, 1]⟩ ![0] hc snd) wt (ix1 i)
      = 0 + ∑ e : Fin E, if (snd (ix1 e)).toInt = (i.val : Int) then wt (ix1 e) else 0 := by
  show Ideal.hostScatterAdd (Cert.Lib.EdgeIndex.scatterElts N E wf) _ _ wt (ix1 i) = _
  unfold Ideal.hostScatterAdd
  rw [Cert.Lib.EdgeIndex.scatterElts_sum_landing, Finset.sum_filter, scalarBcast_apply]
  congr 1
  · exact Ideal.ofBits_zero_f32
  · refine Finset.sum_congr rfl fun e _ => ?_
    rw [col_apply]
    rfl

end Cert.Cheb.Read

end
-- ==== Proof.KerHostRead.lean ====
/-
  The host operations of the two-layer graph convolution before its matrix products, read at an entry on the extended
  reals: each stage is the composed term of the printed operations, as a function of the argument arrays, and equals the
  corresponding function of the specification (the input features, the degree count, its inverse square root, the edge
  normalisation, and the dense normalised adjacency built by a point scatter of the edge values and the self loops).
-/
import proofs.«166453_j25847113187564_2_alg».proof.KernelIdeal
import Idealize.ShloMosaic.Lib.IdealHost
import proofs.«166453_j25847113187564_2_alg».proof.Proof.KerHostSpec
import proofs.«166453_j25847113187564_2_alg».proof.Proof.LibPointScatter
import proofs.«166453_j25847113187564_2_alg».proof.Proof.LibConcatRead
import proofs.«166453_j25847113187564_2_alg».proof.Proof.LibTensorRead
import proofs.«166453_j25847113187564_2_alg».proof.Proof.LibLayoutRead

noncomputable section

open scoped BigOperators

namespace Cert.Gcn.KerRead

open Idealize.ShloMosaic Idealize.ShloMosaic.ValueIdx Cert.KernelIdeal Cert.KernelIdeal.Facts₀
open Cert.Lib.Rows Cert.Lib.EdgeAggregate Cert.Lib.PointScatter Cert.Lib.ConcatRead Cert.Gcn.Ref Cert.Gcn.Ker

variable [Facts₀]

/-! ## The stages, as the printed operations compose them -/

/-- A vector of 32-bit indices with its negative entries wrapped once by 8192: compare with a broadcast 0, add a
    broadcast 8192, select. -/
def wrapped {R : Nat} (h0 : (⟨0, ![]⟩ : Shape).BroadcastsInDim ⟨1, ![R]⟩ ![]) (s : IVec ⟨1, ![R]⟩ 32) : IVec ⟨1, ![R]⟩ 32 :=
  select (cmpi .slt s (broadcastInDim ⟨1, ![R]⟩ ![] h0 (constantI ⟨0, ![]⟩ 32 0#32)))
    (addi s (broadcastInDim ⟨1, ![R]⟩ ![] h0 (constantI ⟨0, ![]⟩ 32 8192#32))) s

theorem wrapped_apply {R : Nat} (h0 : (⟨0, ![]⟩ : Shape).BroadcastsInDim ⟨1, ![R]⟩ ![]) (s : IVec ⟨1, ![R]⟩ 32) (e : Fin R) :
    wrapped h0 s (ix1 e) = wrapIdx 8192#32 (s (ix1 e)) := rfl

/-- The input features: the embedding rows at the wrapped node ids. -/
def t6 (x : IVec S8192 32) (emb : FVec Ideal S8192x128 .f32) : FVec Ideal S8192x128 .f32 :=
  Host.gather gather_S8192x128_S8192x1_S8192x128_1_0_n_n_0_1_1128 emb
    (broadcastInDim S8192x1 ![0] bcast_S8192_S8192x1_0 (wrapped bcast_S_S8192 x))

/-- The source vector: row 0 of the edge index. -/
def t8 (ei : IVec S2x524288 32) : IVec S524288 32 :=
  shapeCast S524288 (extractStridedSlice S1x524288 ![0, 0] ei slices_S2x524288_S1x524288_0_0) shapeCasts_S1x524288_S524288

/-- The destination vector: row 1 of the edge index. -/
def t10 (ei : IVec S2x524288 32) : IVec S524288 32 :=
  shapeCast S524288 (extractStridedSlice S1x524288 ![1, 0] ei slices_S2x524288_S1x524288_1_0) shapeCasts_S1x524288_S524288

/-- The degree count: ones added onto zeros at the raw destinations. -/
def t14 (ei : IVec S2x524288 32) : FVec Ideal S8192 .f32 :=
  Host.scatterAdd scatter_S8192_S524288x1_S524288_n_0_0_1
    (broadcastInDim S8192 ![] bcast_S_S8192 (constant (F := Ideal) S_ .f32 0x00000000#32))
    (broadcastInDim S524288x1 ![0] bcast_S524288_S524288x1_0 (t10 ei))
    (broadcastInDim S524288 ![] bcast_S_S524288 (constant (F := Ideal) S_ .f32 0x3F800000#32))

/-- The inverse square root of the count plus one. -/
def t17 (ei : IVec S2x524288 32) : FVec Ideal S8192 .f32 :=
  Host.rsqrt (addf (t14 ei) (broadcastInDim S8192 ![] bcast_S_S8192 (constant (F := Ideal) S_ .f32 0x3F800000#32)))

/-- It at the wrapped sources … -/
def t24 (ei : IVec S2x524288 32) : FVec Ideal S524288 .f32 :=
  Host.gather gather_S8192_S524288x1_S524288_n_0_n_n_0_1_1 (t17 ei)
    (broadcastInDim S524288x1 ![0] bcast_S524288_S524288x1_0 (wrapped bcast_S_S524288 (t8 ei)))

/-- … and at the wrapped destinations. -/
def t31 (ei : IVec S2x524288 32) : FVec Ideal S524288 .f32 :=
  Host.gather gather_S8192_S524288x1_S524288_n_0_n_n_0_1_1 (t17 ei)
    (broadcastInDim S524288x1 ![0] bcast_S524288_S524288x1_0 (wrapped bcast_S_S524288 (t10 ei)))

/-- The edge normalisation: their product. -/
def t32 (ei : IVec S2x524288 32) : FVec Ideal S524288 .f32 := mulf (t24 ei) (t31 ei)

/-- The node numbers as words. -/
def t33 : IVec S8192 32 := iotaInDim S8192 32 0

/-- The self-loop values. -/
def t34 (ei : IVec S2x524288 32) : FVec Ideal S8192 .f32 := mulf (t17 ei) (t17 ei)

/-- All rows: the destinations, then the node numbers. -/
def t35 (ei : IVec S2x524288 32) : IVec S532480 32 :=
  concatenate S532480 0 [⟨S524288, t10 ei⟩, ⟨S8192, t33⟩] concatenates_S524288_S8192_S532480_d0

/-- All columns: the sources, then the node numbers. -/
def t36 (ei : IVec S2x524288 32) : IVec S532480 32 :=
  concatenate S532480 0 [⟨S524288, t8 ei⟩, ⟨S8192, t33⟩] concatenates_S524288_S8192_S532480_d0

/-- All values: the edge normalisations, then the self-loop values. -/
def t37 (ei : IVec S2x524288 32) : FVec Ideal S532480 .f32 :=
  concatenate S532480 0 [⟨S524288, t32 ei⟩, ⟨S8192, t34 ei⟩] concatenates_S524288_S8192_S532480_d0

/-- The [532480, 2] matrix of points: the wrapped rows beside the wrapped columns. -/
def t51 (ei : IVec S2x524288 32) : IVec S532480x2 32 :=
  concatenate S532480x2 1
    [⟨S532480x1, broadcastInDim S532480x1 ![0] bcast_S532480_S532480x1_0 (wrapped bcast_S_S532480 (t35 ei))⟩,
     ⟨S532480x1, broadcastInDim S532480x1 ![0] bcast_S532480_S532480x1_0 (wrapped bcast_S_S532480 (t36 ei))⟩]
    concatenates_S532480x1_S532480x1_S532480x2_d1

/-- The dense adjacency: all values added onto a zero matrix at the points. -/
def t52 (ei : IVec S2x524288 32) : FVec Ideal S8192x8192 .f32 :=
  Host.scatterAdd scatter_S8192x8192_S532480x2_S532480_n_01_01_1
    (broadcastInDim S8192x8192 ![] bcast_S_S8192x8192 (constant (F := Ideal) S_ .f32 0x00000000#32)) (t51 ei) (t37 ei)

/-- The same in the narrower format (the identity on the extended reals). -/
def t53 (ei : IVec S2x524288 32) : FVec Ideal S8192x8192 .bf16 := truncf .bf16 (t52 ei) bitsLt_bf16_f32

/-- The first bias as a row. -/
def t55 (b1 : FVec Ideal S256 .f32) : FVec Ideal S1x256 .f32 := shapeCast S1x256 b1 shapeCasts_S256_S1x256

/-- The second bias as a row. -/
def t58 (b2 : FVec Ideal S128 .f32) : FVec Ideal S1x128 .f32 := shapeCast S1x128 b2 shapeCasts_S128_S1x128

/-! ## The stages read at an entry -/

/-- A broadcast of the pattern of 1.0 reads 1 everywhere. -/
theorem ones_apply {t : Shape} (h : (⟨0, ![]⟩ : Shape).BroadcastsInDim t ![]) (j : t.Idx) :
    broadcastInDim t ![] h (constant (F := Ideal) ⟨0, ![]⟩ .f32 0x3F800000#32) j = 1 :=
  (Cert.Cheb.Read.scalarBcast_apply h _ j).trans Ideal.ofBits_one_f32

/-- The inverse square root of a sum of two vectors, at an index. -/
theorem rsqrt_add_apply {s : Shape} (a b : FVec Ideal s .f32) (i : s.Idx) :
    Host.rsqrt (addf a b) i = Ideal.rsqrt (a i + b i) := rfl

/-- The input features at (n, k). -/
theorem t6_apply (x : IVec S8192 32) (emb : FVec Ideal S8192x128 .f32) (n : Fin 8192) (k : Fin 128) :
    t6 x emb (ix2 n k) = h0 x emb n k := by
  have hd : gather_S8192x128_S8192x1_S8192x128_1_0_n_n_0_1_1128
      = rowGatherDims 8192 8192 128 gather_S8192x128_S8192x1_S8192x128_1_0_n_n_0_1_1128_wf := rfl
  unfold t6
  rw [hd]
  refine (rowGather_apply nodes_pos _ emb _ n k).trans ?_
  rw [col_apply]
  rfl

/-- The input features, whole. -/
theorem t6_eq (x : IVec S8192 32) (emb : FVec Ideal S8192x128 .f32) :
    t6 x emb = fun i => h0 x emb (i 0) (i 1) :=
  funext fun i => (congrArg (t6 x emb) (eq_ix2 i)).trans (t6_apply x emb (i 0) (i 1))

/-- The source vector at e. -/
theorem t8_apply (ei : IVec S2x524288 32) (e : Fin 524288) : t8 ei (ix1 e) = src ei e := by
  unfold t8
  rw [Cert.Cheb.Layout.castRowVec_apply, Cert.Cheb.Layout.sliceRow_apply 0 (by decide)]
  rfl

/-- The destination vector at e. -/
theorem t10_apply (ei : IVec S2x524288 32) (e : Fin 524288) : t10 ei (ix1 e) = dst ei e := by
  unfold t10
  rw [Cert.Cheb.Layout.castRowVec_apply, Cert.Cheb.Layout.sliceRow_apply 1 (by decide)]
  rfl

/-- The degree count at n. -/
theorem t14_apply (ei : IVec S2x524288 32) (n : Fin 8192) : t14 ei (ix1 n) = cnt ei n := by
  have hd : scatter_S8192_S524288x1_S524288_n_0_0_1
      = Cert.Lib.EdgeIndex.scatterElts 8192 524288 scatter_S8192_S524288x1_S524288_n_0_0_1_wf := rfl
  unfold t14
  rw [hd]
  refine (Cert.Cheb.Read.degree_apply _ _ _ _ (t10 ei) n).trans ?_
  unfold cnt
  refine congrArg (fun s => (0 : EReal) + s) (Finset.sum_congr rfl fun e _ => ?_)
  rw [t10_apply, ones_apply]

/-- The inverse square root of the degree plus one at n. -/
theorem t17_apply (ei : IVec S2x524288 32) (n : Fin 8192) : t17 ei (ix1 n) = dinv ei n := by
  unfold t17
  rw [rsqrt_add_apply, t14_apply, ones_apply]
  rfl

/-- It at the wrapped source of edge e. -/
theorem t24_apply (ei : IVec S2x524288 32) (e : Fin 524288) :
    t24 ei (ix1 e) = dinv ei (row (src ei e)) := by
  have hd : gather_S8192_S524288x1_S524288_n_0_n_n_0_1_1
      = vecGatherDims 8192 524288 gather_S8192_S524288x1_S524288_n_0_n_n_0_1_1_wf := rfl
  unfold t24
  rw [hd]
  refine (vecGather_apply nodes_pos _ (t17 ei) _ e).trans ?_
  rw [col_apply, wrapped_apply, t8_apply]
  exact t17_apply ei _

/-- It at the wrapped destination of edge e. -/
theorem t31_apply (ei : IVec S2x524288 32) (e : Fin 524288) :
    t31 ei (ix1 e) = dinv ei (row (dst ei e)) := by
  have hd : gather_S8192_S524288x1_S524288_n_0_n_n_0_1_1
      = vecGatherDims 8192 524288 gather_S8192_S524288x1_S524288_n_0_n_n_0_1_1_wf := rfl
  unfold t31
  rw [hd]
  refine (vecGather_apply nodes_pos _ (t17 ei) _ e).trans ?_
  rw [col_apply, wrapped_apply, t10_apply]
  exact t17_apply ei _

/-- The edge normalisation at e. -/
theorem t32_apply (ei : IVec S2x524288 32) (e : Fin 524288) : t32 ei (ix1 e) = nrm ei e := by
  unfold t32
  rw [mulf_apply, t24_apply, t31_apply]
  rfl

/-- The node numbers at i. -/
theorem t33_apply (i : Fin 8192) : t33 (ix1 i) = selfWord i := rfl

/-- The self-loop value at i. -/
theorem t34_apply (ei : IVec S2x524288 32) (i : Fin 8192) : t34 ei (ix1 i) = dinv ei i * dinv ei i := by
  unfold t34
  rw [mulf_apply, t17_apply]

/-- The point of update u: its row is the wrapped u-th entry of all rows … -/
theorem t51_apply0 (ei : IVec S2x524288 32) (u : Fin 532480) :
    t51 ei (ix2 u (0 : Fin 2)) = wrapIdx 8192#32 (t35 ei (ix1 u)) := by
  unfold t51
  refine (concatCols_left _ _ _ u).trans ?_
  rw [col_apply, wrapped_apply]

/-- … and its column the wrapped u-th entry of all columns. -/
theorem t51_apply1 (ei : IVec S2x524288 32) (u : Fin 532480) :
    t51 ei (ix2 u (1 : Fin 2)) = wrapIdx 8192#32 (t36 ei (ix1 u)) := by
  unfold t51
  refine (concatCols_right _ _ _ u).trans ?_
  rw [col_apply, wrapped_apply]

/-- THE DENSE ADJACENCY at (n, k). -/
theorem t52_apply (ei : IVec S2x524288 32) (n k : Fin 8192) : t52 ei (ix2 n k) = adj ei n k := by
  have hd : scatter_S8192x8192_S532480x2_S532480_n_01_01_1
      = pointScatterDims 8192 8192 532480 scatter_S8192x8192_S532480x2_S532480_n_01_01_1_wf := rfl
  unfold t52
  rw [hd]
  refine (pointScatterAdd_apply _ _ (t51 ei) (t37 ei) n k).trans ?_
  rw [zeros_apply]
  unfold adj
  refine congrArg (fun s => (0 : EReal) + s) ?_
  refine (sum_fin_split (a := 524288) (b := 8192) (c := 532480) (by norm_num) _).trans ?_
  refine congrArg₂ (fun s₁ s₂ : EReal => s₁ + s₂) (Finset.sum_congr rfl fun e _ => ?_) (Finset.sum_congr rfl fun i _ => ?_)
  · rw [t51_apply0, t51_apply1]
    have e35 : t35 ei (ix1 ⟨e.val, by have := e.isLt; omega⟩) = dst ei e :=
      (concatVec_left _ _ _ e _).trans (t10_apply ei e)
    have e36 : t36 ei (ix1 ⟨e.val, by have := e.isLt; omega⟩) = src ei e :=
      (concatVec_left _ _ _ e _).trans (t8_apply ei e)
    have e37 : t37 ei (ix1 ⟨e.val, by have := e.isLt; omega⟩) = nrm ei e :=
      (concatVec_left _ _ _ e _).trans (t32_apply ei e)
    rw [e35, e36, e37]
  · rw [t51_apply0, t51_apply1]
    have e35 : t35 ei (ix1 ⟨524288 + i.val, by have := i.isLt; omega⟩) = selfWord i :=
      concatVec_right _ _ _ i _
    have e36 : t36 ei (ix1 ⟨524288 + i.val, by have := i.isLt; omega⟩) = selfWord i :=
      concatVec_right _ _ _ i _
    have e37 : t37 ei (ix1 ⟨524288 + i.val, by have := i.isLt; omega⟩) = dinv ei i * dinv ei i :=
      (concatVec_right _ _ _ i _).trans (t34_apply ei i)
    rw [e35, e36, e37]

/-- THE DENSE ADJACENCY, whole, in the narrower format. -/
theorem t53_eq (ei : IVec S2x524288 32) : t53 ei = fun i => adj ei (i 0) (i 1) :=
  funext fun i => (congrArg (t52 ei) (eq_ix2 i)).trans (t52_apply ei (i 0) (i 1))

/-- The first bias as a row, whole. -/
theorem t55_eq (b1 : FVec Ideal S256 .f32) : t55 b1 = fun i => b1 (ix1 (i 1)) :=
  funext fun i => (congrArg (t55 b1) (eq_ix2 i)).trans (Cert.Cheb.Layout.castVecRow_apply b1 _ (i 0) (i 1))

/-- The second bias as a row, whole. -/
theorem t58_eq (b2 : FVec Ideal S128 .f32) : t58 b2 = fun i => b2 (ix1 (i 1)) :=
  funext fun i => (congrArg (t58 b2) (eq_ix2 i)).trans (Cert.Cheb.Layout.castVecRow_apply b2 _ (i 0) (i 1))

end Cert.Gcn.KerRead

end
-- ==== Proof.KIHostAt.lean ====
import proofs.«166453_j25847113187564_2_alg».proof.Proof.KIRunA
import proofs.«166453_j25847113187564_2_alg».proof.Proof.KerHostRead

/-! The contents, at the first linear call's entry, of the two buffers the host operations compute for the calls — the
    input features and the dense adjacency in the narrower format — are the stage terms of the argument arrays: every
    host operation's result buffer holds its function's value at its operands' contents, and no later operation of the
    stretch writes it. -/

set_option maxRecDepth 16384

noncomputable section

namespace Cert.KernelIdeal.Hand

open Idealize.ShloMosaic Idealize.ShloMosaic.TcCoe Idealize.ShloMosaic.Tactic
open Idealize.SL Idealize.SL.Sem
open Idealize.ShloMosaic.StableHlo
open Cert.KernelIdeal Cert.KernelIdeal.Gen

/-- A two-piece concatenation of equal pieces is the same concatenation: the rule by which a rewrite enters the pieces
    (the side condition speaks of the pieces' shapes only). -/
theorem concat2_congr {α : Type} {t s₁ s₂ : Shape} {a : Fin t.rank} {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concat2_congr

variable (m : (ℓ : Loc nD τ sig) → Buf (Elt Ideal) ℓ) (ρ : Dev nD → PrngReg) (c : Dev nD)

set_option maxHeartbeats 4000000 in
/-- The input features at the first call's entry: the rows of the embedding table at the wrapped node ids. -/
theorem V2_main_v6 :
    V2 m ρ c main_v6
      = Cert.Gcn.KerRead.t6 (m ((c : Thread nD τ).loc main_arg0)) (m ((c : Thread nD τ).loc main_arg2)) := by
  show StableHlo.after main_part1_ops0 (StableHlo.after main_part0_ops0 (W0 m ρ c)) (Proc.devRef .tc main_v6) = _
  after_results_simp
  rfl

set_option maxHeartbeats 4000000 in
/-- The adjacency operand at the first call's entry: the point scatter of the edge values and the self loops, in the
    narrower format. -/
theorem V2_main_v53 :
    V2 m ρ c main_v53 = Cert.Gcn.KerRead.t53 (m ((c : Thread nD τ).loc main_arg1)) := by
  show StableHlo.after main_part1_ops0 (StableHlo.after main_part0_ops0 (W0 m ρ c)) (Proc.devRef .tc main_v53) = _
  after_results_simp
  rfl

end Cert.KernelIdeal.Hand

end
-- ==== Proof.KIValueAll.lean ====
/-
  The value of the idealized kernel's result array as one function of the argument arrays.

  The host operations before the first call leave the looked-up features in the feature array and the dense normalised
  adjacency in the adjacency array; with the five calls' closed forms this makes the result array the dense link score of
  the argument arrays, entry by entry.
-/
import proofs.«166453_j25847113187564_2_alg».proof.Proof.KIValueFin
import proofs.«166453_j25847113187564_2_alg».proof.Proof.KIHostAt
import proofs.«166453_j25847113187564_2_alg».proof.Proof.KerHostRead

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

set_option maxHeartbeats 1000000 in
/-- THE KERNEL'S VALUE: after the run the result array is the dense link score of the argument arrays. -/
theorem kernel_value (c : Dev nD) :
    W9 m ρ c (Proc.devRef .tc main_v60)
      = fun i => Cert.Gcn.Alg.dout (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (i 0) (i 1) :=
  kernel_value_of_reads m ρ
    (fun c => (V2_main_v53 m ρ c).trans (Cert.Gcn.KerRead.t53_eq (m ((c : Thread nD τ).loc main_arg1))))
    (fun c => (V2_main_v6 m ρ c).trans
      (Cert.Gcn.KerRead.t6_eq (m ((c : Thread nD τ).loc main_arg0)) (m ((c : Thread nD τ).loc main_arg2))))
    c

end Cert.KernelIdeal.Hand

end
-- ==== Proof.LibConvAlgebra.lean ====
/-
  The algebra of a degree-normalised graph convolution, on the extended reals, over an abstract finite set of edges.

  One layer multiplies a node's row by c (its own degree factor, a non-negative real), adds the rows gathered along the
  node's incoming edges, each already scaled by its source's factor a e, adds the node's own row times c, and then a
  bias. Scaling the whole aggregate by c afterwards is the same as scaling every incoming term by a e · c and the own
  term by c · c: a non-negative REAL factor distributes over sums of extended reals, whatever infinities the rows
  hold. Where the aggregate is then contracted with a weight matrix, the statement is an identity of real numbers
  (distributivity and an exchange of two finite sums), stated over coercions because it fails at the infinities.
  Around these: the word 0x3F800000 is the real 1, the degree "one per incoming edge, plus one" is a positive real whose
  inverse square root is a non-negative real, and a finite dot product of reals is real.
-/
import Mathlib.Data.EReal.Operations
import Mathlib.Algebra.BigOperators.Ring.Finset
import Mathlib.Algebra.BigOperators.Group.Finset.Sigma
import Mathlib.Tactic.Ring
import Idealize.ShloMosaic.PureOps.Ideal
import Idealize.ShloMosaic.PureOps.Ideal.Laws
import proofs.«166453_j25847113187564_2_alg».proof.Proof.LibERealSum

open scoped BigOperators

namespace Cert.Lib.ConvAlgebra

open Idealize.ShloMosaic
open Cert.Lib.ERealSum (coe_sum)

/-! ## A non-negative real factor through a finite sum of extended reals -/

/-- A non-negative real factor distributes over a finite sum of extended reals (no finiteness of the terms: it is
    the two-term law, which holds for such a factor, by induction on the set). -/
theorem coe_mul_sum_of_nonneg {ε : Type*} (L : Finset ε) (c : ℝ) (hc : 0 ≤ c) (f : ε → EReal) :
    (c : EReal) * ∑ e ∈ L, f e = ∑ e ∈ L, (c : EReal) * f e := by
  classical
  induction L using Finset.induction_on with
  | empty => simp
  | insert x S hx ih =>
    rw [Finset.sum_insert hx, Finset.sum_insert hx,
      EReal.left_distrib_of_nonneg_of_ne_top (EReal.coe_nonneg.mpr hc) (EReal.coe_ne_top c), ih]

/-! ## One layer: the factor c pushed inside the aggregate -/

/-- Scaling the aggregate (incoming terms plus own term) by the non-negative real c, then adding the bias, is the
    aggregate of the incoming terms each scaled by a e · dd e (dd e = c on the edges) and the own term scaled by
    c · c, plus the bias. -/
theorem layer1 {ε : Type*} (L : Finset ε) (c : ℝ) (hc : 0 ≤ c) (Hg a dd : ε → EReal)
    (hdd : ∀ e ∈ L, dd e = (c : EReal)) (Hn b : EReal) :
    (c : EReal) * ((0 + ∑ e ∈ L, Hg e * a e) + Hn * (c : EReal)) + b
      = ((0 + ∑ e ∈ L, Hg e * (a e * dd e)) + Hn * ((c : EReal) * (c : EReal))) + b := by
  refine congrArg (· + b) ?_
  rw [zero_add, zero_add,
    EReal.left_distrib_of_nonneg_of_ne_top (EReal.coe_nonneg.mpr hc) (EReal.coe_ne_top c),
    coe_mul_sum_of_nonneg L c hc]
  congr 1
  · refine Finset.sum_congr rfl fun e he => ?_
    rw [hdd e he, mul_left_comm, mul_comm (c : EReal) (a e)]
  · rw [mul_left_comm]

/-- With real rows, factors and bias the layer's value, and its maximum with a real, is a real number. -/
theorem layer1_real {ε : Type*} (L : Finset ε) (c : ℝ) (Hg a : ε → ℝ) (Hn b z : ℝ) :
    ∃ r : ℝ, max ((c : EReal) * ((0 + ∑ e ∈ L, (Hg e : EReal) * (a e : EReal)) + (Hn : EReal) * (c : EReal))
      + (b : EReal)) (z : EReal) = (r : EReal) := by
  refine ⟨max (c * ((0 + ∑ e ∈ L, Hg e * a e) + Hn * c) + b) z, ?_⟩
  simp only [← EReal.coe_mul, ← coe_sum, ← EReal.coe_zero, ← EReal.coe_add]
  exact (EReal.coe_strictMono.monotone.map_max).symm

/-! ## One layer followed by a contraction with a weight matrix: an identity of real numbers -/

/-- The aggregate scaled by c and contracted with the weights w over κ, plus the bias, is the aggregate of the
    contracted incoming rows each scaled by a e · dd e and the contracted own row scaled by c · c, plus the bias:
    distributivity and the exchange of the sums over κ and over the edges, on real numbers. -/
theorem layer2 {ε κ : Type*} [Fintype κ] (L : Finset ε) (c : ℝ) (he : ε → κ → ℝ) (a : ε → ℝ) (dd : ε → EReal)
    (hdd : ∀ e ∈ L, dd e = (c : EReal)) (hn w : κ → ℝ) (b : EReal) :
    (∑ k, ((c : EReal) * ((0 + ∑ e ∈ L, (he e k : EReal) * (a e : EReal)) + (hn k : EReal) * (c : EReal)))
        * (w k : EReal)) + b
      = ((0 + ∑ e ∈ L, (∑ k, (he e k : EReal) * (w k : EReal)) * ((a e : EReal) * dd e))
          + (∑ k, (hn k : EReal) * (w k : EReal)) * ((c : EReal) * (c : EReal))) + b := by
  refine congrArg (· + b) ?_
  have hsum : ∑ e ∈ L, (∑ k, (he e k : EReal) * (w k : EReal)) * ((a e : EReal) * dd e)
      = ∑ e ∈ L, (∑ k, (he e k : EReal) * (w k : EReal)) * ((a e : EReal) * (c : EReal)) :=
    Finset.sum_congr rfl fun e h => by rw [hdd e h]
  rw [hsum]
  simp only [← EReal.coe_mul, ← coe_sum, ← EReal.coe_zero, ← EReal.coe_add]
  refine congrArg _ ?_
  simp only [zero_add, mul_add, add_mul, Finset.mul_sum, Finset.sum_mul, Finset.sum_add_distrib]
  congr 1
  · rw [Finset.sum_comm]
    exact Finset.sum_congr rfl fun e _ => Finset.sum_congr rfl fun k _ => by ring
  · exact Finset.sum_congr rfl fun k _ => by ring

/-! ## The word of 1, the degree, and a real dot product -/

/-- The 32-bit float word 0x3F800000 (sign 0, exponent field 127, significand field 0) is the real number 1. -/
theorem ofBits_one : Ideal.ofBits .f32 0x3F800000#32 = ((1 : ℝ) : EReal) := by
  simp [Ideal.ofBits, Ideal.ieee, -EReal.coe_mul]
  norm_num

/-- The degree of a node — one per incoming edge, counted from 0, plus one for the node itself — is the real number
    |L| + 1 > 0, so its inverse square root is the non-negative real (√(|L| + 1))⁻¹. -/
theorem rsqrt_degree {ε : Type*} (L : Finset ε) :
    ∃ r : ℝ, 0 ≤ r ∧ Ideal.rsqrt ((Ideal.ofBits .f32 0x00000000#32 + ∑ _e ∈ L, Ideal.ofBits .f32 0x3F800000#32)
      + Ideal.ofBits .f32 0x3F800000#32) = (r : EReal) := by
  refine ⟨(Real.sqrt ((L.card : ℝ) + 1))⁻¹, inv_nonneg.mpr (Real.sqrt_nonneg _), ?_⟩
  have harg : (Ideal.ofBits .f32 0x00000000#32 + ∑ _e ∈ L, Ideal.ofBits .f32 0x3F800000#32)
      + Ideal.ofBits .f32 0x3F800000#32 = ((((L.card : ℝ) + 1 : ℝ)) : EReal) := by
    rw [Ideal.ofBits_zero_f32, ofBits_one, zero_add, ← coe_sum, Finset.sum_const, nsmul_eq_mul, mul_one,
      ← EReal.coe_add]
  have hpos : (0 : ℝ) < (L.card : ℝ) + 1 := by positivity
  rw [harg, Ideal.rsqrt_coe, if_neg (not_lt.mpr hpos.le), if_neg hpos.ne']

/-- A finite dot product of two families of real numbers, read in the extended reals, is a real number. -/
theorem real_dot {κ : Type*} [Fintype κ] (u v : κ → EReal) (hu : ∀ k, ∃ r : ℝ, u k = r) (hv : ∀ k, ∃ r : ℝ, v k = r) :
    ∃ r : ℝ, ∑ k, u k * v k = (r : EReal) := by
  choose ru hru using hu
  choose rv hrv using hv
  refine ⟨∑ k, ru k * rv k, ?_⟩
  rw [coe_sum]
  exact Finset.sum_congr rfl fun k _ => by rw [hru k, hrv k, EReal.coe_mul]

end Cert.Lib.ConvAlgebra
-- ==== Proof.RefLayer.lean ====
/-
  The host operations of one degree-normalised graph convolution, read at an entry on the extended reals, generic in the
  node count N, the edge count E and the feature count C (and in the dimension records' side-condition proofs).

  * the in-degree: ones added onto a zero [N] vector at the edges' destination words: `0 + Σ e, [t e reads i] 1`;
  * the edge normalisation: a node vector read at an edge's two (wrapped, clamped) ends, multiplied;
  * a table lookup: rows of a matrix taken at (wrapped, clamped) index words;
  * the convolution: rows of a projected matrix XW taken at the edges' sources, each multiplied by the edge's entry of an
    edge vector, added onto a zero [N, C] array at the destinations; plus XW scaled row by row by a node vector; plus a
    bias row;
  * the two rows of a [2, E] index array as vectors.
-/
import Idealize.ShloMosaic.Lib.ValueIdx
import Idealize.ShloMosaic.Lib.Pipeline.Value
import Idealize.ShloMosaic.PureOps.Ideal.Laws
import proofs.«166453_j25847113187564_2_alg».proof.Proof.LibRowGather
import proofs.«166453_j25847113187564_2_alg».proof.Proof.LibEdgeAggregate
import proofs.«166453_j25847113187564_2_alg».proof.Proof.LibEdgeIndex
import proofs.«166453_j25847113187564_2_alg».proof.Proof.LibTensorRead
import proofs.«166453_j25847113187564_2_alg».proof.Proof.LibLayoutRead
import proofs.«166453_j25847113187564_2_alg».proof.Proof.LibConvAlgebra

noncomputable section

open scoped BigOperators

namespace Cert.Gcn.RefLayer

open Idealize.ShloMosaic Idealize.ShloMosaic.ValueIdx Cert.Lib.Rows Cert.Lib.EdgeAggregate Cert.Cheb.Read Cert.Cheb.Layout

variable {N E C : Nat}

/-- The scalar word of 1 broadcast to any shape reads the extended real `1` everywhere. -/
theorem ones_apply {t : Shape} (h : (⟨0, ![]⟩ : Shape).BroadcastsInDim t ![]) (j : t.Idx) :
    broadcastInDim t ![] h (constant (F := Ideal) ⟨0, ![]⟩ .f32 0x3F800000#32) j = (1 : EReal) := by
  rw [scalarBcast_apply]
  show Ideal.ofBits .f32 0x3F800000#32 = 1
  rw [Cert.Lib.ConvAlgebra.ofBits_one, EReal.coe_one]

/-- The scalar word of 0 broadcast to any shape reads the extended real `0` everywhere. -/
theorem zeros_any_apply {t : Shape} (h : (⟨0, ![]⟩ : Shape).BroadcastsInDim t ![]) (j : t.Idx) :
    broadcastInDim t ![] h (constant (F := Ideal) ⟨0, ![]⟩ .f32 0x00000000#32) j = (0 : EReal) := by
  rw [scalarBcast_apply]
  exact Ideal.ofBits_zero_f32

/-- THE IN-DEGREE at node `i`: one for every edge whose destination word reads `i`, added onto zero. -/
theorem count_apply (wf : ScatterDims.WF ⟨1, ![N]⟩ ⟨2, ![E, 1]⟩ ⟨1, ![E]⟩ [] [0] [0] 1)
    (hz : (⟨0, ![]⟩ : Shape).BroadcastsInDim ⟨1, ![N]⟩ ![])
    (h1 : (⟨0, ![]⟩ : Shape).BroadcastsInDim ⟨1, ![E]⟩ ![])
    (hc : (⟨1, ![E]⟩ : Shape).BroadcastsInDim ⟨2, ![E, 1]⟩ ![0])
    (t : IVec ⟨1, ![E]⟩ 32) (i : Fin N) :
    Host.scatterAdd (Cert.Lib.EdgeIndex.scatterElts N E wf)
        (broadcastInDim ⟨1, ![N]⟩ ![] hz (constant (F := Ideal) ⟨0, ![]⟩ .f32 0x00000000#32))
        (broadcastInDim ⟨2, ![E, 1]⟩ ![0] hc t)
        (broadcastInDim ⟨1, ![E]⟩ ![] h1 (constant (F := Ideal) ⟨0, ![]⟩ .f32 0x3F800000#32)) (ix1 i)
      = 0 + ∑ e : Fin E, if (t (ix1 e)).toInt = (i.val : Int) then (1 : EReal) else 0 := by
  rw [degree_apply]
  congr 1
  refine Finset.sum_congr rfl fun e _ => ?_
  rw [ones_apply]

/-- THE EDGE NORMALISATION at edge `e`: the node vector at the edge's two ends, each wrapped and clamped. -/
theorem edgeNorm_apply (hN : 0 < N) (cN : BitVec 32)
    (wfV : GatherDims.WF ⟨1, ![N]⟩ ⟨2, ![E, 1]⟩ ⟨1, ![E]⟩ [] [0] [] [0] [] 1 ![1])
    (h0 : (⟨0, ![]⟩ : Shape).BroadcastsInDim ⟨1, ![E]⟩ ![])
    (hc : (⟨1, ![E]⟩ : Shape).BroadcastsInDim ⟨2, ![E, 1]⟩ ![0])
    (dv : FVec Ideal ⟨1, ![N]⟩ .f32) (s t : IVec ⟨1, ![E]⟩ 32) (e : Fin E) :
    mulf
        (Host.gather (vecGatherDims N E wfV) dv
          (broadcastInDim ⟨2, ![E, 1]⟩ ![0] hc
            (select (cmpi .slt s (broadcastInDim ⟨1, ![E]⟩ ![] h0 (constantI ⟨0, ![]⟩ 32 0#32)))
              (addi s (broadcastInDim ⟨1, ![E]⟩ ![] h0 (constantI ⟨0, ![]⟩ 32 cN))) s)))
        (Host.gather (vecGatherDims N E wfV) dv
          (broadcastInDim ⟨2, ![E, 1]⟩ ![0] hc
            (select (cmpi .slt t (broadcastInDim ⟨1, ![E]⟩ ![] h0 (constantI ⟨0, ![]⟩ 32 0#32)))
              (addi t (broadcastInDim ⟨1, ![E]⟩ ![] h0 (constantI ⟨0, ![]⟩ 32 cN))) t))) (ix1 e)
      = (dv (ix1 (srcRow N hN cN (s (ix1 e)))) : EReal) * dv (ix1 (srcRow N hN cN (t (ix1 e)))) := by
  rw [mulf_apply, vecGather_apply hN, vecGather_apply hN, col_apply, col_apply, wrap_apply, wrap_apply]
  rfl

/-- A TABLE LOOKUP at entry `(e, f)`: the table's row that the `e`-th index word names (wrapped, clamped), column `f`. -/
theorem lookup_apply {R : Nat} (hN : 0 < N) (cN : BitVec 32)
    (wfG : GatherDims.WF ⟨2, ![N, C]⟩ ⟨2, ![R, 1]⟩ ⟨2, ![R, C]⟩ [1] [0] [] [0] [] 1 ![1, C])
    (h0 : (⟨0, ![]⟩ : Shape).BroadcastsInDim ⟨1, ![R]⟩ ![])
    (hc : (⟨1, ![R]⟩ : Shape).BroadcastsInDim ⟨2, ![R, 1]⟩ ![0])
    (x : FVec Ideal ⟨2, ![N, C]⟩ .f32) (s : IVec ⟨1, ![R]⟩ 32) (e : Fin R) (f : Fin C) :
    Host.gather (rowGatherDims N R C wfG) x
        (broadcastInDim ⟨2, ![R, 1]⟩ ![0] hc
          (select (cmpi .slt s (broadcastInDim ⟨1, ![R]⟩ ![] h0 (constantI ⟨0, ![]⟩ 32 0#32)))
            (addi s (broadcastInDim ⟨1, ![R]⟩ ![] h0 (constantI ⟨0, ![]⟩ 32 cN))) s)) (ix2 e f)
      = x (ix2 (srcRow N hN cN (s (ix1 e))) f) := by
  rw [rowGather_apply hN, col_apply, wrap_apply]
  rfl

/-- THE CONVOLUTION at entry `(n, c)`: the edge-weighted rows arriving at `n`, added onto zero; plus the node's own row
    scaled by the node vector; plus the bias. -/
theorem conv_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (h2 : (⟨2, ![E, 1]⟩ : Shape).BroadcastsInDim ⟨2, ![E, C]⟩ ![0, 1])
    (hz : (⟨0, ![]⟩ : Shape).BroadcastsInDim ⟨2, ![N, C]⟩ ![])
    (hn : (⟨1, ![N]⟩ : Shape).BroadcastsInDim ⟨2, ![N, 1]⟩ ![0])
    (hn2 : (⟨2, ![N, 1]⟩ : Shape).BroadcastsInDim ⟨2, ![N, C]⟩ ![0, 1])
    (hv : (⟨1, ![C]⟩ : Shape).BroadcastsInDim ⟨2, ![1, C]⟩ ![1])
    (hr : (⟨2, ![1, C]⟩ : Shape).BroadcastsInDim ⟨2, ![N, C]⟩ ![0, 1])
    (XW : FVec Ideal ⟨2, ![N, C]⟩ .f32) (nv : FVec Ideal ⟨1, ![E]⟩ .f32) (dd : FVec Ideal ⟨1, ![N]⟩ .f32)
    (s t : IVec ⟨1, ![E]⟩ 32) (b : FVec Ideal ⟨1, ![C]⟩ .f32) (n : Fin N) (c : Fin C) :
    addf (addf
        (Host.scatterAdd (rowScatterDims N E C wfS)
          (broadcastInDim ⟨2, ![N, C]⟩ ![] hz (constant (F := Ideal) ⟨0, ![]⟩ .f32 0x00000000#32))
          (broadcastInDim ⟨2, ![E, 1]⟩ ![0] hc t)
          (mulf
            (Host.gather (rowGatherDims N E C wfG) XW
              (broadcastInDim ⟨2, ![E, 1]⟩ ![0] hc
                (select (cmpi .slt s (broadcastInDim ⟨1, ![E]⟩ ![] h0 (constantI ⟨0, ![]⟩ 32 0#32)))
                  (addi s (broadcastInDim ⟨1, ![E]⟩ ![] h0 (constantI ⟨0, ![]⟩ 32 cN))) s)))
            (broadcastInDim ⟨2, ![E, C]⟩ ![0, 1] h2 (broadcastInDim ⟨2, ![E, 1]⟩ ![0] hc nv))))
        (mulf XW (broadcastInDim ⟨2, ![N, C]⟩ ![0, 1] hn2 (broadcastInDim ⟨2, ![N, 1]⟩ ![0] hn dd))))
      (broadcastInDim ⟨2, ![N, C]⟩ ![0, 1] hr (broadcastInDim ⟨2, ![1, C]⟩ ![1] hv b)) (ix2 n c)
      = ((0 + ∑ e : Fin E, if (t (ix1 e)).toInt = (n.val : Int) then
            (XW (ix2 (srcRow N hN cN (s (ix1 e))) c) : EReal) * nv (ix1 e) else 0)
          + XW (ix2 n c) * dd (ix1 n))
        + b (ix1 c) := by
  rw [addf_apply, addf_apply, rowBcast_apply, vecRow_apply, mulf_apply, colBcast_apply, col_apply, rowScatterAdd_apply,
    zeros_apply]
  refine congrArg (fun z : EReal => (0 + z + XW (ix2 n c) * dd (ix1 n)) + b (ix1 c)) (Finset.sum_congr rfl fun e _ => ?_)
  rw [col_apply]
  refine if_congr Iff.rfl ?_ rfl
  rw [mulf_apply, rowGather_apply hN, col_apply, colBcast_apply, col_apply, wrap_apply]
  rfl

/-- Row `k` of a [2, E] index array, taken as a slice [1, E] and cast to a vector [E], reads at `e` the array at
    `(k, e)`. -/
theorem indexRow_apply {α : Type} (k : Nat) (hk : k < 2) (x : (⟨2, ![2, E]⟩ : Shape).Idx → α)
    (h : (⟨2, ![2, E]⟩ : Shape).Slices ![k, 0] ⟨2, ![1, E]⟩) (hs : (⟨2, ![1, E]⟩ : Shape).ShapeCasts ⟨1, ![E]⟩) (e : Fin E) :
    shapeCast ⟨1, ![E]⟩ (extractStridedSlice ⟨2, ![1, E]⟩ ![k, 0] x h) hs (ix1 e) = x (ix2 ⟨k, hk⟩ e) := by
  rw [castRowVec_apply, sliceRow_apply k hk]

end Cert.Gcn.RefLayer

end
-- ==== Proof.RefRead.lean ====
/-
  What the per-edge reference computes, read at an entry.

  The reference's result is the composition of its host operations (the generated stages `val_main_vN`). Stage by
  stage it is the mathematics of `Cert.Gcn.Ref`: the two rows of the edge array are the edges' source and destination
  words; the scatter of ones is the in-degree; its inverse root with the self loop is `dinv`; the product of two element
  gathers is the edge normalisation; the row gather of the table is the feature lookup; a `dot_general` is a projection;
  gather × normalisation → row scatter, plus the self loop's message, plus the bias is one convolution; the maximum with a
  zero array is the rectifier; the second convolution repeats the first on the hidden features; the last five operations
  are `1 / (1 + exp (−(z zᵀ)))`.
-/
import proofs.«166453_j25847113187564_2_alg».proof.Proof.Gen.ReferenceIdeal.Read
import proofs.«166453_j25847113187564_2_alg».proof.Proof.RefSpec
import proofs.«166453_j25847113187564_2_alg».proof.Proof.RefLayer

noncomputable section

open scoped BigOperators

namespace Cert.Gcn.RefRead

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Lib.Rows Cert.Lib.EdgeAggregate Cert.Gcn

variable (x : IVec ⟨1, ![8192]⟩ 32) (ei : IVec ⟨2, ![2, 524288]⟩ 32) (emb : (⟨2, ![8192, 128]⟩ : Shape).Idx → EReal)
  (W1 : (⟨2, ![128, 256]⟩ : Shape).Idx → EReal) (b1 : (⟨1, ![256]⟩ : Shape).Idx → EReal)
  (W2 : (⟨2, ![256, 128]⟩ : Shape).Idx → EReal) (b2 : (⟨1, ![128]⟩ : Shape).Idx → EReal)

/-! ## The edge array's two rows -/

/-- The first slice-and-reshape of the edge array is the vector of source words. -/
theorem src_apply (e : Fin 524288) : val_main_v8 (F := Ideal) ei (ix1 e) = Ref.src ei e :=
  RefLayer.indexRow_apply 0 (by decide) ei slices_S2x524288_S1x524288_0_0 shapeCasts_S1x524288_S524288 e

/-- The second is the vector of destination words. -/
theorem dst_apply (e : Fin 524288) : val_main_v10 (F := Ideal) ei (ix1 e) = Ref.dst ei e :=
  RefLayer.indexRow_apply 1 (by decide) ei slices_S2x524288_S1x524288_1_0 shapeCasts_S1x524288_S524288 e

/-! ## Degrees and the edge normalisation -/

/-- The scatter of ones onto zeros at the destination words is the in-degree. -/
theorem cnt_apply (n : Fin 8192) : val_main_v15 (F := Ideal) ei (ix1 n) = Ref.cnt ei n := by
  refine (RefLayer.count_apply (N := 8192) (E := 524288) scatter_S8192_S524288x1_S524288_n_0_0_1_wf bcast_S_S8192
    bcast_S_S524288 bcast_S524288_S524288x1_0 (val_main_v10 (F := Ideal) ei) n).trans ?_
  unfold Ref.cnt
  simp only [dst_apply]

/-- A broadcast of the word of 1 reads 1. -/
theorem v16_apply (n : Fin 8192) : val_main_v16 (F := Ideal) (ix1 n) = (1 : EReal) :=
  RefLayer.ones_apply _ _

/-- Its inverse square root, the self loop counted. -/
theorem dinv_apply (n : Fin 8192) : val_main_v18 (F := Ideal) ei (ix1 n) = Ref.dinv ei n := by
  rw [val_main_v18_apply, val_main_v17_apply, cnt_apply, v16_apply]
  unfold Ref.dinv
  simp only [Ideal.hostUnary_rsqrt_def, Ideal.addf_def]

/-- The product of the two element gathers is the edge's normalisation. -/
theorem nrm_apply (e : Fin 524288) : val_main_v33 (F := Ideal) ei (ix1 e) = Ref.nrm ei e := by
  refine (RefLayer.edgeNorm_apply (N := 8192) (E := 524288) Ref.nodes_pos 8192#32
    gather_S8192_S524288x1_S524288_n_0_n_n_0_1_1_wf bcast_S_S524288 bcast_S524288_S524288x1_0
    (val_main_v18 (F := Ideal) ei) (val_main_v8 (F := Ideal) ei) (val_main_v10 (F := Ideal) ei) e).trans ?_
  rw [src_apply, dst_apply, dinv_apply, dinv_apply]
  rfl

/-- The node vector of the self loop's weight. -/
theorem dd_apply (n : Fin 8192) : val_main_v47 (F := Ideal) ei (ix1 n) = Ref.dinv ei n * Ref.dinv ei n := by
  rw [val_main_v47_apply, dinv_apply]
  simp only [Ideal.mulf_def]

/-! ## The first convolution -/

/-- The row gather of the table at the node index words is the feature lookup. -/
theorem h0_apply (n : Fin 8192) (k : Fin 128) : val_main_v6 (F := Ideal) x emb (ix2 n k) = Ref.h0 x emb n k :=
  RefLayer.lookup_apply (N := 8192) (C := 128) (R := 8192) Ref.nodes_pos 8192#32
    gather_S8192x128_S8192x1_S8192x128_1_0_n_n_0_1_1128_wf bcast_S_S8192 bcast_S8192_S8192x1_0 emb x n k

/-- The first `dot_general` is the projection of the looked-up features. -/
theorem xw1_apply (n : Fin 8192) (c : Fin 256) :
    val_main_v11 (F := Ideal) x emb W1 (ix2 n c) = Ref.lin (Ref.h0 x emb) W1 n c := by
  rw [val_main_v11_apply]
  unfold Ref.lin
  refine Finset.sum_congr rfl fun k _ => ?_
  rw [show lidx_main_v11 (ix2 n c) k = ix2 n k from funext fun a => by
        match a with
        | ⟨0, _⟩ => rfl
        | ⟨1, _⟩ => rfl,
    show ridx_main_v11 (ix2 n c) k = ix2 k c from funext fun a => by
        match a with
        | ⟨0, _⟩ => rfl
        | ⟨1, _⟩ => rfl,
    h0_apply]

/-- Gather × normalisation → row scatter, plus the self loop's message, plus the bias: the first convolution. -/
theorem conv1_apply (n : Fin 8192) (c : Fin 256) :
    val_main_v54 (F := Ideal) x ei emb W1 b1 (ix2 n c) = Ref.layer ei (Ref.lin (Ref.h0 x emb) W1) b1 n c := by
  refine (RefLayer.conv_apply (N := 8192) (E := 524288) (C := 256) Ref.nodes_pos 8192#32
    gather_S8192x256_S524288x1_S524288x256_1_0_n_n_0_1_1256_wf scatter_S8192x256_S524288x1_S524288x256_1_0_0_1_wf
    bcast_S_S524288 bcast_S524288_S524288x1_0 bcast_S524288x1_S524288x256_0_1 bcast_S_S8192x256 bcast_S8192_S8192x1_0
    bcast_S8192x1_S8192x256_0_1 bcast_S256_S1x256_1 bcast_S1x256_S8192x256_0_1
    (val_main_v11 (F := Ideal) x emb W1) (val_main_v33 (F := Ideal) ei) (val_main_v47 (F := Ideal) ei)
    (val_main_v8 (F := Ideal) ei) (val_main_v10 (F := Ideal) ei) b1 n c).trans ?_
  unfold Ref.layer Ref.row
  simp only [src_apply, dst_apply, xw1_apply, nrm_apply, dd_apply]

/-- The rectifier's zero array reads 0. -/
theorem relu_zero_apply (n : Fin 8192) (c : Fin 256) : val_main_call0_v0 (F := Ideal) (ix2 n c) = (0 : EReal) :=
  RefLayer.zeros_any_apply _ _

/-- The maximum with the zero array is the rectifier: the hidden features. -/
theorem h1_apply (n : Fin 8192) (c : Fin 256) :
    val_main_v55 (F := Ideal) x ei emb W1 b1 (ix2 n c) = Ref.h1 x ei emb W1 b1 n c := by
  rw [val_main_v55_apply, conv1_apply, relu_zero_apply]
  unfold Ref.h1
  simp only [Ideal.maximumf_def]

/-! ## The second convolution -/

/-- The second `dot_general` is the projection of the hidden features. -/
theorem xw2_apply (n : Fin 8192) (c : Fin 128) :
    val_main_v60 (F := Ideal) x ei emb W1 b1 W2 (ix2 n c) = Ref.lin (Ref.h1 x ei emb W1 b1) W2 n c := by
  rw [val_main_v60_apply]
  unfold Ref.lin
  refine Finset.sum_congr rfl fun k _ => ?_
  rw [show lidx_main_v60 (ix2 n c) k = ix2 n k from funext fun a => by
        match a with
        | ⟨0, _⟩ => rfl
        | ⟨1, _⟩ => rfl,
    show ridx_main_v60 (ix2 n c) k = ix2 k c from funext fun a => by
        match a with
        | ⟨0, _⟩ => rfl
        | ⟨1, _⟩ => rfl,
    h1_apply]

/-- The second convolution repeats the first's operations (its slices, degrees and normalisation are the same terms as
    the first's) on the projected hidden features: the node embeddings. -/
theorem z_apply (n : Fin 8192) (c : Fin 128) :
    val_main_v103 (F := Ideal) x ei emb W1 b1 W2 b2 (ix2 n c) = Ref.z x ei emb W1 b1 W2 b2 n c := by
  refine (RefLayer.conv_apply (N := 8192) (E := 524288) (C := 128) Ref.nodes_pos 8192#32
    gather_S8192x128_S524288x1_S524288x128_1_0_n_n_0_1_1128_wf scatter_S8192x128_S524288x1_S524288x128_1_0_0_1_wf
    bcast_S_S524288 bcast_S524288_S524288x1_0 bcast_S524288x1_S524288x128_0_1 bcast_S_S8192x128 bcast_S8192_S8192x1_0
    bcast_S8192x1_S8192x128_0_1 bcast_S128_S1x128_1 bcast_S1x128_S8192x128_0_1
    (val_main_v60 (F := Ideal) x ei emb W1 b1 W2) (val_main_v33 (F := Ideal) ei) (val_main_v47 (F := Ideal) ei)
    (val_main_v8 (F := Ideal) ei) (val_main_v10 (F := Ideal) ei) b2 n c).trans ?_
  unfold Ref.z Ref.layer Ref.row
  simp only [src_apply, dst_apply, xw2_apply, nrm_apply, dd_apply]

/-! ## The decoder -/

/-- The decoder's two arrays of ones read 1. -/
theorem v108_apply (p q : Fin 8192) : val_main_v108 (F := Ideal) (ix2 p q) = (1 : EReal) :=
  RefLayer.ones_apply _ _

theorem v110_apply (p q : Fin 8192) : val_main_v110 (F := Ideal) (ix2 p q) = (1 : EReal) :=
  RefLayer.ones_apply _ _

/-- The last `dot_general`, of the embeddings with their transpose, is the inner product of two nodes' embeddings. -/
theorem gram_apply (p q : Fin 8192) :
    val_main_v105 (F := Ideal) x ei emb W1 b1 W2 b2 (ix2 p q)
      = ∑ c : Fin 128, Ref.z x ei emb W1 b1 W2 b2 p c * Ref.z x ei emb W1 b1 W2 b2 q c := by
  rw [val_main_v105_apply]
  refine Finset.sum_congr rfl fun k _ => ?_
  rw [val_main_v104_apply,
    show lidx_main_v105 (ix2 p q) k = ix2 p k from funext fun a => by
        match a with
        | ⟨0, _⟩ => rfl
        | ⟨1, _⟩ => rfl,
    show idx_main_v104 (ridx_main_v105 (ix2 p q) k) = ix2 q k from funext fun a => by
        match a with
        | ⟨0, _⟩ => rfl
        | ⟨1, _⟩ => rfl,
    z_apply, z_apply]

/-- Negate, exponentiate, add one, divide one by it: the link score. -/
theorem out_apply (p q : Fin 8192) :
    val_main_v111 (F := Ideal) x ei emb W1 b1 W2 b2 (ix2 p q) = Ref.out x ei emb W1 b1 W2 b2 p q := by
  rw [val_main_v111_apply, val_main_v109_apply, val_main_v107_apply, val_main_v106_apply, v110_apply, v108_apply, gram_apply]
  unfold Ref.out
  simp only [Ideal.hostDivf_def, Ideal.addf_def, Ideal.hostUnary_exp_def, Ideal.hostNegf_def, Ideal.negf_def]

/-- THE REFERENCE'S RESULT, as one function of the arguments: entry `(i, j)` is the link score of the node pair. -/
theorem ref_eq :
    val_main_v111 (F := Ideal) x ei emb W1 b1 W2 b2 = fun i => Ref.out x ei emb W1 b1 W2 b2 (i 0) (i 1) := by
  funext i
  obtain ⟨p, q, rfl⟩ : ∃ (p q : Fin 8192), i = ix2 p q := ⟨i 0, i 1, eq_ix2 i⟩
  exact out_apply x ei emb W1 b1 W2 b2 p q

/-! ## The run -/

/-- THE REFERENCE'S RUN: every weakly fair execution of the reference terminates with its result array at the link
    scores of the argument arrays, entry by entry, and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111)
          = (fun i => Ref.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v111_eq (F := Ideal) m c).trans (ref_eq _ _ _ _ _ _ _)), (h c).2⟩)
    (Cert.ReferenceIdeal.Value.run (F := Ideal) m ρ)

end Cert.Gcn.RefRead

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.PreDecode.lean ====
/-
  The precondition, decoded.

  The precondition is one bit: the conjunction of six tests. Five of them say of a float argument x that every entry
  satisfies |x| < +inf, which on the extended reals means the entry is a real number. The sixth says of the integer
  array of edge endpoints that every entry v, read signed, satisfies 0 ≤ v and v < 8192. Each test is an "and" over all
  entries of an elementwise comparison, so the bit being 1 gives the comparison at every entry.
-/
import proofs.«166453_j25847113187564_2_alg».proof.Pre_finite_inputs
import Idealize.ShloMosaic.PureOps.Ideal
import Idealize.ShloMosaic.Lib.ReduceAll
import Idealize.ShloMosaic.Lib.ValueIdx
import proofs.«166453_j25847113187564_2_alg».proof.Proof.LibFiniteEntry

noncomputable section

namespace Cert.Gcn.Pre

open Idealize.ShloMosaic Cert.Pre_finite_inputs Cert.Lib.FiniteEntry

variable [Facts]
open Facts

/-- What the precondition says, entry by entry: the five float arguments hold real numbers, and every edge endpoint,
    read signed, lies in [0, 8192). -/
structure Decoded (a1 : IVec S2x524288 32) (a2 : FVec Ideal S8192x128 .f32) (a3 : FVec Ideal S128x256 .f32)
    (a4 : FVec Ideal S256 .f32) (a5 : FVec Ideal S256x128 .f32) (a6 : FVec Ideal S128 .f32) : Prop where
  emb : ∀ i, ∃ r : ℝ, a2 i = (r : EReal)
  w1 : ∀ i, ∃ r : ℝ, a3 i = (r : EReal)
  b1 : ∀ i, ∃ r : ℝ, a4 i = (r : EReal)
  w2 : ∀ i, ∃ r : ℝ, a5 i = (r : EReal)
  b2 : ∀ i, ∃ r : ℝ, a6 i = (r : EReal)
  edge : ∀ i, 0 ≤ (a1 i).toInt ∧ (a1 i).toInt < 8192

/-- The signed value of the word 8192 is 8192, and of the word 0 is 0. -/
theorem toInt_8192 : (8192#32 : BitVec 32).toInt = 8192 := by decide
theorem toInt_zero : (0#32 : BitVec 32).toInt = 0 := by decide

/-- One endpoint's test, 1: the endpoint read signed is at least 0 and below 8192. -/
theorem range_of_test (v : BitVec 32)
    (h : IntOp.andi (IntOp.cmpi .sge v 0#32) (IntOp.cmpi .slt v 8192#32) = 1#1) :
    0 ≤ v.toInt ∧ v.toInt < 8192 := by
  obtain ⟨hge, hlt⟩ := IntOp.andi_eq_one.1 h
  have h1 := IntOp.cmpi_sge.1 hge
  have h2 := IntOp.cmpi_slt.1 hlt
  rw [toInt_zero] at h1
  rw [toInt_8192] at h2
  exact ⟨h1, h2⟩

/-- THE PRECONDITION DECODED: from the bit being 1, every float entry is a real number and every edge endpoint is a
    node number. -/
theorem decode (a0 : IVec S8192 32) (a1 : IVec S2x524288 32) (a2 : FVec Ideal S8192x128 .f32)
    (a3 : FVec Ideal S128x256 .f32) (a4 : FVec Ideal S256 .f32) (a5 : FVec Ideal S256x128 .f32)
    (a6 : FVec Ideal S128 .f32)
    (h : fn (F := Ideal) a0 a1 a2 a3 a4 a5 a6 = fun _ => 1#1) : Decoded a1 a2 a3 a4 a5 a6 := by
  have h0 := congrFun h ValueIdx.ix0
  dsimp only [fn, fn_part1] at h0
  obtain ⟨h23, h29⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_, fun i => ?_, fun i => ?_, fun i => ?_⟩
  · exact entry_real bcast_S_S8192x128 a2 i (Host.reduce_andi_all _ _ _ _ _ h3 i)
  · exact entry_real bcast_S_S128x256 a3 i (Host.reduce_andi_all _ _ _ _ _ h7 i)
  · exact entry_real bcast_S_S256 a4 i (Host.reduce_andi_all _ _ _ _ _ h12 i)
  · exact entry_real bcast_S_S256x128 a5 i (Host.reduce_andi_all _ _ _ _ _ h17 i)
  · exact entry_real bcast_S_S128 a6 i (Host.reduce_andi_all _ _ _ _ _ h22 i)
  · exact range_of_test (a1 i) (Host.reduce_andi_all _ _ _ _ _ h29 i)

end Cert.Gcn.Pre

end
-- ==== Proof.GcnAlgebraMain.lean ====
/-
  The dense and the edgewise two-layer graph convolution agree under the precondition.

  The precondition, decoded, says that the embedding table, both weight matrices and both biases hold real numbers and
  that every edge endpoint is a node number; these are exactly what the agreement of the two forms asks for.
-/
import proofs.«166453_j25847113187564_2_alg».proof.Proof.PreDecode
import proofs.«166453_j25847113187564_2_alg».proof.Proof.GcnAlgebraNet

noncomputable section

namespace Cert.Gcn.Alg

open Idealize.ShloMosaic Cert.Gcn

/-- THE AGREEMENT UNDER THE DECODED PRECONDITION: at every pair of nodes the dense link score is the edgewise one. -/
theorem dout_eq_ref (x : IVec ⟨1, ![8192]⟩ 32) (ei : IVec ⟨2, ![2, 524288]⟩ 32)
    (emb : FVec Ideal ⟨2, ![8192, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (hD : Cert.Gcn.Pre.Decoded ei emb W1 b1 W2 b2) (i j : Fin 8192) :
    dout x ei emb W1 b1 W2 b2 i j = Ref.out x ei emb W1 b1 W2 b2 i j :=
  dout_eq x ei emb W1 b1 W2 b2 hD.edge hD.emb hD.w1 hD.b1 hD.w2 i j

/-- The same from the precondition itself. -/
theorem dout_eq_ref_of_pre [Cert.Pre_finite_inputs.Facts] (x : IVec ⟨1, ![8192]⟩ 32) (ei : IVec ⟨2, ![2, 524288]⟩ 32)
    (emb : FVec Ideal ⟨2, ![8192, 128]⟩ .f32) (W1 : FVec Ideal ⟨2, ![128, 256]⟩ .f32) (b1 : FVec Ideal ⟨1, ![256]⟩ .f32)
    (W2 : FVec Ideal ⟨2, ![256, 128]⟩ .f32) (b2 : FVec Ideal ⟨1, ![128]⟩ .f32)
    (h : Cert.Pre_finite_inputs.fn (F := Ideal) x ei emb W1 b1 W2 b2 = fun _ => 1#1) (i j : Fin 8192) :
    dout x ei emb W1 b1 W2 b2 i j = Ref.out x ei emb W1 b1 W2 b2 i j :=
  dout_eq_ref x ei emb W1 b1 W2 b2 (Cert.Gcn.Pre.decode x ei emb W1 b1 W2 b2 h) i j

end Cert.Gcn.Alg

end
-- ==== Proof.lean ====
/-
  A two-layer graph convolutional link predictor. Both programs look up a feature row per node, normalise every edge
  (s, t) by 1/√(deg s · deg t) with deg the in-degree plus the self loop, convolve twice (h ↦ Â·(h·W) + b, rectified after
  the first layer) and score every node pair by the logistic function of the embeddings' inner product. The kernel
  builds the dense normalised adjacency Â once on the host (a scatter-add of the edge weights at (t, s), the self loops
  on the diagonal) and runs five kernel calls: two products with the weights, two products with Â plus bias, and the
  decode z·zᵀ under the logistic function. The reference gathers the projected sender rows per edge, scales them, adds
  them at the receivers, and adds the self loop's message and the bias.

  At the ideal instance every intermediate is a real number when the float inputs are finite, and when every entry of
  the edge array is a node number (0 ≤ e < 8192) an edge lands at (t, s) in Â exactly when the reference adds its message
  at t from the row s; then ∑ₖ Â(n,k)·Y(k,c) = ∑_{edges into n} Y(s,c)·w + Y(n,c)·d(n)², which joins the two sides layer
  by layer; the kernel's logistic function is 1/(1 + exp(−x)) on the reals.

  The three frames: the kernel program (read at words and at extended reals) is run as nine segments — four stretches
  of host operations and five kernel calls — each call entered from the buffer contents the segment before it left;
  the reference is a straight line of host operations.
-/
import proofs.«166453_j25847113187564_2_alg».proof.Defs
import proofs.«166453_j25847113187564_2_alg».proof.Proof.Gen.Kernel
import proofs.«166453_j25847113187564_2_alg».proof.Proof.Gen.KernelIdeal
import proofs.«166453_j25847113187564_2_alg».proof.Proof.Gen.ReferenceIdeal
import proofs.«166453_j25847113187564_2_alg».proof.Proof.Gen.Pre_finite_inputs
import proofs.«166453_j25847113187564_2_alg».proof.Proof.Gen.ReferenceIdeal.Run
import proofs.«166453_j25847113187564_2_alg».proof.Proof.KRunC
import proofs.«166453_j25847113187564_2_alg».proof.Proof.KIRunC
import proofs.«166453_j25847113187564_2_alg».proof.Proof.KIValueAll
import proofs.«166453_j25847113187564_2_alg».proof.Proof.RefRead
import proofs.«166453_j25847113187564_2_alg».proof.Proof.GcnAlgebraMain

noncomputable section

namespace Cert.Proof

open Idealize.ShloMosaic Idealize.SL.Sem

/-- The word-level kernel program runs to the end, nothing faulting, its arguments unchanged. -/
theorem frame_k : Cert.frame_Kernel := fun m ρ _ =>
  (θ_run (Cert.Kernel.defs (F := Bits)) _ _).mono (fun _ h c => (h c).2) (Cert.Kernel.Hand.run_main (F := Bits) m ρ)

/-- So does the kernel program read at extended reals. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- From memories agreeing on the arguments both programs end with the same link scores: the kernel's result array is
    the dense form of the network at its arguments, the reference's the per-edge form at its own, and the two forms
    agree on finite floats and in-range edge words. -/
theorem algebraic : Cert.algebraic_KernelIdeal_ReferenceIdeal := by
  intro m ρ m' ρ' hpre hagree
  refine ⟨fun c => Cert.KernelIdeal.Hand.W9 m ρ c (Proc.devRef .tc Cert.KernelIdeal.main_v60),
    Cert.KernelIdeal.Hand.run_main (F := Ideal) m ρ, ?_⟩
  refine (θ_run Cert.ReferenceIdeal.defs _ _).mono (fun _ h c => ⟨(h c).1.trans ?_, (h c).2⟩)
    (Cert.Gcn.RefRead.run_ref m' ρ')
  show _ = Cert.KernelIdeal.Hand.W9 m ρ c (Proc.devRef .tc Cert.KernelIdeal.main_v60)
  rw [Cert.KernelIdeal.Hand.kernel_value m ρ c, (hagree c).1, (hagree c).2.1, (hagree c).2.2.1, (hagree c).2.2.2.1,
    (hagree c).2.2.2.2.1, (hagree c).2.2.2.2.2.1, (hagree c).2.2.2.2.2.2]
  funext i
  exact (Cert.Gcn.Alg.dout_eq_ref_of_pre _ _ _ _ _ _ _ (hpre c) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
